-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000 : Shape := ⟨1, ![100000]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S16384 32) (main_arg1 : IVec S100000 32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 99999#32
  let main_v2 : IVec S16384 32 := broadcastInDim S16384 ![] bcast_S_S16384 main_c_0
  let main_v3 : IVec S16384 1 := cmpi .sle main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S100000 32 := broadcastInDim S100000 ![] bcast_S_S100000 main_c_2
  let main_v7 : IVec S100000 1 := cmpi .sge main_arg1 main_v6
  let main_c_3 : IVec S_ 32 := constantI S_ 32 99999#32
  let main_v8 : IVec S100000 32 := broadcastInDim S100000 ![] bcast_S_S100000 main_c_3
  let main_v9 : IVec S100000 1 := cmpi .sle main_arg1 main_v8
  let main_v10 : IVec S100000 1 := andi main_v7 main_v9
  let main_c_4 : IVec S_ 1 := constantI S_ 1 1#1
  let main_v11 : IVec S_ 1 := (fun x v => Host.reduce IntOp.andi x v reducesTo_S100000_S_d0 h_S_) main_v10 main_c_4
  let main_v12 : IVec S_ 1 := andi main_v5 main_v11
  main_v12
-- ==== Kernel.lean ====
abbrev S16384 : Shape := ⟨1, ![16384]⟩
abbrev S100000 : Shape := ⟨1, ![100000]⟩
abbrev S1024 : Shape := ⟨1, ![1024]⟩
abbrev S_ : Shape := ⟨0, ![]⟩
abbrev S128 : Shape := ⟨1, ![128]⟩
abbrev S16384x1 : Shape := ⟨2, ![16384, 1]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S100000, .i32⟩
  | .hbm, ⟨2, _⟩ => ⟨S16384, .i32⟩
  | .hbm, ⟨3, _⟩ => ⟨S16384x1, .i32⟩
  | .local .scVector .vmem, ⟨0, _⟩ => ⟨S1024, .i32⟩
  | .local .scVector .vmem, ⟨1, _⟩ => ⟨S1024, .i32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) (c0_i32 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1024_S128_0 : ∀ a, (![0] : Fin 1 → Nat) a + S128.size a ≤ S1024.size a
  inb_S1024_S128_128 : ∀ a, (![128] : Fin 1 → Nat) a + S128.size a ≤ S1024.size a
  inb_S1024_S128_256 : ∀ a, (![256] : Fin 1 → Nat) a + S128.size a ≤ S1024.size a
  inb_S1024_S128_384 : ∀ a, (![384] : Fin 1 → Nat) a + S128.size a ≤ S1024.size a
  inb_S1024_S128_512 : ∀ a, (![512] : Fin 1 → Nat) a + S128.size a ≤ S1024.size a
  inb_S1024_S128_640 : ∀ a, (![640] : Fin 1 → Nat) a + S128.size a ≤ S1024.size a
  inb_S1024_S128_768 : ∀ a, (![768] : Fin 1 → Nat) a + S128.size a ≤ S1024.size a
  inb_S1024_S128_896 : ∀ a, (![896] : Fin 1 → Nat) a + S128.size a ≤ S1024.size a
  inb_S100000_S100000_0 : ∀ a, (![0] : Fin 1 → Nat) a + S100000.size a ≤ S100000.size a
  gathers_S100000_S128 : S100000.Gathers 0 S128
  shapeCasts_S16384_S16384x1 : S16384.ShapeCasts S16384x1
  hcc0_scratch2 : 0 + S_.numel ≤ 24
  hcc0_scratch3 : 1 + S_.numel ≤ 24
  hcc0_scratch4 : 2 + S_.numel ≤ 24
  hcc0_scratch5 : 3 + S_.numel ≤ 24
  hcc0_scratch6 : 4 + S_.numel ≤ 24
  hcc0_scratch7 : 5 + S_.numel ≤ 24
  hcc0_scratch8 : 6 + S_.numel ≤ 24
  hcc0_scratch9 : 7 + S_.numel ≤ 24
  hcc0_scratch10 : 8 + S_.numel ≤ 24
  hcc0_scratch11 : 9 + S_.numel ≤ 24
  hcc0_scratch12 : 10 + S_.numel ≤ 24
  hcc0_scratch13 : 11 + S_.numel ≤ 24
  hcc0_scratch14 : 12 + S_.numel ≤ 24
  hcc0_scratch15 : 13 + S_.numel ≤ 24
  hcc0_scratch16 : 14 + S_.numel ≤ 24
  hcc0_scratch17 : 15 + S_.numel ≤ 24
  hcc0_scratch18 : 16 + S_.numel ≤ 24
  hcc0_scratch19 : 17 + S_.numel ≤ 24
  hcc0_scratch20 : 18 + S_.numel ≤ 24
  hcc0_scratch21 : 19 + S_.numel ≤ 24
  hcc0_scratch22 : 20 + S_.numel ≤ 24
  hcc0_scratch23 : 21 + S_.numel ≤ 24
  hcc0_scratch24 : 22 + S_.numel ≤ 24
  hcc0_scratch25 : 23 + S_.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 8), ∀ a, (k0_off1 i (BitVec.ofNat 32 (128 * r.val))) a + S128.size a ≤ S16384.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11
abbrev cc0_scratch12 : DmaSems sig S_ := SemArray.consecutive 10 S_ hcc0_scratch12
abbrev cc0_scratch13 : DmaSems sig S_ := SemArray.consecutive 11 S_ hcc0_scratch13
abbrev cc0_scratch14 : DmaSems sig S_ := SemArray.consecutive 12 S_ hcc0_scratch14
abbrev cc0_scratch15 : DmaSems sig S_ := SemArray.consecutive 13 S_ hcc0_scratch15
abbrev cc0_scratch16 : DmaSems sig S_ := SemArray.consecutive 14 S_ hcc0_scratch16
abbrev cc0_scratch17 : DmaSems sig S_ := SemArray.consecutive 15 S_ hcc0_scratch17
abbrev cc0_scratch18 : DmaSems sig S_ := SemArray.consecutive 16 S_ hcc0_scratch18
abbrev cc0_scratch19 : DmaSems sig S_ := SemArray.consecutive 17 S_ hcc0_scratch19
abbrev cc0_scratch20 : DmaSems sig S_ := SemArray.consecutive 18 S_ hcc0_scratch20
abbrev cc0_scratch21 : DmaSems sig S_ := SemArray.consecutive 19 S_ hcc0_scratch21
abbrev cc0_scratch22 : DmaSems sig S_ := SemArray.consecutive 20 S_ hcc0_scratch22
abbrev cc0_scratch23 : DmaSems sig S_ := SemArray.consecutive 21 S_ hcc0_scratch23
abbrev cc0_scratch24 : DmaSems sig S_ := SemArray.consecutive 22 S_ hcc0_scratch24
abbrev cc0_scratch25 : DmaSems sig S_ := SemArray.consecutive 23 S_ hcc0_scratch25

class Facts : Prop extends Facts₀ where

variable [Facts]
-- ==== ReferenceIdeal.lean ====
abbrev S16384 : Shape := ⟨1, ![16384]⟩
abbrev S100000 : Shape := ⟨1, ![100000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S16384, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S1, .i32⟩
  | .hbm, ⟨26, _⟩ => ⟨S_, .i32⟩
  | .hbm, ⟨27, _⟩ => ⟨S16384x1, .i32⟩
  | .hbm, ⟨28, _⟩ => ⟨S16384x1, .i1⟩
  | .hbm, ⟨29, _⟩ => ⟨S1x1, .i32⟩
  | .hbm, ⟨30, _⟩ => ⟨S16384x1, .i32⟩
  | .hbm, ⟨31, _⟩ => ⟨S16384x1, .i1⟩
  | .hbm, ⟨32, _⟩ => ⟨S16384x1, .i1⟩
  | .hbm, ⟨33, _⟩ => ⟨S_, .i1⟩
  | .hbm, ⟨34, _⟩ => ⟨S16384, .i1⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384x1, .i32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_c_4 : Ref sig .tc := ⟨.hbm, 36, rfl⟩
abbrev main_call1_v14 : Ref sig .tc := ⟨.hbm, 37, rfl⟩
abbrev main_v6 : Ref sig .tc := ⟨.hbm, 38, rfl⟩
abbrev main_c_3 : Ref sig .tc := ⟨.hbm, 39, rfl⟩
abbrev main_call2_v0 : Ref sig .tc := ⟨.hbm, 40, rfl⟩
abbrev main_v7 : Ref sig .tc := ⟨.hbm, 41, rfl⟩
abbrev main_v8 : Ref sig .tc := ⟨.hbm, 42, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  shapeCasts_S16384_S16384x1 : S16384.ShapeCasts S16384x1
  gather_S100000_S16384x1_S16384_n_0_n_n_0_1_1_wf : GatherDims.WF S100000 S16384x1 S16384 [] [0] [] [0] [] 1 ![1]

variable [Facts₀]

def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf

class Facts : Prop extends Facts₀ where

variable [Facts]
-- ==== Proof.LibGather1.lean ====
import Idealize.ShloMosaic.Lib.SparseCore.Stream
import Idealize.ShloMosaic.Lib.Writes

/-!
# A rank-one indirect gather read at an index

Pure facts about what an element-by-element gather delivers, over literal-free shapes of rank one:

* a single write of a payload through the whole of a view, read back through the same view, is the payload;
* the payload of a gather of a vector `[z]` into a vector `[o]` along axis `0`, at position `x`, is the source at
  the position the offset list holds at `x`;
* two unit-stride rectangles with equal offsets have equal element sets.
-/

noncomputable section

namespace Idealize.ShloMosaic.Gather1

open Idealize.ShloMosaic

variable {sig : RefSig} {κ : Kind} {sp : Space} {Val : EltTy → Type}

/-- One payload written through the whole of a rank-one view and read back through it is the payload. -/
theorem read_writes_whole {n : ℕ} {e : EltTy} (v : View sig κ sp ⟨1, ![n]⟩ e) (f : v.ty.Contents Val)
    (w : (Rect.whole (⟨1, ![n]⟩ : Shape)).shape.Idx → Val e) (x : (⟨1, ![n]⟩ : Shape).Idx) :
    v.read Val (v.writes Val f [⟨Rect.whole _, w⟩]) x = w x := by
  have h := View.read_writes_cons_emb v f (Rect.whole _) w [] x
  rwa [Rect.emb_whole_apply] at h

/-- A position of a vector `[z]`: the number reduced into range. -/
def pos (z : ℕ) (hz : 0 < z) (k : ℕ) : (⟨1, ![z]⟩ : Shape).Idx
  | ⟨0, _⟩ => ⟨k % z, (Nat.mod_lt _ hz : k % z < z)⟩

theorem pos_val (z : ℕ) (hz : 0 < z) (k : ℕ) (a : Fin 1) : (pos z hz k a).val = k % z := by
  obtain rfl : a = 0 := Subsingleton.elim _ _
  rfl

variable {F : FTy → Type}

/-- The gather of a vector `[z]` into a vector `[o]` along axis `0`, at position `x`: the source at the position the
    offset list's word at `x` names. -/
theorem gatherPayload_apply {z o : ℕ} {e : EltTy} (hz : 0 < z) (hg : (⟨1, ![z]⟩ : Shape).Gathers 0 ⟨1, ![o]⟩)
    (g : (⟨1, ![z]⟩ : Shape).Idx → Elt F e) (idx : (⟨1, ![o]⟩ : Shape).Idx → Elt F .i32)
    (hn : (⟨1, ![o]⟩ : Shape).numel = (⟨1, ![o]⟩ : Shape).size hg.axis')
    (hin : ∀ x, (idx x).toNat < (⟨1, ![z]⟩ : Shape).size hg.axis) (x : (⟨1, ![o]⟩ : Shape).Idx) :
    SparseCore.gatherPayload hg g (SparseCore.rows idx hn hin) x = g (pos z hz (idx x).toNat) := by
  unfold SparseCore.gatherPayload
  congr 1
  funext b
  obtain rfl : b = hg.axis := Subsingleton.elim _ _
  rw [Shape.Gathers.idx_axis]
  apply Fin.ext
  have hx : (⟨1, ![o]⟩ : Shape).rowMajor.symm ((x hg.axis').cast hn.symm) = x := by
    apply (⟨1, ![o]⟩ : Shape).rowMajor.injective
    rw [Equiv.apply_symm_apply]
    apply Fin.ext
    rw [Shape.rowMajor_val_one]
    show (x hg.axis').val = (x 0).val
    congr 2
  rw [pos_val]
  show (idx ((⟨1, ![o]⟩ : Shape).rowMajor.symm ((x hg.axis').cast hn.symm))).toNat = (idx x).toNat % z
  rw [hx]
  exact (Nat.mod_eq_of_lt (hin x)).symm

/-- Unit-stride rectangles at equal offsets hold the same elements. -/
theorem set_unit_congr {s : Shape} {off off' size : Fin s.rank → ℕ} {inb : ∀ a, off a + size a ≤ s.size a}
    {inb' : ∀ a, off' a + size a ≤ s.size a} (h : off = off') :
    (Rect.unit off size inb).set = (Rect.unit off' size inb').set := by
  subst h; rfl

end Idealize.ShloMosaic.Gather1

end
-- ==== Proof.BitsSetup.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.Kernel
import proofs.«210393_g26654567039053_cont_9to1_1641_13_alg».proof.Proof.Gen.Kernel.Skeleton
import proofs.«210393_g26654567039053_cont_9to1_1641_13_alg».proof.Proof.LibGather1

noncomputable section

/-!
# The lookup kernel: vocabulary and pure facts

The kernel gathers `out[p] = values[uis[p]]` for `p < 16384`. Sixteen vector subcores each own 1024 consecutive positions,
cut into eight chunks of 128. This module names the arrays, the chunks' element sets, the function the kernel computes
(`Gv`), and proves the pure facts the run needs: what a chunk of `out` holds after index fetch, gather and write-back,
and that the fetched indices are in range when every word of `uis` is below 100000.
-/

namespace Cert.Proof.BitsLookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- `uis`, `values` (the arguments) and `out` (the kernel's result), as locations of device `d`. -/
abbrev uLoc (d : Dev nD) : Loc nD τ sig := (SparseCore.T d).loc main_arg0
abbrev vLoc (d : Dev nD) : Loc nD τ sig := (SparseCore.T d).loc main_arg1
abbrev oLoc (d : Dev nD) : Loc nD τ sig := (SparseCore.T d).loc main_v0

abbrev uW : Memref sig .scVector .hbm S16384 .i32 := Memref.whole main_arg0_scv
abbrev vW : Memref sig .scVector .hbm S100000 .i32 := Memref.whole main_arg1_scv
abbrev oW : Memref sig .scVector .hbm S16384 .i32 := Memref.whole main_v0_scv
/-- A subcore's two scratch vectors: the fetched indices, the gathered values. -/
abbrev aW : Memref sig .scVector .vmem S1024 .i32 := Memref.whole cc0_scratch0
abbrev bW : Memref sig .scVector .vmem S1024 .i32 := Memref.whole cc0_scratch1

abbrev cV (L : grid0.Coords) : Fin τ.nSC := (L 0).castLE hcore0
abbrev jV (L : grid0.Coords) : Fin τ.nSub := (L 1).castLE hsub0
theorem bound_one : grid0.bound 1 = 16 := rfl
/-- The subcore's number among the sixteen. -/
abbrev iL (L : grid0.Coords) : Fin 16 := Fin.cast bound_one (L 1)

/-- A chunk of 128 words of `uis` / of `out` at the word offset the kernel computes, and of a scratch vector at a
    literal offset. -/
abbrev uS (L : grid0.Coords) (w : BitVec 32) (h : ∀ a, (k0_off1 L w) a + S128.size a ≤ S16384.size a) : Memref sig .scVector .hbm S128 .i32 :=
  uW.slice (Rect.unit (s := S16384) (k0_off1 L w) S128.size h) (fun _ => rfl)
abbrev oS (L : grid0.Coords) (w : BitVec 32) (h : ∀ a, (k0_off1 L w) a + S128.size a ≤ S16384.size a) : Memref sig .scVector .hbm S128 .i32 :=
  oW.slice (Rect.unit (s := S16384) (k0_off1 L w) S128.size h) (fun _ => rfl)
abbrev aS (o : Nat) (h : ∀ a, (![o] : Fin 1 → Nat) a + S128.size a ≤ S1024.size a) : Memref sig .scVector .vmem S128 .i32 :=
  aW.slice (Rect.unit (s := S1024) ![o] S128.size h) (fun _ => rfl)
abbrev bS (o : Nat) (h : ∀ a, (![o] : Fin 1 → Nat) a + S128.size a ≤ S1024.size a) : Memref sig .scVector .vmem S128 .i32 :=
  bW.slice (Rect.unit (s := S1024) ![o] S128.size h) (fun _ => rfl)
/-- `values` whole, as the kernel slices it for the gather. -/
abbrev vSl : Memref sig .scVector .hbm S100000 .i32 :=
  vW.slice (Rect.unit (s := S100000) ![0] S100000.size inb_S100000_S100000_0) (fun _ => rfl)

/-! ## The chunks' element sets -/

theorem cs_inb (i : Fin 16) (j : Fin 8) : ∀ a, (![1024 * i.val + 128 * j.val] : Fin 1 → Nat) a + S128.size a ≤ S16384.size a :=
  Rect.inb₁ (by have := i.isLt; have := j.isLt; show 1024 * i.val + 128 * j.val + 128 ≤ 16384; omega)
/-- Chunk `j` of subcore `i`: positions `1024 i + 128 j … + 127`. -/
def cs (i : Fin 16) (j : Fin 8) : Finset S16384.Idx := (Rect.unit (s := S16384) ![1024 * i.val + 128 * j.val] S128.size (cs_inb i j)).set

theorem ss_inb (j : Fin 8) : ∀ a, (![128 * j.val] : Fin 1 → Nat) a + S128.size a ≤ S1024.size a :=
  Rect.inb₁ (by have := j.isLt; show 128 * j.val + 128 ≤ 1024; omega)
/-- Chunk `j` of a scratch vector: positions `128 j … + 127`. -/
def ss (j : Fin 8) : Finset S1024.Idx := (Rect.unit (s := S1024) ![128 * j.val] S128.size (ss_inb j)).set

theorem off_eq (L : grid0.Coords) (j : Fin 8) : k0_off1 L (BitVec.ofNat 32 (128 * j.val)) = ![1024 * (iL L).val + 128 * j.val] := by
  rw [k0_off1_eq]
  have h0 : (L 0).val = 0 := Nat.lt_one_iff.mp (show (L 0).val < 1 from (L 0).isLt)
  refine congrArg (fun n : ℕ => ![n]) ?_
  show 1024 * (L 1).val + 1024 * (L 0).val + 128 * j.val = 1024 * (L 1).val + 128 * j.val
  omega

theorem set_uS (L : grid0.Coords) (j : Fin 8) : (uS L (BitVec.ofNat 32 (128 * j.val)) (k0_off1_inb L j)).view.set = cs (iL L) j := by
  show ((View.whole main_arg0_scv).slice (Rect.unit (s := S16384) (k0_off1 L (BitVec.ofNat 32 (128 * j.val))) S128.size (k0_off1_inb L j))).set = _
  rw [View.set_slice_whole]
  exact Gather1.set_unit_congr (off_eq L j)
theorem set_oS (L : grid0.Coords) (j : Fin 8) : (oS L (BitVec.ofNat 32 (128 * j.val)) (k0_off1_inb L j)).view.set = cs (iL L) j := by
  show ((View.whole main_v0_scv).slice (Rect.unit (s := S16384) (k0_off1 L (BitVec.ofNat 32 (128 * j.val))) S128.size (k0_off1_inb L j))).set = _
  rw [View.set_slice_whole]
  exact Gather1.set_unit_congr (off_eq L j)
theorem set_aS (j : Fin 8) : (aS (128 * j.val) (ss_inb j)).view.set = ss j := by
  show ((View.whole cc0_scratch0).slice (Rect.unit (s := S1024) ![128 * j.val] S128.size (ss_inb j))).set = _
  rw [View.set_slice_whole]; rfl
theorem set_bS (j : Fin 8) : (bS (128 * j.val) (ss_inb j)).view.set = ss j := by
  show ((View.whole cc0_scratch1).slice (Rect.unit (s := S1024) ![128 * j.val] S128.size (ss_inb j))).set = _
  rw [View.set_slice_whole]; rfl

theorem cs_disjoint : ∀ p ∈ (Finset.univ : Finset (Fin 16 × Fin 8)), ∀ p' ∈ (Finset.univ : Finset (Fin 16 × Fin 8)), p ≠ p' →
    Disjoint (cs p.1 p.2) (cs p'.1 p'.2) := by
  rintro ⟨i, j⟩ - ⟨i', j'⟩ - hne
  refine Rect.unit_disjoint 0 ?_
  have hi := i.isLt; have hj := j.isLt; have hi' := i'.isLt; have hj' := j'.isLt
  show 1024 * i.val + 128 * j.val + 128 ≤ 1024 * i'.val + 128 * j'.val ∨ 1024 * i'.val + 128 * j'.val + 128 ≤ 1024 * i.val + 128 * j.val
  by_cases h1 : i.val = i'.val
  · by_cases h2 : j.val = j'.val
    · exact absurd (Prod.ext (Fin.ext h1) (Fin.ext h2)) hne
    · omega
  · omega
theorem cs_cover : (Finset.univ : Finset (Fin 16 × Fin 8)).biUnion (fun p => cs p.1 p.2) = Finset.univ := by
  ext x
  simp only [Finset.mem_biUnion, Finset.mem_univ, true_and, iff_true]
  have hx : (x 0).val < 16384 := (x 0).isLt
  refine ⟨(⟨(x 0).val / 1024, by omega⟩, ⟨(x 0).val % 1024 / 128, by omega⟩), ?_⟩
  refine Rect.mem_set_unit.mpr fun a => ?_
  obtain rfl : a = 0 := Subsingleton.elim _ _
  show 1024 * ((x 0).val / 1024) + 128 * ((x 0).val % 1024 / 128) ≤ (x 0).val ∧ (x 0).val < 1024 * ((x 0).val / 1024) + 128 * ((x 0).val % 1024 / 128) + 128
  omega
theorem ss_disjoint : ∀ j ∈ (Finset.univ : Finset (Fin 8)), ∀ j' ∈ (Finset.univ : Finset (Fin 8)), j ≠ j' → Disjoint (ss j) (ss j') := by
  intro j _ j' _ hne
  refine Rect.unit_disjoint 0 ?_
  have hj := j.isLt; have hj' := j'.isLt
  have : j.val ≠ j'.val := fun h => hne (Fin.ext h)
  show 128 * j.val + 128 ≤ 128 * j'.val ∨ 128 * j'.val + 128 ≤ 128 * j.val
  omega
theorem ss_cover : (Finset.univ : Finset (Fin 8)).biUnion ss = Finset.univ := by
  ext x
  simp only [Finset.mem_biUnion, Finset.mem_univ, true_and, iff_true]
  have hx : (x 0).val < 1024 := (x 0).isLt
  refine ⟨⟨(x 0).val / 128, by omega⟩, ?_⟩
  refine Rect.mem_set_unit.mpr fun a => ?_
  obtain rfl : a = 0 := Subsingleton.elim _ _
  show 128 * ((x 0).val / 128) ≤ (x 0).val ∧ (x 0).val < 128 * ((x 0).val / 128) + 128
  omega

/-! ## What the kernel computes -/

/-- What the proof asks of the launch memory: every word of `uis` names a position of `values`. -/
def PreOK : Prop := ∀ (d : Dev nD) (y : S16384.Idx), (m (uLoc d) y).toNat < 100000

/-- The kernel's result: at position `y`, `values` at the position `uis y` names. -/
def Gv (d : Dev nD) : Buf (Elt F) (oLoc d) := fun y => m (vLoc d) (Gather1.pos 100000 (by norm_num) (m (uLoc d) y).toNat)

variable [FloatOps F]
variable (d : Dev nD) (L : grid0.Coords)

theorem read_uS (w : BitVec 32) (hw) (x : S128.Idx) :
    (uS L w hw).view.read (Elt F) (m (uLoc d)) x = m (uLoc d) ((uS L w hw).view.emb x) :=
  (View.read_apply _ _).trans (cast_eq _ _)

/-- The words a chunk's index fetch leaves in the scratch are words of `uis`: in range. -/
theorem fetched_inb (hpre : PreOK m) (w : BitVec 32) (hw) (o : ℕ) (ho)
    (g : Buf (Elt F) ((V d (cV L) (jV L)).loc cc0_scratch0)) (x : S128.Idx) :
    ((aS o ho).view.read (Elt F) ((aS o ho).view.writes (Elt F) g
      [⟨Rect.whole S128, ReadAs.same.apply ((uS L w hw).view.read (Elt F) (m (uLoc d)))⟩]) x).toNat < 100000 := by
  rw [Gather1.read_writes_whole]
  show ((uS L w hw).view.read (Elt F) (m (uLoc d)) x).toNat < 100000
  rw [read_uS]
  exact hpre d _

theorem emb_vSl (z : S100000.Idx) : (vSl).view.emb z = z := by
  funext a; apply Fin.ext
  have ha : a = (0 : Fin 1) := Subsingleton.elim (α := Fin 1) _ _
  subst ha
  show 0 + 1 * (z 0).val = (z 0).val
  omega

/-- A chunk of `out` after the three transfers: the scratch's gathered values written back, the gathered values those of
    `values` at the fetched words of `uis` — position by position, `Gv`. -/
theorem out_val (w : BitVec 32) (hw) (o : ℕ) (ho)
    (fb : Buf (Elt F) ((V d (cV L) (jV L)).loc cc0_scratch1)) (ga : Buf (Elt F) ((V d (cV L) (jV L)).loc cc0_scratch0))
    (hn : S128.numel = S128.size (gathers_S100000_S128 : S100000.Gathers 0 S128).axis')
    (hin : ∀ x, ((aS o ho).view.read (Elt F) ((aS o ho).view.writes (Elt F) ga
      [⟨Rect.whole S128, ReadAs.same.apply ((uS L w hw).view.read (Elt F) (m (uLoc d)))⟩]) x).toNat < S100000.size (gathers_S100000_S128 : S100000.Gathers 0 S128).axis) :
    ∀ y ∈ (oS L w hw).view.set,
      (oS L w hw).view.writes (Elt F) (m (oLoc d))
        [⟨Rect.whole S128, ReadAs.same.apply ((bS o ho).view.read (Elt F) ((bS o ho).view.writes (Elt F) fb
          [⟨Rect.whole S128, SparseCore.gatherPayload gathers_S100000_S128 ((vSl).view.read (Elt F) (m (vLoc d)))
            (SparseCore.rows ((aS o ho).view.read (Elt F) ((aS o ho).view.writes (Elt F) ga
              [⟨Rect.whole S128, ReadAs.same.apply ((uS L w hw).view.read (Elt F) (m (uLoc d)))⟩])) hn hin)⟩]))⟩] y
      = Gv m d y := by
  intro y hy
  obtain ⟨x, -, rfl⟩ := Finset.mem_map.mp hy
  have h1 := Gather1.read_writes_whole (Val := Elt F) (oS L w hw).view (m (oLoc d))
    (ReadAs.same.apply ((bS o ho).view.read (Elt F) ((bS o ho).view.writes (Elt F) fb
          [⟨Rect.whole S128, SparseCore.gatherPayload gathers_S100000_S128 ((vSl).view.read (Elt F) (m (vLoc d)))
            (SparseCore.rows ((aS o ho).view.read (Elt F) ((aS o ho).view.writes (Elt F) ga
              [⟨Rect.whole S128, ReadAs.same.apply ((uS L w hw).view.read (Elt F) (m (uLoc d)))⟩])) hn hin)⟩]))) x
  rw [View.read_apply] at h1
  refine (cast_eq _ _).symm.trans (h1.trans ?_)
  show (bS o ho).view.read (Elt F) _ x = _
  rw [Gather1.read_writes_whole, Gather1.gatherPayload_apply (by norm_num : 0 < 100000)]
  rw [Gather1.read_writes_whole]
  show (vSl).view.read (Elt F) (m (vLoc d)) (Gather1.pos 100000 _ ((uS L w hw).view.read (Elt F) (m (uLoc d)) x).toNat) = _
  rw [View.read_apply, emb_vSl, read_uS]
  exact cast_eq _ _

end Cert.Proof.BitsLookup

end
-- ==== Proof.BitsTile.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.Kernel
import proofs.«210393_g26654567039053_cont_9to1_1641_13_alg».proof.Proof.Gen.Kernel.Skeleton
import proofs.«210393_g26654567039053_cont_9to1_1641_13_alg».proof.Proof.BitsSetup

noncomputable section

/-!
# One subcore's task

The task of vector subcore `(L 0, L 1)`: eight index fetches (a chunk of `uis` into the index scratch), each waited for and
followed by the gather of `values` at the fetched words into the value scratch, each gather waited for and followed by the
write-back of the gathered chunk into `out`, and the eight write-backs waited for. Every transfer touches one chunk only, so
the subcore holds each chunk of each array as a resource of its own; `values` is read by up to eight gathers at once, each
under a read share of its own. At the end every chunk of `out` holds the gathered values (`Gv`).
-/

namespace Cert.Proof.BitsLookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

set_option maxRecDepth 4096 in
theorem tile_core (hpre : PreOK m) (O : CellTallies nD τ sig (HIx 1)) (W : Waits sig (HIx 1)) (hO : ∀ g, O g none = 0)
    (fa : Buf (Elt F) ((V d (cV L) (jV L)).loc cc0_scratch0)) (fb : Buf (Elt F) ((V d (cV L) (jV L)).loc cc0_scratch1))
    (q : Fin 8 → PosShare TreeShare) :
    iprop(levAts (K (F := F)).L (K (F := F)).lev
        ∗ (((uS L 0#32 (k0_off1_inb L 0)).view.loc (V d (cV L) (jV L)) ↦[(uS L 0#32 (k0_off1_inb L 0)).view.set]{fullShare} m (uLoc d) : sProp 𝕄))
        ∗ (((uS L 128#32 (k0_off1_inb L 1)).view.loc (V d (cV L) (jV L)) ↦[(uS L 128#32 (k0_off1_inb L 1)).view.set]{fullShare} m (uLoc d) : sProp 𝕄))
        ∗ (((uS L 256#32 (k0_off1_inb L 2)).view.loc (V d (cV L) (jV L)) ↦[(uS L 256#32 (k0_off1_inb L 2)).view.set]{fullShare} m (uLoc d) : sProp 𝕄))
        ∗ (((uS L 384#32 (k0_off1_inb L 3)).view.loc (V d (cV L) (jV L)) ↦[(uS L 384#32 (k0_off1_inb L 3)).view.set]{fullShare} m (uLoc d) : sProp 𝕄))
        ∗ (((uS L 512#32 (k0_off1_inb L 4)).view.loc (V d (cV L) (jV L)) ↦[(uS L 512#32 (k0_off1_inb L 4)).view.set]{fullShare} m (uLoc d) : sProp 𝕄))
        ∗ (((uS L 640#32 (k0_off1_inb L 5)).view.loc (V d (cV L) (jV L)) ↦[(uS L 640#32 (k0_off1_inb L 5)).view.set]{fullShare} m (uLoc d) : sProp 𝕄))
        ∗ (((uS L 768#32 (k0_off1_inb L 6)).view.loc (V d (cV L) (jV L)) ↦[(uS L 768#32 (k0_off1_inb L 6)).view.set]{fullShare} m (uLoc d) : sProp 𝕄))
        ∗ (((uS L 896#32 (k0_off1_inb L 7)).view.loc (V d (cV L) (jV L)) ↦[(uS L 896#32 (k0_off1_inb L 7)).view.set]{fullShare} m (uLoc d) : sProp 𝕄))
        ∗ ((vW.view.loc (V d (cV L) (jV L)) ↦{q 0} m (vLoc d) : sProp 𝕄))
        ∗ ((vW.view.loc (V d (cV L) (jV L)) ↦{q 1} m (vLoc d) : sProp 𝕄))
        ∗ ((vW.view.loc (V d (cV L) (jV L)) ↦{q 2} m (vLoc d) : sProp 𝕄))
        ∗ ((vW.view.loc (V d (cV L) (jV L)) ↦{q 3} m (vLoc d) : sProp 𝕄))
        ∗ ((vW.view.loc (V d (cV L) (jV L)) ↦{q 4} m (vLoc d) : sProp 𝕄))
        ∗ ((vW.view.loc (V d (cV L) (jV L)) ↦{q 5} m (vLoc d) : sProp 𝕄))
        ∗ ((vW.view.loc (V d (cV L) (jV L)) ↦{q 6} m (vLoc d) : sProp 𝕄))
        ∗ ((vW.view.loc (V d (cV L) (jV L)) ↦{q 7} m (vLoc d) : sProp 𝕄))
        ∗ (((oS L 0#32 (k0_off1_inb L 0)).view.loc (V d (cV L) (jV L)) ↦[(oS L 0#32 (k0_off1_inb L 0)).view.set]{fullShare} m (oLoc d) : sProp 𝕄))
        ∗ (((oS L 128#32 (k0_off1_inb L 1)).view.loc (V d (cV L) (jV L)) ↦[(oS L 128#32 (k0_off1_inb L 1)).view.set]{fullShare} m (oLoc d) : sProp 𝕄))
        ∗ (((oS L 256#32 (k0_off1_inb L 2)).view.loc (V d (cV L) (jV L)) ↦[(oS L 256#32 (k0_off1_inb L 2)).view.set]{fullShare} m (oLoc d) : sProp 𝕄))
        ∗ (((oS L 384#32 (k0_off1_inb L 3)).view.loc (V d (cV L) (jV L)) ↦[(oS L 384#32 (k0_off1_inb L 3)).view.set]{fullShare} m (oLoc d) : sProp 𝕄))
        ∗ (((oS L 512#32 (k0_off1_inb L 4)).view.loc (V d (cV L) (jV L)) ↦[(oS L 512#32 (k0_off1_inb L 4)).view.set]{fullShare} m (oLoc d) : sProp 𝕄))
        ∗ (((oS L 640#32 (k0_off1_inb L 5)).view.loc (V d (cV L) (jV L)) ↦[(oS L 640#32 (k0_off1_inb L 5)).view.set]{fullShare} m (oLoc d) : sProp 𝕄))
        ∗ (((oS L 768#32 (k0_off1_inb L 6)).view.loc (V d (cV L) (jV L)) ↦[(oS L 768#32 (k0_off1_inb L 6)).view.set]{fullShare} m (oLoc d) : sProp 𝕄))
        ∗ (((oS L 896#32 (k0_off1_inb L 7)).view.loc (V d (cV L) (jV L)) ↦[(oS L 896#32 (k0_off1_inb L 7)).view.set]{fullShare} m (oLoc d) : sProp 𝕄))
        ∗ (((aS 0 inb_S1024_S128_0).view.loc (V d (cV L) (jV L)) ↦[(aS 0 inb_S1024_S128_0).view.set]{fullShare} fa : sProp 𝕄))
        ∗ (((aS 128 inb_S1024_S128_128).view.loc (V d (cV L) (jV L)) ↦[(aS 128 inb_S1024_S128_128).view.set]{fullShare} fa : sProp 𝕄))
        ∗ (((aS 256 inb_S1024_S128_256).view.loc (V d (cV L) (jV L)) ↦[(aS 256 inb_S1024_S128_256).view.set]{fullShare} fa : sProp 𝕄))
        ∗ (((aS 384 inb_S1024_S128_384).view.loc (V d (cV L) (jV L)) ↦[(aS 384 inb_S1024_S128_384).view.set]{fullShare} fa : sProp 𝕄))
        ∗ (((aS 512 inb_S1024_S128_512).view.loc (V d (cV L) (jV L)) ↦[(aS 512 inb_S1024_S128_512).view.set]{fullShare} fa : sProp 𝕄))
        ∗ (((aS 640 inb_S1024_S128_640).view.loc (V d (cV L) (jV L)) ↦[(aS 640 inb_S1024_S128_640).view.set]{fullShare} fa : sProp 𝕄))
        ∗ (((aS 768 inb_S1024_S128_768).view.loc (V d (cV L) (jV L)) ↦[(aS 768 inb_S1024_S128_768).view.set]{fullShare} fa : sProp 𝕄))
        ∗ (((aS 896 inb_S1024_S128_896).view.loc (V d (cV L) (jV L)) ↦[(aS 896 inb_S1024_S128_896).view.set]{fullShare} fa : sProp 𝕄))
        ∗ (((bS 0 inb_S1024_S128_0).view.loc (V d (cV L) (jV L)) ↦[(bS 0 inb_S1024_S128_0).view.set]{fullShare} fb : sProp 𝕄))
        ∗ (((bS 128 inb_S1024_S128_128).view.loc (V d (cV L) (jV L)) ↦[(bS 128 inb_S1024_S128_128).view.set]{fullShare} fb : sProp 𝕄))
        ∗ (((bS 256 inb_S1024_S128_256).view.loc (V d (cV L) (jV L)) ↦[(bS 256 inb_S1024_S128_256).view.set]{fullShare} fb : sProp 𝕄))
        ∗ (((bS 384 inb_S1024_S128_384).view.loc (V d (cV L) (jV L)) ↦[(bS 384 inb_S1024_S128_384).view.set]{fullShare} fb : sProp 𝕄))
        ∗ (((bS 512 inb_S1024_S128_512).view.loc (V d (cV L) (jV L)) ↦[(bS 512 inb_S1024_S128_512).view.set]{fullShare} fb : sProp 𝕄))
        ∗ (((bS 640 inb_S1024_S128_640).view.loc (V d (cV L) (jV L)) ↦[(bS 640 inb_S1024_S128_640).view.set]{fullShare} fb : sProp 𝕄))
        ∗ (((bS 768 inb_S1024_S128_768).view.loc (V d (cV L) (jV L)) ↦[(bS 768 inb_S1024_S128_768).view.set]{fullShare} fb : sProp 𝕄))
        ∗ (((bS 896 inb_S1024_S128_896).view.loc (V d (cV L) (jV L)) ↦[(bS 896 inb_S1024_S128_896).view.set]{fullShare} fb : sProp 𝕄))
        ∗ (semVal ((V d (cV L) (jV L)), SemLoc.dma cc0_scratch2.sem) 0 : sProp 𝕄)
        ∗ (semVal ((V d (cV L) (jV L)), SemLoc.dma cc0_scratch3.sem) 0 : sProp 𝕄)
        ∗ (semVal ((V d (cV L) (jV L)), SemLoc.dma cc0_scratch4.sem) 0 : sProp 𝕄)
        ∗ (semVal ((V d (cV L) (jV L)), SemLoc.dma cc0_scratch5.sem) 0 : sProp 𝕄)
        ∗ (semVal ((V d (cV L) (jV L)), SemLoc.dma cc0_scratch6.sem) 0 : sProp 𝕄)
        ∗ (semVal ((V d (cV L) (jV L)), SemLoc.dma cc0_scratch7.sem) 0 : sProp 𝕄)
        ∗ (semVal ((V d (cV L) (jV L)), SemLoc.dma cc0_scratch8.sem) 0 : sProp 𝕄)
        ∗ (semVal ((V d (cV L) (jV L)), SemLoc.dma cc0_scratch9.sem) 0 : sProp 𝕄)
        ∗ (semVal ((V d (cV L) (jV L)), SemLoc.dma cc0_scratch10.sem) 0 : sProp 𝕄)
        ∗ (semVal ((V d (cV L) (jV L)), SemLoc.dma cc0_scratch11.sem) 0 : sProp 𝕄)
        ∗ (semVal ((V d (cV L) (jV L)), SemLoc.dma cc0_scratch12.sem) 0 : sProp 𝕄)
        ∗ (semVal ((V d (cV L) (jV L)), SemLoc.dma cc0_scratch13.sem) 0 : sProp 𝕄)
        ∗ (semVal ((V d (cV L) (jV L)), SemLoc.dma cc0_scratch14.sem) 0 : sProp 𝕄)
        ∗ (semVal ((V d (cV L) (jV L)), SemLoc.dma cc0_scratch15.sem) 0 : sProp 𝕄)
        ∗ (semVal ((V d (cV L) (jV L)), SemLoc.dma cc0_scratch16.sem) 0 : sProp 𝕄)
        ∗ (semVal ((V d (cV L) (jV L)), SemLoc.dma cc0_scratch17.sem) 0 : sProp 𝕄)
        ∗ (semVal ((V d (cV L) (jV L)), SemLoc.dma cc0_scratch18.sem) 0 : sProp 𝕄)
        ∗ (semVal ((V d (cV L) (jV L)), SemLoc.dma cc0_scratch19.sem) 0 : sProp 𝕄)
        ∗ (semVal ((V d (cV L) (jV L)), SemLoc.dma cc0_scratch20.sem) 0 : sProp 𝕄)
        ∗ (semVal ((V d (cV L) (jV L)), SemLoc.dma cc0_scratch21.sem) 0 : sProp 𝕄)
        ∗ (semVal ((V d (cV L) (jV L)), SemLoc.dma cc0_scratch22.sem) 0 : sProp 𝕄)
        ∗ (semVal ((V d (cV L) (jV L)), SemLoc.dma cc0_scratch23.sem) 0 : sProp 𝕄)
        ∗ (semVal ((V d (cV L) (jV L)), SemLoc.dma cc0_scratch24.sem) 0 : sProp 𝕄)
        ∗ (semVal ((V d (cV L) (jV L)), SemLoc.dma cc0_scratch25.sem) 0 : sProp 𝕄)
        ∗ owes (V d (cV L) (jV L)) O W)
      ⊢ wp frame (wpE (defs₀ (F := F)) 𝒱₀ (V d (cV L) (jV L)) none) Set.univ
          (cc0_lookup L uW (Memref.isWhole_whole _) vW (Memref.isWhole_whole _) oW (Memref.isWhole_whole _)
            aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
          fun _ => iprop((((uS L 0#32 (k0_off1_inb L 0)).view.loc (V d (cV L) (jV L)) ↦[(uS L 0#32 (k0_off1_inb L 0)).view.set]{fullShare} m (uLoc d) : sProp 𝕄))
            ∗ (((uS L 128#32 (k0_off1_inb L 1)).view.loc (V d (cV L) (jV L)) ↦[(uS L 128#32 (k0_off1_inb L 1)).view.set]{fullShare} m (uLoc d) : sProp 𝕄))
            ∗ (((uS L 256#32 (k0_off1_inb L 2)).view.loc (V d (cV L) (jV L)) ↦[(uS L 256#32 (k0_off1_inb L 2)).view.set]{fullShare} m (uLoc d) : sProp 𝕄))
            ∗ (((uS L 384#32 (k0_off1_inb L 3)).view.loc (V d (cV L) (jV L)) ↦[(uS L 384#32 (k0_off1_inb L 3)).view.set]{fullShare} m (uLoc d) : sProp 𝕄))
            ∗ (((uS L 512#32 (k0_off1_inb L 4)).view.loc (V d (cV L) (jV L)) ↦[(uS L 512#32 (k0_off1_inb L 4)).view.set]{fullShare} m (uLoc d) : sProp 𝕄))
            ∗ (((uS L 640#32 (k0_off1_inb L 5)).view.loc (V d (cV L) (jV L)) ↦[(uS L 640#32 (k0_off1_inb L 5)).view.set]{fullShare} m (uLoc d) : sProp 𝕄))
            ∗ (((uS L 768#32 (k0_off1_inb L 6)).view.loc (V d (cV L) (jV L)) ↦[(uS L 768#32 (k0_off1_inb L 6)).view.set]{fullShare} m (uLoc d) : sProp 𝕄))
            ∗ (((uS L 896#32 (k0_off1_inb L 7)).view.loc (V d (cV L) (jV L)) ↦[(uS L 896#32 (k0_off1_inb L 7)).view.set]{fullShare} m (uLoc d) : sProp 𝕄))
            ∗ ((vW.view.loc (V d (cV L) (jV L)) ↦{q 0} m (vLoc d) : sProp 𝕄))
            ∗ ((vW.view.loc (V d (cV L) (jV L)) ↦{q 1} m (vLoc d) : sProp 𝕄))
            ∗ ((vW.view.loc (V d (cV L) (jV L)) ↦{q 2} m (vLoc d) : sProp 𝕄))
            ∗ ((vW.view.loc (V d (cV L) (jV L)) ↦{q 3} m (vLoc d) : sProp 𝕄))
            ∗ ((vW.view.loc (V d (cV L) (jV L)) ↦{q 4} m (vLoc d) : sProp 𝕄))
            ∗ ((vW.view.loc (V d (cV L) (jV L)) ↦{q 5} m (vLoc d) : sProp 𝕄))
            ∗ ((vW.view.loc (V d (cV L) (jV L)) ↦{q 6} m (vLoc d) : sProp 𝕄))
            ∗ ((vW.view.loc (V d (cV L) (jV L)) ↦{q 7} m (vLoc d) : sProp 𝕄))
            ∗ (((oS L 0#32 (k0_off1_inb L 0)).view.loc (V d (cV L) (jV L)) ↦[(oS L 0#32 (k0_off1_inb L 0)).view.set]{fullShare} Gv m d : sProp 𝕄))
            ∗ (((oS L 128#32 (k0_off1_inb L 1)).view.loc (V d (cV L) (jV L)) ↦[(oS L 128#32 (k0_off1_inb L 1)).view.set]{fullShare} Gv m d : sProp 𝕄))
            ∗ (((oS L 256#32 (k0_off1_inb L 2)).view.loc (V d (cV L) (jV L)) ↦[(oS L 256#32 (k0_off1_inb L 2)).view.set]{fullShare} Gv m d : sProp 𝕄))
            ∗ (((oS L 384#32 (k0_off1_inb L 3)).view.loc (V d (cV L) (jV L)) ↦[(oS L 384#32 (k0_off1_inb L 3)).view.set]{fullShare} Gv m d : sProp 𝕄))
            ∗ (((oS L 512#32 (k0_off1_inb L 4)).view.loc (V d (cV L) (jV L)) ↦[(oS L 512#32 (k0_off1_inb L 4)).view.set]{fullShare} Gv m d : sProp 𝕄))
            ∗ (((oS L 640#32 (k0_off1_inb L 5)).view.loc (V d (cV L) (jV L)) ↦[(oS L 640#32 (k0_off1_inb L 5)).view.set]{fullShare} Gv m d : sProp 𝕄))
            ∗ (((oS L 768#32 (k0_off1_inb L 6)).view.loc (V d (cV L) (jV L)) ↦[(oS L 768#32 (k0_off1_inb L 6)).view.set]{fullShare} Gv m d : sProp 𝕄))
            ∗ (((oS L 896#32 (k0_off1_inb L 7)).view.loc (V d (cV L) (jV L)) ↦[(oS L 896#32 (k0_off1_inb L 7)).view.set]{fullShare} Gv m d : sProp 𝕄))
            ∗ (∃ f, ((aS 0 inb_S1024_S128_0).view.loc (V d (cV L) (jV L)) ↦[(aS 0 inb_S1024_S128_0).view.set]{fullShare} f : sProp 𝕄))
            ∗ (∃ f, ((aS 128 inb_S1024_S128_128).view.loc (V d (cV L) (jV L)) ↦[(aS 128 inb_S1024_S128_128).view.set]{fullShare} f : sProp 𝕄))
            ∗ (∃ f, ((aS 256 inb_S1024_S128_256).view.loc (V d (cV L) (jV L)) ↦[(aS 256 inb_S1024_S128_256).view.set]{fullShare} f : sProp 𝕄))
            ∗ (∃ f, ((aS 384 inb_S1024_S128_384).view.loc (V d (cV L) (jV L)) ↦[(aS 384 inb_S1024_S128_384).view.set]{fullShare} f : sProp 𝕄))
            ∗ (∃ f, ((aS 512 inb_S1024_S128_512).view.loc (V d (cV L) (jV L)) ↦[(aS 512 inb_S1024_S128_512).view.set]{fullShare} f : sProp 𝕄))
            ∗ (∃ f, ((aS 640 inb_S1024_S128_640).view.loc (V d (cV L) (jV L)) ↦[(aS 640 inb_S1024_S128_640).view.set]{fullShare} f : sProp 𝕄))
            ∗ (∃ f, ((aS 768 inb_S1024_S128_768).view.loc (V d (cV L) (jV L)) ↦[(aS 768 inb_S1024_S128_768).view.set]{fullShare} f : sProp 𝕄))
            ∗ (∃ f, ((aS 896 inb_S1024_S128_896).view.loc (V d (cV L) (jV L)) ↦[(aS 896 inb_S1024_S128_896).view.set]{fullShare} f : sProp 𝕄))
            ∗ (∃ f, ((bS 0 inb_S1024_S128_0).view.loc (V d (cV L) (jV L)) ↦[(bS 0 inb_S1024_S128_0).view.set]{fullShare} f : sProp 𝕄))
            ∗ (∃ f, ((bS 128 inb_S1024_S128_128).view.loc (V d (cV L) (jV L)) ↦[(bS 128 inb_S1024_S128_128).view.set]{fullShare} f : sProp 𝕄))
            ∗ (∃ f, ((bS 256 inb_S1024_S128_256).view.loc (V d (cV L) (jV L)) ↦[(bS 256 inb_S1024_S128_256).view.set]{fullShare} f : sProp 𝕄))
            ∗ (∃ f, ((bS 384 inb_S1024_S128_384).view.loc (V d (cV L) (jV L)) ↦[(bS 384 inb_S1024_S128_384).view.set]{fullShare} f : sProp 𝕄))
            ∗ (∃ f, ((bS 512 inb_S1024_S128_512).view.loc (V d (cV L) (jV L)) ↦[(bS 512 inb_S1024_S128_512).view.set]{fullShare} f : sProp 𝕄))
            ∗ (∃ f, ((bS 640 inb_S1024_S128_640).view.loc (V d (cV L) (jV L)) ↦[(bS 640 inb_S1024_S128_640).view.set]{fullShare} f : sProp 𝕄))
            ∗ (∃ f, ((bS 768 inb_S1024_S128_768).view.loc (V d (cV L) (jV L)) ↦[(bS 768 inb_S1024_S128_768).view.set]{fullShare} f : sProp 𝕄))
            ∗ (∃ f, ((bS 896 inb_S1024_S128_896).view.loc (V d (cV L) (jV L)) ↦[(bS 896 inb_S1024_S128_896).view.set]{fullShare} f : sProp 𝕄))
            ∗ (semVal ((V d (cV L) (jV L)), SemLoc.dma cc0_scratch2.sem) 0 : sProp 𝕄)
            ∗ (semVal ((V d (cV L) (jV L)), SemLoc.dma cc0_scratch3.sem) 0 : sProp 𝕄)
            ∗ (semVal ((V d (cV L) (jV L)), SemLoc.dma cc0_scratch4.sem) 0 : sProp 𝕄)
            ∗ (semVal ((V d (cV L) (jV L)), SemLoc.dma cc0_scratch5.sem) 0 : sProp 𝕄)
            ∗ (semVal ((V d (cV L) (jV L)), SemLoc.dma cc0_scratch6.sem) 0 : sProp 𝕄)
            ∗ (semVal ((V d (cV L) (jV L)), SemLoc.dma cc0_scratch7.sem) 0 : sProp 𝕄)
            ∗ (semVal ((V d (cV L) (jV L)), SemLoc.dma cc0_scratch8.sem) 0 : sProp 𝕄)
            ∗ (semVal ((V d (cV L) (jV L)), SemLoc.dma cc0_scratch9.sem) 0 : sProp 𝕄)
            ∗ (semVal ((V d (cV L) (jV L)), SemLoc.dma cc0_scratch10.sem) 0 : sProp 𝕄)
            ∗ (semVal ((V d (cV L) (jV L)), SemLoc.dma cc0_scratch11.sem) 0 : sProp 𝕄)
            ∗ (semVal ((V d (cV L) (jV L)), SemLoc.dma cc0_scratch12.sem) 0 : sProp 𝕄)
            ∗ (semVal ((V d (cV L) (jV L)), SemLoc.dma cc0_scratch13.sem) 0 : sProp 𝕄)
            ∗ (semVal ((V d (cV L) (jV L)), SemLoc.dma cc0_scratch14.sem) 0 : sProp 𝕄)
            ∗ (semVal ((V d (cV L) (jV L)), SemLoc.dma cc0_scratch15.sem) 0 : sProp 𝕄)
            ∗ (semVal ((V d (cV L) (jV L)), SemLoc.dma cc0_scratch16.sem) 0 : sProp 𝕄)
            ∗ (semVal ((V d (cV L) (jV L)), SemLoc.dma cc0_scratch17.sem) 0 : sProp 𝕄)
            ∗ (semVal ((V d (cV L) (jV L)), SemLoc.dma cc0_scratch18.sem) 0 : sProp 𝕄)
            ∗ (semVal ((V d (cV L) (jV L)), SemLoc.dma cc0_scratch19.sem) 0 : sProp 𝕄)
            ∗ (semVal ((V d (cV L) (jV L)), SemLoc.dma cc0_scratch20.sem) 0 : sProp 𝕄)
            ∗ (semVal ((V d (cV L) (jV L)), SemLoc.dma cc0_scratch21.sem) 0 : sProp 𝕄)
            ∗ (semVal ((V d (cV L) (jV L)), SemLoc.dma cc0_scratch22.sem) 0 : sProp 𝕄)
            ∗ (semVal ((V d (cV L) (jV L)), SemLoc.dma cc0_scratch23.sem) 0 : sProp 𝕄)
            ∗ (semVal ((V d (cV L) (jV L)), SemLoc.dma cc0_scratch24.sem) 0 : sProp 𝕄)
            ∗ (semVal ((V d (cV L) (jV L)), SemLoc.dma cc0_scratch25.sem) 0 : sProp 𝕄)
            ∗ ∃ W', ⌜∀ p ∈ W', p ∈ W ∨ p.2 = none⌝ ∗ owes (V d (cV L) (jV L)) O W') := by
  rw [cc0_lookup_eq_skeleton]; unfold cc0_lookup_skel
  iintro ⟨#Hlv, Hu0, Hu1, Hu2, Hu3, Hu4, Hu5, Hu6, Hu7, Hv0, Hv1, Hv2, Hv3, Hv4, Hv5, Hv6, Hv7, Ho0, Ho1, Ho2, Ho3, Ho4, Ho5, Ho6, Ho7, Ha0, Ha1, Ha2, Ha3, Ha4, Ha5, Ha6, Ha7, Hb0, Hb1, Hb2, Hb3, Hb4, Hb5, Hb6, Hb7, Hs2, Hs3, Hs4, Hs5, Hs6, Hs7, Hs8, Hs9, Hs10, Hs11, Hs12, Hs13, Hs14, Hs15, Hs16, Hs17, Hs18, Hs19, Hs20, Hs21, Hs22, Hs23, Hs24, Hs25, HO⟩
  ihave Hmw := ((K (F := F)).mayWaits_none (thr := (V d (cV L) (jV L))) hO) $$ Hlv
  have hin0 := fetched_inb m d L hpre 0#32 (k0_off1_inb L 0) 0 inb_S1024_S128_0
  have hin1 := fetched_inb m d L hpre 128#32 (k0_off1_inb L 1) 128 inb_S1024_S128_128
  have hin2 := fetched_inb m d L hpre 256#32 (k0_off1_inb L 2) 256 inb_S1024_S128_256
  have hin3 := fetched_inb m d L hpre 384#32 (k0_off1_inb L 3) 384 inb_S1024_S128_384
  have hin4 := fetched_inb m d L hpre 512#32 (k0_off1_inb L 4) 512 inb_S1024_S128_512
  have hin5 := fetched_inb m d L hpre 640#32 (k0_off1_inb L 5) 640 inb_S1024_S128_640
  have hin6 := fetched_inb m d L hpre 768#32 (k0_off1_inb L 6) 768 inb_S1024_S128_768
  have hin7 := fetched_inb m d L hpre 896#32 (k0_off1_inb L 7) 896 inb_S1024_S128_896
  sl_exec
  sl_step
  ihave Ho0 := (Entails.of_eq (pointsTo_congr (out_val m d L 0#32 (k0_off1_inb L 0) 0 inb_S1024_S128_0 _ _ _ _))) $$ Ho0
  ihave Ho1 := (Entails.of_eq (pointsTo_congr (out_val m d L 128#32 (k0_off1_inb L 1) 128 inb_S1024_S128_128 _ _ _ _))) $$ Ho1
  ihave Ho2 := (Entails.of_eq (pointsTo_congr (out_val m d L 256#32 (k0_off1_inb L 2) 256 inb_S1024_S128_256 _ _ _ _))) $$ Ho2
  ihave Ho3 := (Entails.of_eq (pointsTo_congr (out_val m d L 384#32 (k0_off1_inb L 3) 384 inb_S1024_S128_384 _ _ _ _))) $$ Ho3
  ihave Ho4 := (Entails.of_eq (pointsTo_congr (out_val m d L 512#32 (k0_off1_inb L 4) 512 inb_S1024_S128_512 _ _ _ _))) $$ Ho4
  ihave Ho5 := (Entails.of_eq (pointsTo_congr (out_val m d L 640#32 (k0_off1_inb L 5) 640 inb_S1024_S128_640 _ _ _ _))) $$ Ho5
  ihave Ho6 := (Entails.of_eq (pointsTo_congr (out_val m d L 768#32 (k0_off1_inb L 6) 768 inb_S1024_S128_768 _ _ _ _))) $$ Ho6
  ihave Ho7 := (Entails.of_eq (pointsTo_congr (out_val m d L 896#32 (k0_off1_inb L 7) 896 inb_S1024_S128_896 _ _ _ _))) $$ Ho7
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [Hu6]; · iexact Hu6
  isplitl [Hu7]; · iexact Hu7
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ha0]; · iexists _; iexact Ha0
  isplitl [Ha1]; · iexists _; iexact Ha1
  isplitl [Ha2]; · iexists _; iexact Ha2
  isplitl [Ha3]; · iexists _; iexact Ha3
  isplitl [Ha4]; · iexists _; iexact Ha4
  isplitl [Ha5]; · iexists _; iexact Ha5
  isplitl [Ha6]; · iexists _; iexact Ha6
  isplitl [Ha7]; · iexists _; iexact Ha7
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexists _; iexact Hb7
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  iexists _; isplitr
  pick_goal 2
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | rfl | rfl | rfl | hp
    all_goals first | exact .inl hp | exact .inr rfl

end Cert.Proof.BitsLookup

end
-- ==== Proof.BitsLaunch.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.Kernel
import proofs.«210393_g26654567039053_cont_9to1_1641_13_alg».proof.Proof.Gen.Kernel.Skeleton
import proofs.«210393_g26654567039053_cont_9to1_1641_13_alg».proof.Proof.BitsTile

noncomputable section

/-!
# The launch: from one subcore's task to the whole program's run

The call hands SparseCore 0's sequencer `uis`, `values` and `out` whole; the sequencer deals each of its sixteen vector
subcores the eight chunks of `uis` and of `out` it owns and one read share of `values`; each subcore's task (the previous
module) returns its chunks of `out` at the gathered values; joined, `out` holds `Gv` everywhere. After the call @main
reshapes `out` to a column. The run's post: the column is the reshape of `Gv`, the two arguments are unchanged.
-/

namespace Cert.Proof.BitsLookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## Eight chunks, twenty-four semaphores -/

/-- A family over the eight chunks, written out. -/
def eight (Φ : Fin 8 → sProp 𝕄) : sProp 𝕄 := iprop(Φ 0 ∗ Φ 1 ∗ Φ 2 ∗ Φ 3 ∗ Φ 4 ∗ Φ 5 ∗ Φ 6 ∗ Φ 7)

theorem bigSep_eight (Φ : Fin 8 → sProp 𝕄) : bigSep Finset.univ Φ = eight Φ := by
  unfold eight
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

instance eight_storable (Φ : Fin 8 → sProp 𝕄) [∀ j, BI.Storable (upEmb : UEmb _ 𝕄) (Φ j)] : BI.Storable (upEmb : UEmb _ 𝕄) (eight Φ) := by
  unfold eight; infer_instance

/-! ## What the handshakes carry -/

abbrev uPts (d : Dev nD) : sProp 𝕄 := uLoc d ↦{fullShare} m (uLoc d)
abbrev vPts (d : Dev nD) : sProp 𝕄 := vLoc d ↦{fullShare} m (vLoc d)
abbrev oPts (d : Dev nD) (f : Buf (Elt F) (oLoc d)) : sProp 𝕄 := oLoc d ↦{fullShare} f
abbrev uCh (d : Dev nD) (i : Fin 16) (j : Fin 8) : sProp 𝕄 := uLoc d ↦[cs i j]{fullShare} m (uLoc d)
abbrev oCh (d : Dev nD) (f : Buf (Elt F) (oLoc d)) (i : Fin 16) (j : Fin 8) : sProp 𝕄 := oLoc d ↦[cs i j]{fullShare} f
/-- Subcore `i`'s read share of `values`. -/
abbrev vTok (d : Dev nD) (i : Fin 16) : sProp 𝕄 := vLoc d ↦{Transfers.shareTok fullShare 16 i} m (vLoc d)

/-- What subcore `i` is handed and hands back: its chunks of `uis`, its share of `values`, its chunks of `out` at `f`. -/
def task (d : Dev nD) (f : Buf (Elt F) (oLoc d)) (i : Fin 16) : sProp 𝕄 :=
  iprop(eight (fun j => uCh m d i j) ∗ vTok m d i ∗ eight (fun j => oCh d f i j))

instance task_storable (d : Dev nD) (f : Buf (Elt F) (oLoc d)) (i : Fin 16) : BI.Storable (upEmb : UEmb _ 𝕄) (task m d f i) := by
  unfold task; infer_instance

/-- The one call takes the three arrays whole and brings them back, `out` at the gathered values. -/
def P : (K (F := F)).Pay (nD := nD) (Val := Elt F) (Name := ℕ) (U := UU) where
  st := fun q d _ => match q with | 0 => iprop(uPts m d ∗ vPts m d ∗ oPts d (m (oLoc d)))
  dn := fun q d _ => match q with | 0 => iprop(uPts m d ∗ vPts m d ∗ oPts d (Gv m d))
  go := fun q d _ i => match q with | 0 => task m d (m (oLoc d)) (Fin.cast nSub_zero i)
  td := fun q d _ i => match q with | 0 => task m d (Gv m d) (Fin.cast nSub_zero i)
  x := fun _ _ => iprop(emp)

instance P_storable : (P (F := F) m).IsStorable where
  st q d _ := match q with
    | 0 => (inferInstance : BI.Storable (upEmb : UEmb _ 𝕄) iprop(uPts m d ∗ vPts m d ∗ oPts d (m (oLoc d))))
  dn q d _ := match q with
    | 0 => (inferInstance : BI.Storable (upEmb : UEmb _ 𝕄) iprop(uPts m d ∗ vPts m d ∗ oPts d (Gv m d)))
  go q d _ i := match q with
    | 0 => (inferInstance : BI.Storable (upEmb : UEmb _ 𝕄) (task m d (m (oLoc d)) (Fin.cast nSub_zero i)))
  td q d _ i := match q with
    | 0 => (inferInstance : BI.Storable (upEmb : UEmb _ 𝕄) (task m d (Gv m d) (Fin.cast nSub_zero i)))

/-! ## The subcore's resources, as its task spells them -/

section Tile

variable [FloatOps F] (d : Dev nD) (L : grid0.Coords)

theorem pts_u (j : Fin 8) (w : BitVec 32) (hw) (e : w = BitVec.ofNat 32 (128 * j.val)) (q : PosShare TreeShare) (f : Buf (Elt F) (uLoc d)) :
    ((uS L w hw).view.loc (V d (cV L) (jV L)) ↦[(uS L w hw).view.set]{q} f : sProp 𝕄) = uLoc d ↦[cs (iL L) j]{q} f := by
  subst e; rw [set_uS]
theorem pts_o (j : Fin 8) (w : BitVec 32) (hw) (e : w = BitVec.ofNat 32 (128 * j.val)) (q : PosShare TreeShare) (f : Buf (Elt F) (oLoc d)) :
    ((oS L w hw).view.loc (V d (cV L) (jV L)) ↦[(oS L w hw).view.set]{q} f : sProp 𝕄) = oLoc d ↦[cs (iL L) j]{q} f := by
  subst e; rw [set_oS]
theorem pts_a (j : Fin 8) (o : ℕ) (ho) (e : o = 128 * j.val) (q : PosShare TreeShare) (f : Buf (Elt F) ((V d (cV L) (jV L)).loc cc0_scratch0)) :
    ((aS o ho).view.loc (V d (cV L) (jV L)) ↦[(aS o ho).view.set]{q} f : sProp 𝕄) = (V d (cV L) (jV L)).loc cc0_scratch0 ↦[ss j]{q} f := by
  subst e; rw [set_aS]
theorem pts_b (j : Fin 8) (o : ℕ) (ho) (e : o = 128 * j.val) (q : PosShare TreeShare) (f : Buf (Elt F) ((V d (cV L) (jV L)).loc cc0_scratch1)) :
    ((bS o ho).view.loc (V d (cV L) (jV L)) ↦[(bS o ho).view.set]{q} f : sProp 𝕄) = (V d (cV L) (jV L)).loc cc0_scratch1 ↦[ss j]{q} f := by
  subst e; rw [set_bS]
theorem pts_v (q : PosShare TreeShare) (f : Buf (Elt F) (vLoc d)) :
    (vW.view.loc (V d (cV L) (jV L)) ↦{q} f : sProp 𝕄) = vLoc d ↦{q} f := rfl

/-- A scratch vector whole is its eight chunks. -/
theorem a_split (f : Buf (Elt F) ((V d (cV L) (jV L)).loc cc0_scratch0)) :
    ((V d (cV L) (jV L)).loc cc0_scratch0 ↦{fullShare} f : sProp 𝕄) = eight (fun j => (V d (cV L) (jV L)).loc cc0_scratch0 ↦[ss j]{fullShare} f) := by
  rw [← bigSep_eight, ← pointsTo_biUnion Finset.univ (ℓ := (V d (cV L) (jV L)).loc cc0_scratch0) ss ss_disjoint, ss_cover]; try rfl
theorem b_split (f : Buf (Elt F) ((V d (cV L) (jV L)).loc cc0_scratch1)) :
    ((V d (cV L) (jV L)).loc cc0_scratch1 ↦{fullShare} f : sProp 𝕄) = eight (fun j => (V d (cV L) (jV L)).loc cc0_scratch1 ↦[ss j]{fullShare} f) := by
  rw [← bigSep_eight, ← pointsTo_biUnion Finset.univ (ℓ := (V d (cV L) (jV L)).loc cc0_scratch1) ss ss_disjoint, ss_cover]; try rfl

/-- A scratch vector's chunks at whatever they hold join into the vector at some contents. -/
theorem a_join : eight (fun j => iprop(∃ f, ((V d (cV L) (jV L)).loc cc0_scratch0 ↦[ss j]{fullShare} f : sProp 𝕄)))
    ⊢ (iprop(∃ f, (V d (cV L) (jV L)).loc cc0_scratch0 ↦{fullShare} f) : sProp 𝕄) := by
  rw [← bigSep_eight]
  refine (bigSep_exists_pi Finset.univ (fun j (f : Buf (Elt F) ((V d (cV L) (jV L)).loc cc0_scratch0)) => ((V d (cV L) (jV L)).loc cc0_scratch0 ↦[ss j]{fullShare} f : sProp 𝕄))).trans ?_
  iintro ⟨%fs, H⟩
  ihave H' := (pointsTo_biUnion_join Finset.univ ss fs (fs 0) ss_disjoint) $$ H
  icases H' with ⟨%g, -, Hg⟩
  rw [ss_cover]
  iexists g; iexact Hg
theorem b_join : eight (fun j => iprop(∃ f, ((V d (cV L) (jV L)).loc cc0_scratch1 ↦[ss j]{fullShare} f : sProp 𝕄)))
    ⊢ (iprop(∃ f, (V d (cV L) (jV L)).loc cc0_scratch1 ↦{fullShare} f) : sProp 𝕄) := by
  rw [← bigSep_eight]
  refine (bigSep_exists_pi Finset.univ (fun j (f : Buf (Elt F) ((V d (cV L) (jV L)).loc cc0_scratch1)) => ((V d (cV L) (jV L)).loc cc0_scratch1 ↦[ss j]{fullShare} f : sProp 𝕄))).trans ?_
  iintro ⟨%fs, H⟩
  ihave H' := (pointsTo_biUnion_join Finset.univ ss fs (fs 0) ss_disjoint) $$ H
  icases H' with ⟨%g, -, Hg⟩
  rw [ss_cover]
  iexists g; iexact Hg

omit [FloatOps F] in
theorem reg_unscoped : ∀ s : Sem sig, (SemLoc.reg s : SemLoc sig).isScoped .scVector = false := by decide
omit [FloatOps F] in
theorem dma_scoped : ∀ k : DmaSem sig, (SemLoc.dma k : SemLoc sig).isScoped .scVector = true := by decide

/-- A vector subcore's scoped semaphores are its twenty-four DMA semaphores. -/
theorem ownCells_V : ownCells (nD := nD) (sig := sig) (V d (cV L) (jV L))
    = Finset.univ.map ⟨fun k : DmaSem sig => (((V d (cV L) (jV L)), SemLoc.dma k) : GSem nD τ sig), fun a b e => by injection (Prod.mk.inj e).2⟩ := by
  ext ⟨t, sm⟩
  simp only [mem_ownCells, Finset.mem_map, Finset.mem_univ, true_and, Function.Embedding.coeFn_mk]
  constructor
  · rintro ⟨rfl, hs⟩
    cases sm with
    | reg s => exact absurd ((reg_unscoped s).symm.trans (show (SemLoc.reg s : SemLoc sig).isScoped .scVector = true from hs)) Bool.false_ne_true
    | dma k => exact ⟨k, rfl⟩
  · rintro ⟨k, e⟩
    obtain ⟨rfl, rfl⟩ := Prod.mk.inj e
    exact ⟨rfl, dma_scoped k⟩

theorem ownSems0_V :
    (ownSems0 (V d (cV L) (jV L)) : sProp 𝕄)
      = iprop(semVal ((V d (cV L) (jV L)), SemLoc.dma cc0_scratch2.sem) 0
          ∗ semVal ((V d (cV L) (jV L)), SemLoc.dma cc0_scratch3.sem) 0
          ∗ semVal ((V d (cV L) (jV L)), SemLoc.dma cc0_scratch4.sem) 0
          ∗ semVal ((V d (cV L) (jV L)), SemLoc.dma cc0_scratch5.sem) 0
          ∗ semVal ((V d (cV L) (jV L)), SemLoc.dma cc0_scratch6.sem) 0
          ∗ semVal ((V d (cV L) (jV L)), SemLoc.dma cc0_scratch7.sem) 0
          ∗ semVal ((V d (cV L) (jV L)), SemLoc.dma cc0_scratch8.sem) 0
          ∗ semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0) := by
  unfold SparseCore.Cfg.ownSems0
  rw [ownCells_V, bigSep_map]
  rw [show (Finset.univ : Finset (DmaSem sig)) = {0, 1, 2, 3, 4, 5, 6, 7, 8, 9, 10, 11, 12, 13, 14, 15, 16, 17, 18, 19, 20, 21, 22, 23} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch vectors are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- One subcore's task, from what the sequencer deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (m (oLoc d)) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_lookup L uW (Memref.isWhole_whole _) vW (Memref.isWhole_whole _) oW (Memref.isWhole_whole _)
            aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
          fun _ => iprop(task m d (Gv m d) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold task eight
  iintro ⟨#Hlv, -, ⟨⟨Hu0, Hu1, Hu2, Hu3, Hu4, Hu5, Hu6, Hu7⟩, Hv, ⟨Ho0, Ho1, Ho2, Ho3, Ho4, Ho5, Ho6, Ho7⟩⟩, ⟨⟨%fa, Ha⟩, ⟨%fb, Hb⟩, Hbufs⟩, ⟨Hs2, Hs3, Hs4, Hs5, Hs6, Hs7, Hs8, Hs9, Hs10, Hs11, Hs12, Hs13, Hs14, Hs15, Hs16, Hs17, Hs18, Hs19, Hs20, Hs21, Hs22, Hs23, Hs24, Hs25⟩, HO⟩
  -- the scratch vectors chunk by chunk, the share of `values` as eight read shares and a remainder
  ihave Ha' := (Entails.of_eq (a_split (F := F) d L fa)) $$ Ha
  unfold eight
  icases Ha' with ⟨Ha0, Ha1, Ha2, Ha3, Ha4, Ha5, Ha6, Ha7⟩
  ihave Hb' := (Entails.of_eq (b_split (F := F) d L fb)) $$ Hb
  unfold eight
  icases Hb' with ⟨Hb0, Hb1, Hb2, Hb3, Hb4, Hb5, Hb6, Hb7⟩
  ihave Hv' := (Transfers.pointsTo_toks_split (ℓ := vLoc d) (S := Finset.univ) (f := m (vLoc d)) (Transfers.shareTok fullShare 16 (iL L)) 8) $$ Hv
  icases Hv' with ⟨Hvr, Hvs⟩
  ihave Hvs' := (Entails.of_eq (bigSep_eight (F := F) _)) $$ Hvs
  unfold eight
  icases Hvs' with ⟨Hv0, Hv1, Hv2, Hv3, Hv4, Hv5, Hv6, Hv7⟩
  ihave Hu0 := (Entails.of_eq (pts_u (F := F) d L 0 0#32 (k0_off1_inb L 0) rfl fullShare (m (uLoc d))).symm) $$ Hu0
  ihave Hu1 := (Entails.of_eq (pts_u (F := F) d L 1 128#32 (k0_off1_inb L 1) rfl fullShare (m (uLoc d))).symm) $$ Hu1
  ihave Hu2 := (Entails.of_eq (pts_u (F := F) d L 2 256#32 (k0_off1_inb L 2) rfl fullShare (m (uLoc d))).symm) $$ Hu2
  ihave Hu3 := (Entails.of_eq (pts_u (F := F) d L 3 384#32 (k0_off1_inb L 3) rfl fullShare (m (uLoc d))).symm) $$ Hu3
  ihave Hu4 := (Entails.of_eq (pts_u (F := F) d L 4 512#32 (k0_off1_inb L 4) rfl fullShare (m (uLoc d))).symm) $$ Hu4
  ihave Hu5 := (Entails.of_eq (pts_u (F := F) d L 5 640#32 (k0_off1_inb L 5) rfl fullShare (m (uLoc d))).symm) $$ Hu5
  ihave Hu6 := (Entails.of_eq (pts_u (F := F) d L 6 768#32 (k0_off1_inb L 6) rfl fullShare (m (uLoc d))).symm) $$ Hu6
  ihave Hu7 := (Entails.of_eq (pts_u (F := F) d L 7 896#32 (k0_off1_inb L 7) rfl fullShare (m (uLoc d))).symm) $$ Hu7
  ihave Ho0 := (Entails.of_eq (pts_o (F := F) d L 0 0#32 (k0_off1_inb L 0) rfl fullShare (m (oLoc d))).symm) $$ Ho0
  ihave Ho1 := (Entails.of_eq (pts_o (F := F) d L 1 128#32 (k0_off1_inb L 1) rfl fullShare (m (oLoc d))).symm) $$ Ho1
  ihave Ho2 := (Entails.of_eq (pts_o (F := F) d L 2 256#32 (k0_off1_inb L 2) rfl fullShare (m (oLoc d))).symm) $$ Ho2
  ihave Ho3 := (Entails.of_eq (pts_o (F := F) d L 3 384#32 (k0_off1_inb L 3) rfl fullShare (m (oLoc d))).symm) $$ Ho3
  ihave Ho4 := (Entails.of_eq (pts_o (F := F) d L 4 512#32 (k0_off1_inb L 4) rfl fullShare (m (oLoc d))).symm) $$ Ho4
  ihave Ho5 := (Entails.of_eq (pts_o (F := F) d L 5 640#32 (k0_off1_inb L 5) rfl fullShare (m (oLoc d))).symm) $$ Ho5
  ihave Ho6 := (Entails.of_eq (pts_o (F := F) d L 6 768#32 (k0_off1_inb L 6) rfl fullShare (m (oLoc d))).symm) $$ Ho6
  ihave Ho7 := (Entails.of_eq (pts_o (F := F) d L 7 896#32 (k0_off1_inb L 7) rfl fullShare (m (oLoc d))).symm) $$ Ho7
  ihave Ha0 := (Entails.of_eq (pts_a (F := F) d L 0 0 inb_S1024_S128_0 rfl fullShare fa).symm) $$ Ha0
  ihave Ha1 := (Entails.of_eq (pts_a (F := F) d L 1 128 inb_S1024_S128_128 rfl fullShare fa).symm) $$ Ha1
  ihave Ha2 := (Entails.of_eq (pts_a (F := F) d L 2 256 inb_S1024_S128_256 rfl fullShare fa).symm) $$ Ha2
  ihave Ha3 := (Entails.of_eq (pts_a (F := F) d L 3 384 inb_S1024_S128_384 rfl fullShare fa).symm) $$ Ha3
  ihave Ha4 := (Entails.of_eq (pts_a (F := F) d L 4 512 inb_S1024_S128_512 rfl fullShare fa).symm) $$ Ha4
  ihave Ha5 := (Entails.of_eq (pts_a (F := F) d L 5 640 inb_S1024_S128_640 rfl fullShare fa).symm) $$ Ha5
  ihave Ha6 := (Entails.of_eq (pts_a (F := F) d L 6 768 inb_S1024_S128_768 rfl fullShare fa).symm) $$ Ha6
  ihave Ha7 := (Entails.of_eq (pts_a (F := F) d L 7 896 inb_S1024_S128_896 rfl fullShare fa).symm) $$ Ha7
  ihave Hb0 := (Entails.of_eq (pts_b (F := F) d L 0 0 inb_S1024_S128_0 rfl fullShare fb).symm) $$ Hb0
  ihave Hb1 := (Entails.of_eq (pts_b (F := F) d L 1 128 inb_S1024_S128_128 rfl fullShare fb).symm) $$ Hb1
  ihave Hb2 := (Entails.of_eq (pts_b (F := F) d L 2 256 inb_S1024_S128_256 rfl fullShare fb).symm) $$ Hb2
  ihave Hb3 := (Entails.of_eq (pts_b (F := F) d L 3 384 inb_S1024_S128_384 rfl fullShare fb).symm) $$ Hb3
  ihave Hb4 := (Entails.of_eq (pts_b (F := F) d L 4 512 inb_S1024_S128_512 rfl fullShare fb).symm) $$ Hb4
  ihave Hb5 := (Entails.of_eq (pts_b (F := F) d L 5 640 inb_S1024_S128_640 rfl fullShare fb).symm) $$ Hb5
  ihave Hb6 := (Entails.of_eq (pts_b (F := F) d L 6 768 inb_S1024_S128_768 rfl fullShare fb).symm) $$ Hb6
  ihave Hb7 := (Entails.of_eq (pts_b (F := F) d L 7 896 inb_S1024_S128_896 rfl fullShare fb).symm) $$ Hb7
  iapply (wp_wand_r frame _ Set.univ)
  isplitl [Hu0 Hu1 Hu2 Hu3 Hu4 Hu5 Hu6 Hu7 Hv0 Hv1 Hv2 Hv3 Hv4 Hv5 Hv6 Hv7 Ho0 Ho1 Ho2 Ho3 Ho4 Ho5 Ho6 Ho7 Ha0 Ha1 Ha2 Ha3 Ha4 Ha5 Ha6 Ha7 Hb0 Hb1 Hb2 Hb3 Hb4 Hb5 Hb6 Hb7 Hs2 Hs3 Hs4 Hs5 Hs6 Hs7 Hs8 Hs9 Hs10 Hs11 Hs12 Hs13 Hs14 Hs15 Hs16 Hs17 Hs18 Hs19 Hs20 Hs21 Hs22 Hs23 Hs24 Hs25 HO]
  · iapply (tile_core m d L hpre O W hO fa fb (fun k => Transfers.shareTok (Transfers.shareTok fullShare 16 (iL L)) 8 k))
    isplitr; · iexact Hlv
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    iexact HO
  iintro %_ ⟨Hu0, Hu1, Hu2, Hu3, Hu4, Hu5, Hu6, Hu7, Hv0, Hv1, Hv2, Hv3, Hv4, Hv5, Hv6, Hv7, Ho0, Ho1, Ho2, Ho3, Ho4, Ho5, Ho6, Ho7, ⟨%fa0, Ha0⟩, ⟨%fa1, Ha1⟩, ⟨%fa2, Ha2⟩, ⟨%fa3, Ha3⟩, ⟨%fa4, Ha4⟩, ⟨%fa5, Ha5⟩, ⟨%fa6, Ha6⟩, ⟨%fa7, Ha7⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Hs2, Hs3, Hs4, Hs5, Hs6, Hs7, Hs8, Hs9, Hs10, Hs11, Hs12, Hs13, Hs14, Hs15, Hs16, Hs17, Hs18, Hs19, Hs20, Hs21, Hs22, Hs23, Hs24, Hs25, HW⟩
  ihave Hu0 := (Entails.of_eq (pts_u (F := F) d L 0 0#32 (k0_off1_inb L 0) rfl fullShare (m (uLoc d)))) $$ Hu0
  ihave Hu1 := (Entails.of_eq (pts_u (F := F) d L 1 128#32 (k0_off1_inb L 1) rfl fullShare (m (uLoc d)))) $$ Hu1
  ihave Hu2 := (Entails.of_eq (pts_u (F := F) d L 2 256#32 (k0_off1_inb L 2) rfl fullShare (m (uLoc d)))) $$ Hu2
  ihave Hu3 := (Entails.of_eq (pts_u (F := F) d L 3 384#32 (k0_off1_inb L 3) rfl fullShare (m (uLoc d)))) $$ Hu3
  ihave Hu4 := (Entails.of_eq (pts_u (F := F) d L 4 512#32 (k0_off1_inb L 4) rfl fullShare (m (uLoc d)))) $$ Hu4
  ihave Hu5 := (Entails.of_eq (pts_u (F := F) d L 5 640#32 (k0_off1_inb L 5) rfl fullShare (m (uLoc d)))) $$ Hu5
  ihave Hu6 := (Entails.of_eq (pts_u (F := F) d L 6 768#32 (k0_off1_inb L 6) rfl fullShare (m (uLoc d)))) $$ Hu6
  ihave Hu7 := (Entails.of_eq (pts_u (F := F) d L 7 896#32 (k0_off1_inb L 7) rfl fullShare (m (uLoc d)))) $$ Hu7
  ihave Ho0 := (Entails.of_eq (pts_o (F := F) d L 0 0#32 (k0_off1_inb L 0) rfl fullShare (Gv m d))) $$ Ho0
  ihave Ho1 := (Entails.of_eq (pts_o (F := F) d L 1 128#32 (k0_off1_inb L 1) rfl fullShare (Gv m d))) $$ Ho1
  ihave Ho2 := (Entails.of_eq (pts_o (F := F) d L 2 256#32 (k0_off1_inb L 2) rfl fullShare (Gv m d))) $$ Ho2
  ihave Ho3 := (Entails.of_eq (pts_o (F := F) d L 3 384#32 (k0_off1_inb L 3) rfl fullShare (Gv m d))) $$ Ho3
  ihave Ho4 := (Entails.of_eq (pts_o (F := F) d L 4 512#32 (k0_off1_inb L 4) rfl fullShare (Gv m d))) $$ Ho4
  ihave Ho5 := (Entails.of_eq (pts_o (F := F) d L 5 640#32 (k0_off1_inb L 5) rfl fullShare (Gv m d))) $$ Ho5
  ihave Ho6 := (Entails.of_eq (pts_o (F := F) d L 6 768#32 (k0_off1_inb L 6) rfl fullShare (Gv m d))) $$ Ho6
  ihave Ho7 := (Entails.of_eq (pts_o (F := F) d L 7 896#32 (k0_off1_inb L 7) rfl fullShare (Gv m d))) $$ Ho7
  ihave Ha0 := (Entails.of_eq (pts_a (F := F) d L 0 0 inb_S1024_S128_0 rfl fullShare fa0)) $$ Ha0
  ihave Ha1 := (Entails.of_eq (pts_a (F := F) d L 1 128 inb_S1024_S128_128 rfl fullShare fa1)) $$ Ha1
  ihave Ha2 := (Entails.of_eq (pts_a (F := F) d L 2 256 inb_S1024_S128_256 rfl fullShare fa2)) $$ Ha2
  ihave Ha3 := (Entails.of_eq (pts_a (F := F) d L 3 384 inb_S1024_S128_384 rfl fullShare fa3)) $$ Ha3
  ihave Ha4 := (Entails.of_eq (pts_a (F := F) d L 4 512 inb_S1024_S128_512 rfl fullShare fa4)) $$ Ha4
  ihave Ha5 := (Entails.of_eq (pts_a (F := F) d L 5 640 inb_S1024_S128_640 rfl fullShare fa5)) $$ Ha5
  ihave Ha6 := (Entails.of_eq (pts_a (F := F) d L 6 768 inb_S1024_S128_768 rfl fullShare fa6)) $$ Ha6
  ihave Ha7 := (Entails.of_eq (pts_a (F := F) d L 7 896 inb_S1024_S128_896 rfl fullShare fa7)) $$ Ha7
  ihave Hb0 := (Entails.of_eq (pts_b (F := F) d L 0 0 inb_S1024_S128_0 rfl fullShare fb0)) $$ Hb0
  ihave Hb1 := (Entails.of_eq (pts_b (F := F) d L 1 128 inb_S1024_S128_128 rfl fullShare fb1)) $$ Hb1
  ihave Hb2 := (Entails.of_eq (pts_b (F := F) d L 2 256 inb_S1024_S128_256 rfl fullShare fb2)) $$ Hb2
  ihave Hb3 := (Entails.of_eq (pts_b (F := F) d L 3 384 inb_S1024_S128_384 rfl fullShare fb3)) $$ Hb3
  ihave Hb4 := (Entails.of_eq (pts_b (F := F) d L 4 512 inb_S1024_S128_512 rfl fullShare fb4)) $$ Hb4
  ihave Hb5 := (Entails.of_eq (pts_b (F := F) d L 5 640 inb_S1024_S128_640 rfl fullShare fb5)) $$ Hb5
  ihave Hb6 := (Entails.of_eq (pts_b (F := F) d L 6 768 inb_S1024_S128_768 rfl fullShare fb6)) $$ Hb6
  ihave Hb7 := (Entails.of_eq (pts_b (F := F) d L 7 896 inb_S1024_S128_896 rfl fullShare fb7)) $$ Hb7
  -- the task's results
  isplitl [Hu0 Hu1 Hu2 Hu3 Hu4 Hu5 Hu6 Hu7 Hv0 Hv1 Hv2 Hv3 Hv4 Hv5 Hv6 Hv7 Hvr Ho0 Ho1 Ho2 Ho3 Ho4 Ho5 Ho6 Ho7]
  · isplitl [Hu0 Hu1 Hu2 Hu3 Hu4 Hu5 Hu6 Hu7]
    · isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      iexact Hu7
    isplitl [Hv0 Hv1 Hv2 Hv3 Hv4 Hv5 Hv6 Hv7 Hvr]
    · iapply (Transfers.pointsTo_toks_join (ℓ := vLoc d) (S := Finset.univ) (f := m (vLoc d)) (Transfers.shareTok fullShare 16 (iL L)) 8)
      isplitl [Hvr]; · iexact Hvr
      rw [bigSep_eight]; unfold eight
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
  -- the scratch vectors back whole
  isplitl [Ha0 Ha1 Ha2 Ha3 Ha4 Ha5 Ha6 Ha7 Hb0 Hb1 Hb2 Hb3 Hb4 Hb5 Hb6 Hb7 Hbufs]
  · isplitl [Ha0 Ha1 Ha2 Ha3 Ha4 Ha5 Ha6 Ha7]
    · iapply (a_join (F := F) d L); unfold eight
      isplitl [Ha0]; · iexists _; iexact Ha0
      isplitl [Ha1]; · iexists _; iexact Ha1
      isplitl [Ha2]; · iexists _; iexact Ha2
      isplitl [Ha3]; · iexists _; iexact Ha3
      isplitl [Ha4]; · iexists _; iexact Ha4
      isplitl [Ha5]; · iexists _; iexact Ha5
      isplitl [Ha6]; · iexists _; iexact Ha6
      iexists _; iexact Ha7
    isplitl [Hb0 Hb1 Hb2 Hb3 Hb4 Hb5 Hb6 Hb7]
    · iapply (b_join (F := F) d L); unfold eight
      isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    iexact Hbufs
  isplitl [Hs2 Hs3 Hs4 Hs5 Hs6 Hs7 Hs8 Hs9 Hs10 Hs11 Hs12 Hs13 Hs14 Hs15 Hs16 Hs17 Hs18 Hs19 Hs20 Hs21 Hs22 Hs23 Hs24 Hs25]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    iexact Hs25
  iexact HW

end Tile

/-! ## The launch theorem's obligations -/

section Launch

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lookup (coordsV c s)
          uW (Memref.isWhole_whole _) vW (Memref.isWhole_whole _) oW (Memref.isWhole_whole _)
          aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
/-- An array of 16384 words whole is its 16 × 8 chunks. -/
theorem u_split (d : Dev nD) (f : Buf (Elt F) (uLoc d)) :
    (uLoc d ↦{fullShare} f : sProp 𝕄) = bigSep Finset.univ fun i : Fin 16 => eight fun j => (uLoc d ↦[cs i j]{fullShare} f : sProp 𝕄) := by
  rw [bigSep_congr fun i _ => (bigSep_eight (F := F) (fun j => (uLoc d ↦[cs i j]{fullShare} f : sProp 𝕄))).symm,
    ← SparseCore.bigSep_product Finset.univ Finset.univ (fun p : Fin 16 × Fin 8 => (uLoc d ↦[cs p.1 p.2]{fullShare} f : sProp 𝕄)), Finset.univ_product_univ,
    ← pointsTo_biUnion Finset.univ (ℓ := uLoc d) (fun p : Fin 16 × Fin 8 => cs p.1 p.2) cs_disjoint, cs_cover]; try rfl
omit [FloatOps F] in
theorem o_split (d : Dev nD) (f : Buf (Elt F) (oLoc d)) :
    (oLoc d ↦{fullShare} f : sProp 𝕄) = bigSep Finset.univ fun i : Fin 16 => eight fun j => (oLoc d ↦[cs i j]{fullShare} f : sProp 𝕄) := by
  rw [bigSep_congr fun i _ => (bigSep_eight (F := F) (fun j => (oLoc d ↦[cs i j]{fullShare} f : sProp 𝕄))).symm,
    ← SparseCore.bigSep_product Finset.univ Finset.univ (fun p : Fin 16 × Fin 8 => (oLoc d ↦[cs p.1 p.2]{fullShare} f : sProp 𝕄)), Finset.univ_product_univ,
    ← pointsTo_biUnion Finset.univ (ℓ := oLoc d) (fun p : Fin 16 × Fin 8 => cs p.1 p.2) cs_disjoint, cs_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sequencer's deal: chunks of `uis` and `out` and read shares of `values` out, the same back with `out` gathered. -/
theorem vecSplit : (K (F := F)).VecSplit' (P m) 0 := by
  intro d c
  show iprop(uPts m d ∗ vPts m d ∗ oPts d (m (oLoc d))) ⊢ |={Set.univ}=> iprop(
      (bigSep Finset.univ fun i : Fin ((K (F := F)).nSub 0) => task m d (m (oLoc d)) (Fin.cast nSub_zero i))
      ∗ ((bigSep Finset.univ fun i : Fin ((K (F := F)).nSub 0) => task m d (Gv m d) (Fin.cast nSub_zero i))
          -∗ iprop(uPts m d ∗ vPts m d ∗ oPts d (Gv m d))))
  rw [bigSep_tasks (F := F) (task m d (m (oLoc d))), bigSep_tasks (F := F) (task m d (Gv m d))]
  unfold task uPts oPts uCh oCh
  rw [bigSep_sep', bigSep_sep', bigSep_sep', bigSep_sep', u_split, o_split d (m (oLoc d)), o_split d (Gv m d)]
  iintro ⟨Hu, Hv, Ho⟩
  ihave Hv' := (Transfers.pointsTo_toks_split (ℓ := vLoc d) (S := Finset.univ) (f := m (vLoc d)) fullShare 16) $$ Hv
  icases Hv' with ⟨Hvr, Hvs⟩
  imodintro
  isplitl [Hu Hvs Ho]
  · isplitl [Hu]; · iexact Hu
    isplitl [Hvs]; · iexact Hvs
    iexact Ho
  iintro ⟨Hu, Hvs, Ho⟩
  isplitl [Hu]; · iexact Hu
  isplitl [Hvr Hvs]
  · iapply (Transfers.pointsTo_toks_join (ℓ := vLoc d) (S := Finset.univ) (f := m (vLoc d)) fullShare 16)
    isplitl [Hvr]; · iexact Hvr
    iexact Hvs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev rLoc (d : Dev nD) : Loc nD τ sig := (SparseCore.T d).loc main_v1
abbrev o' : DevRef τ sig := Proc.devRef .tc (main_v0 : Ref sig .tc)
abbrev r' : DevRef τ sig := Proc.devRef .tc (main_v1 : Ref sig .tc)
/-- The reshape of `out` to a column. -/
abbrev opR : HloOp τ sig (Elt F) := StableHlo.reshape main_v0 main_v1 rfl shapeCasts_S16384_S16384x1
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (vLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation with `out` at the gathered values. -/
def V1 (d : Dev nD) : Valuation τ sig (Elt F) := Function.update (fun b => m (d, b)) o' (Gv m d)
omit [FloatOps F] in
theorem V1_o (d : Dev nD) : V1 m d o' = Gv m d := Function.update_self _ _ _
omit [FloatOps F] in
theorem V1_r (d : Dev nD) : V1 m d r' = m (rLoc d) := Function.update_of_ne (show r' ≠ o' by decide) _ _

theorem st0_eq (d : Dev nD) : (bigSep Finset.univ fun c : Fin ((K (F := F)).nCore 0) => (P m).st 0 d c) = iprop(uPts m d ∗ vPts m d ∗ oPts d (m (oLoc d))) :=
  bigSep_univ_of_subsingleton (0 : Fin 1)
theorem dn0_eq (d : Dev nD) : (bigSep Finset.univ fun c : Fin ((K (F := F)).nCore 0) => (P m).dn 0 d c) = iprop(uPts m d ∗ vPts m d ∗ oPts d (Gv m d)) :=
  bigSep_univ_of_subsingleton (0 : Fin 1)

theorem hR : (opR (F := F)).bufs ⊆ S2 := show ({o', r'} : Finset (DevRef τ sig)) ⊆ S2 by decide

/-- The column after the run: the reshape of the gathered values. -/
def RES (d : Dev nD) : Buf (Elt F) (rLoc d) := (opR (F := F)).result (V1 m d) r'

/-- What @main leaves the claim: the arguments at their launch contents, the column at the reshape of the gathered values. -/
abbrev FIN (d : Dev nD) : sProp 𝕄 := iprop(uPts m d ∗ vPts m d ∗ rLoc d ↦{fullShare} RES m d)

/-- @main on device `d`'s TensorCore: the call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hu, Hv, Ho, Hr⟩, -, -⟩, -⟩
  iapply ((K (F := F)).wp_run (D (F := F)) 𝒱 (EH := EH) (P := P m) κ d 0) $$ [Hst Hu Hv Ho Hb Hr]
  isplitr; · iexact Hctx
  isplitl [Hst]; · iexact Hst
  isplitl [Hu Hv Ho]
  · rw [st0_eq]
    isplitl [Hu]; · iexact Hu
    isplitl [Hv]; · iexact Hv
    iexact Ho
  iintro ⟨Hst, Hdn⟩
  ihave Hdn' := (Entails.of_eq (dn0_eq m d)) $$ Hdn
  icases Hdn' with ⟨Hu, Hv, Ho⟩
  iapply (wp_hlo_within 𝒱 (SparseCore.T d) none Set.univ (op := opR) (S := S2) hR (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Hu]; · iexact Hu
  isplitl [Hv]; · iexact Hv
  iexact Hr

def fq (d : Dev nD) (s' : Phys nD τ sig (Elt F)) : Prop :=
  s'.mem.mem (uLoc d) = m (uLoc d) ∧ s'.mem.mem (vLoc d) = m (vLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Hu, Hv, Hr⟩, HSI⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (uLoc c) = m (uLoc c) ∧ r.2.mem (vLoc c) = m (vLoc c) ∧ r.2.mem (rLoc c) = RES m c

/-- Every weakly fair execution of the device's threads terminates, nothing faulting; the arguments end unchanged and the
    result column at the reshape of the gathered values. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The result column, position by position: row `p` holds the gathered value of position `p`. -/
theorem RES_eq (d : Dev nD) :
    RES m d = fun i => shapeCast S16384x1 (Gv m d) shapeCasts_S16384_S16384x1 i := by
  unfold RES
  rw [StableHlo.reshape_result', V1_o]
  rfl

end Launch

end Cert.Proof.BitsLookup

end
-- ==== Proof.IdealSetup.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.KernelIdeal
import proofs.«210393_g26654567039053_cont_9to1_1641_13_alg».proof.Proof.Gen.KernelIdeal.Skeleton
import proofs.«210393_g26654567039053_cont_9to1_1641_13_alg».proof.Proof.LibGather1

noncomputable section

/-!
# The lookup kernel: vocabulary and pure facts

The kernel gathers `out[p] = values[uis[p]]` for `p < 16384`. Sixteen vector subcores each own 1024 consecutive positions,
cut into eight chunks of 128. This module names the arrays, the chunks' element sets, the function the kernel computes
(`Gv`), and proves the pure facts the run needs: what a chunk of `out` holds after index fetch, gather and write-back,
and that the fetched indices are in range when every word of `uis` is below 100000.
-/

namespace Cert.Proof.IdealLookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- `uis`, `values` (the arguments) and `out` (the kernel's result), as locations of device `d`. -/
abbrev uLoc (d : Dev nD) : Loc nD τ sig := (SparseCore.T d).loc main_arg0
abbrev vLoc (d : Dev nD) : Loc nD τ sig := (SparseCore.T d).loc main_arg1
abbrev oLoc (d : Dev nD) : Loc nD τ sig := (SparseCore.T d).loc main_v0

abbrev uW : Memref sig .scVector .hbm S16384 .i32 := Memref.whole main_arg0_scv
abbrev vW : Memref sig .scVector .hbm S100000 .i32 := Memref.whole main_arg1_scv
abbrev oW : Memref sig .scVector .hbm S16384 .i32 := Memref.whole main_v0_scv
/-- A subcore's two scratch vectors: the fetched indices, the gathered values. -/
abbrev aW : Memref sig .scVector .vmem S1024 .i32 := Memref.whole cc0_scratch0
abbrev bW : Memref sig .scVector .vmem S1024 .i32 := Memref.whole cc0_scratch1

abbrev cV (L : grid0.Coords) : Fin τ.nSC := (L 0).castLE hcore0
abbrev jV (L : grid0.Coords) : Fin τ.nSub := (L 1).castLE hsub0
theorem bound_one : grid0.bound 1 = 16 := rfl
/-- The subcore's number among the sixteen. -/
abbrev iL (L : grid0.Coords) : Fin 16 := Fin.cast bound_one (L 1)

/-- A chunk of 128 words of `uis` / of `out` at the word offset the kernel computes, and of a scratch vector at a
    literal offset. -/
abbrev uS (L : grid0.Coords) (w : BitVec 32) (h : ∀ a, (k0_off1 L w) a + S128.size a ≤ S16384.size a) : Memref sig .scVector .hbm S128 .i32 :=
  uW.slice (Rect.unit (s := S16384) (k0_off1 L w) S128.size h) (fun _ => rfl)
abbrev oS (L : grid0.Coords) (w : BitVec 32) (h : ∀ a, (k0_off1 L w) a + S128.size a ≤ S16384.size a) : Memref sig .scVector .hbm S128 .i32 :=
  oW.slice (Rect.unit (s := S16384) (k0_off1 L w) S128.size h) (fun _ => rfl)
abbrev aS (o : Nat) (h : ∀ a, (![o] : Fin 1 → Nat) a + S128.size a ≤ S1024.size a) : Memref sig .scVector .vmem S128 .i32 :=
  aW.slice (Rect.unit (s := S1024) ![o] S128.size h) (fun _ => rfl)
abbrev bS (o : Nat) (h : ∀ a, (![o] : Fin 1 → Nat) a + S128.size a ≤ S1024.size a) : Memref sig .scVector .vmem S128 .i32 :=
  bW.slice (Rect.unit (s := S1024) ![o] S128.size h) (fun _ => rfl)
/-- `values` whole, as the kernel slices it for the gather. -/
abbrev vSl : Memref sig .scVector .hbm S100000 .i32 :=
  vW.slice (Rect.unit (s := S100000) ![0] S100000.size inb_S100000_S100000_0) (fun _ => rfl)

/-! ## The chunks' element sets -/

theorem cs_inb (i : Fin 16) (j : Fin 8) : ∀ a, (![1024 * i.val + 128 * j.val] : Fin 1 → Nat) a + S128.size a ≤ S16384.size a :=
  Rect.inb₁ (by have := i.isLt; have := j.isLt; show 1024 * i.val + 128 * j.val + 128 ≤ 16384; omega)
/-- Chunk `j` of subcore `i`: positions `1024 i + 128 j … + 127`. -/
def cs (i : Fin 16) (j : Fin 8) : Finset S16384.Idx := (Rect.unit (s := S16384) ![1024 * i.val + 128 * j.val] S128.size (cs_inb i j)).set

theorem ss_inb (j : Fin 8) : ∀ a, (![128 * j.val] : Fin 1 → Nat) a + S128.size a ≤ S1024.size a :=
  Rect.inb₁ (by have := j.isLt; show 128 * j.val + 128 ≤ 1024; omega)
/-- Chunk `j` of a scratch vector: positions `128 j … + 127`. -/
def ss (j : Fin 8) : Finset S1024.Idx := (Rect.unit (s := S1024) ![128 * j.val] S128.size (ss_inb j)).set

theorem off_eq (L : grid0.Coords) (j : Fin 8) : k0_off1 L (BitVec.ofNat 32 (128 * j.val)) = ![1024 * (iL L).val + 128 * j.val] := by
  rw [k0_off1_eq]
  have h0 : (L 0).val = 0 := Nat.lt_one_iff.mp (show (L 0).val < 1 from (L 0).isLt)
  refine congrArg (fun n : ℕ => ![n]) ?_
  show 1024 * (L 1).val + 1024 * (L 0).val + 128 * j.val = 1024 * (L 1).val + 128 * j.val
  omega

theorem set_uS (L : grid0.Coords) (j : Fin 8) : (uS L (BitVec.ofNat 32 (128 * j.val)) (k0_off1_inb L j)).view.set = cs (iL L) j := by
  show ((View.whole main_arg0_scv).slice (Rect.unit (s := S16384) (k0_off1 L (BitVec.ofNat 32 (128 * j.val))) S128.size (k0_off1_inb L j))).set = _
  rw [View.set_slice_whole]
  exact Gather1.set_unit_congr (off_eq L j)
theorem set_oS (L : grid0.Coords) (j : Fin 8) : (oS L (BitVec.ofNat 32 (128 * j.val)) (k0_off1_inb L j)).view.set = cs (iL L) j := by
  show ((View.whole main_v0_scv).slice (Rect.unit (s := S16384) (k0_off1 L (BitVec.ofNat 32 (128 * j.val))) S128.size (k0_off1_inb L j))).set = _
  rw [View.set_slice_whole]
  exact Gather1.set_unit_congr (off_eq L j)
theorem set_aS (j : Fin 8) : (aS (128 * j.val) (ss_inb j)).view.set = ss j := by
  show ((View.whole cc0_scratch0).slice (Rect.unit (s := S1024) ![128 * j.val] S128.size (ss_inb j))).set = _
  rw [View.set_slice_whole]; rfl
theorem set_bS (j : Fin 8) : (bS (128 * j.val) (ss_inb j)).view.set = ss j := by
  show ((View.whole cc0_scratch1).slice (Rect.unit (s := S1024) ![128 * j.val] S128.size (ss_inb j))).set = _
  rw [View.set_slice_whole]; rfl

theorem cs_disjoint : ∀ p ∈ (Finset.univ : Finset (Fin 16 × Fin 8)), ∀ p' ∈ (Finset.univ : Finset (Fin 16 × Fin 8)), p ≠ p' →
    Disjoint (cs p.1 p.2) (cs p'.1 p'.2) := by
  rintro ⟨i, j⟩ - ⟨i', j'⟩ - hne
  refine Rect.unit_disjoint 0 ?_
  have hi := i.isLt; have hj := j.isLt; have hi' := i'.isLt; have hj' := j'.isLt
  show 1024 * i.val + 128 * j.val + 128 ≤ 1024 * i'.val + 128 * j'.val ∨ 1024 * i'.val + 128 * j'.val + 128 ≤ 1024 * i.val + 128 * j.val
  by_cases h1 : i.val = i'.val
  · by_cases h2 : j.val = j'.val
    · exact absurd (Prod.ext (Fin.ext h1) (Fin.ext h2)) hne
    · omega
  · omega
theorem cs_cover : (Finset.univ : Finset (Fin 16 × Fin 8)).biUnion (fun p => cs p.1 p.2) = Finset.univ := by
  ext x
  simp only [Finset.mem_biUnion, Finset.mem_univ, true_and, iff_true]
  have hx : (x 0).val < 16384 := (x 0).isLt
  refine ⟨(⟨(x 0).val / 1024, by omega⟩, ⟨(x 0).val % 1024 / 128, by omega⟩), ?_⟩
  refine Rect.mem_set_unit.mpr fun a => ?_
  obtain rfl : a = 0 := Subsingleton.elim _ _
  show 1024 * ((x 0).val / 1024) + 128 * ((x 0).val % 1024 / 128) ≤ (x 0).val ∧ (x 0).val < 1024 * ((x 0).val / 1024) + 128 * ((x 0).val % 1024 / 128) + 128
  omega
theorem ss_disjoint : ∀ j ∈ (Finset.univ : Finset (Fin 8)), ∀ j' ∈ (Finset.univ : Finset (Fin 8)), j ≠ j' → Disjoint (ss j) (ss j') := by
  intro j _ j' _ hne
  refine Rect.unit_disjoint 0 ?_
  have hj := j.isLt; have hj' := j'.isLt
  have : j.val ≠ j'.val := fun h => hne (Fin.ext h)
  show 128 * j.val + 128 ≤ 128 * j'.val ∨ 128 * j'.val + 128 ≤ 128 * j.val
  omega
theorem ss_cover : (Finset.univ : Finset (Fin 8)).biUnion ss = Finset.univ := by
  ext x
  simp only [Finset.mem_biUnion, Finset.mem_univ, true_and, iff_true]
  have hx : (x 0).val < 1024 := (x 0).isLt
  refine ⟨⟨(x 0).val / 128, by omega⟩, ?_⟩
  refine Rect.mem_set_unit.mpr fun a => ?_
  obtain rfl : a = 0 := Subsingleton.elim _ _
  show 128 * ((x 0).val / 128) ≤ (x 0).val ∧ (x 0).val < 128 * ((x 0).val / 128) + 128
  omega

/-! ## What the kernel computes -/

/-- What the proof asks of the launch memory: every word of `uis` names a position of `values`. -/
def PreOK : Prop := ∀ (d : Dev nD) (y : S16384.Idx), (m (uLoc d) y).toNat < 100000

/-- The kernel's result: at position `y`, `values` at the position `uis y` names. -/
def Gv (d : Dev nD) : Buf (Elt F) (oLoc d) := fun y => m (vLoc d) (Gather1.pos 100000 (by norm_num) (m (uLoc d) y).toNat)

variable [FloatOps F]
variable (d : Dev nD) (L : grid0.Coords)

theorem read_uS (w : BitVec 32) (hw) (x : S128.Idx) :
    (uS L w hw).view.read (Elt F) (m (uLoc d)) x = m (uLoc d) ((uS L w hw).view.emb x) :=
  (View.read_apply _ _).trans (cast_eq _ _)

/-- The words a chunk's index fetch leaves in the scratch are words of `uis`: in range. -/
theorem fetched_inb (hpre : PreOK m) (w : BitVec 32) (hw) (o : ℕ) (ho)
    (g : Buf (Elt F) ((V d (cV L) (jV L)).loc cc0_scratch0)) (x : S128.Idx) :
    ((aS o ho).view.read (Elt F) ((aS o ho).view.writes (Elt F) g
      [⟨Rect.whole S128, ReadAs.same.apply ((uS L w hw).view.read (Elt F) (m (uLoc d)))⟩]) x).toNat < 100000 := by
  rw [Gather1.read_writes_whole]
  show ((uS L w hw).view.read (Elt F) (m (uLoc d)) x).toNat < 100000
  rw [read_uS]
  exact hpre d _

theorem emb_vSl (z : S100000.Idx) : (vSl).view.emb z = z := by
  funext a; apply Fin.ext
  have ha : a = (0 : Fin 1) := Subsingleton.elim (α := Fin 1) _ _
  subst ha
  show 0 + 1 * (z 0).val = (z 0).val
  omega

/-- A chunk of `out` after the three transfers: the scratch's gathered values written back, the gathered values those of
    `values` at the fetched words of `uis` — position by position, `Gv`. -/
theorem out_val (w : BitVec 32) (hw) (o : ℕ) (ho)
    (fb : Buf (Elt F) ((V d (cV L) (jV L)).loc cc0_scratch1)) (ga : Buf (Elt F) ((V d (cV L) (jV L)).loc cc0_scratch0))
    (hn : S128.numel = S128.size (gathers_S100000_S128 : S100000.Gathers 0 S128).axis')
    (hin : ∀ x, ((aS o ho).view.read (Elt F) ((aS o ho).view.writes (Elt F) ga
      [⟨Rect.whole S128, ReadAs.same.apply ((uS L w hw).view.read (Elt F) (m (uLoc d)))⟩]) x).toNat < S100000.size (gathers_S100000_S128 : S100000.Gathers 0 S128).axis) :
    ∀ y ∈ (oS L w hw).view.set,
      (oS L w hw).view.writes (Elt F) (m (oLoc d))
        [⟨Rect.whole S128, ReadAs.same.apply ((bS o ho).view.read (Elt F) ((bS o ho).view.writes (Elt F) fb
          [⟨Rect.whole S128, SparseCore.gatherPayload gathers_S100000_S128 ((vSl).view.read (Elt F) (m (vLoc d)))
            (SparseCore.rows ((aS o ho).view.read (Elt F) ((aS o ho).view.writes (Elt F) ga
              [⟨Rect.whole S128, ReadAs.same.apply ((uS L w hw).view.read (Elt F) (m (uLoc d)))⟩])) hn hin)⟩]))⟩] y
      = Gv m d y := by
  intro y hy
  obtain ⟨x, -, rfl⟩ := Finset.mem_map.mp hy
  have h1 := Gather1.read_writes_whole (Val := Elt F) (oS L w hw).view (m (oLoc d))
    (ReadAs.same.apply ((bS o ho).view.read (Elt F) ((bS o ho).view.writes (Elt F) fb
          [⟨Rect.whole S128, SparseCore.gatherPayload gathers_S100000_S128 ((vSl).view.read (Elt F) (m (vLoc d)))
            (SparseCore.rows ((aS o ho).view.read (Elt F) ((aS o ho).view.writes (Elt F) ga
              [⟨Rect.whole S128, ReadAs.same.apply ((uS L w hw).view.read (Elt F) (m (uLoc d)))⟩])) hn hin)⟩]))) x
  rw [View.read_apply] at h1
  refine (cast_eq _ _).symm.trans (h1.trans ?_)
  show (bS o ho).view.read (Elt F) _ x = _
  rw [Gather1.read_writes_whole, Gather1.gatherPayload_apply (by norm_num : 0 < 100000)]
  rw [Gather1.read_writes_whole]
  show (vSl).view.read (Elt F) (m (vLoc d)) (Gather1.pos 100000 _ ((uS L w hw).view.read (Elt F) (m (uLoc d)) x).toNat) = _
  rw [View.read_apply, emb_vSl, read_uS]
  exact cast_eq _ _

end Cert.Proof.IdealLookup

end
-- ==== Proof.IdealTile.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.KernelIdeal
import proofs.«210393_g26654567039053_cont_9to1_1641_13_alg».proof.Proof.Gen.KernelIdeal.Skeleton
import proofs.«210393_g26654567039053_cont_9to1_1641_13_alg».proof.Proof.IdealSetup

noncomputable section

/-!
# One subcore's task

The task of vector subcore `(L 0, L 1)`: eight index fetches (a chunk of `uis` into the index scratch), each waited for and
followed by the gather of `values` at the fetched words into the value scratch, each gather waited for and followed by the
write-back of the gathered chunk into `out`, and the eight write-backs waited for. Every transfer touches one chunk only, so
the subcore holds each chunk of each array as a resource of its own; `values` is read by up to eight gathers at once, each
under a read share of its own. At the end every chunk of `out` holds the gathered values (`Gv`).
-/

namespace Cert.Proof.IdealLookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F] (d : Dev nD) (L : grid0.Coords)

set_option maxRecDepth 4096 in
theorem tile_core (hpre : PreOK m) (O : CellTallies nD τ sig (HIx 1)) (W : Waits sig (HIx 1)) (hO : ∀ g, O g none = 0)
    (fa : Buf (Elt F) ((V d (cV L) (jV L)).loc cc0_scratch0)) (fb : Buf (Elt F) ((V d (cV L) (jV L)).loc cc0_scratch1))
    (q : Fin 8 → PosShare TreeShare) :
    iprop(levAts (K (F := F)).L (K (F := F)).lev
        ∗ (((uS L 0#32 (k0_off1_inb L 0)).view.loc (V d (cV L) (jV L)) ↦[(uS L 0#32 (k0_off1_inb L 0)).view.set]{fullShare} m (uLoc d) : sProp 𝕄))
        ∗ (((uS L 128#32 (k0_off1_inb L 1)).view.loc (V d (cV L) (jV L)) ↦[(uS L 128#32 (k0_off1_inb L 1)).view.set]{fullShare} m (uLoc d) : sProp 𝕄))
        ∗ (((uS L 256#32 (k0_off1_inb L 2)).view.loc (V d (cV L) (jV L)) ↦[(uS L 256#32 (k0_off1_inb L 2)).view.set]{fullShare} m (uLoc d) : sProp 𝕄))
        ∗ (((uS L 384#32 (k0_off1_inb L 3)).view.loc (V d (cV L) (jV L)) ↦[(uS L 384#32 (k0_off1_inb L 3)).view.set]{fullShare} m (uLoc d) : sProp 𝕄))
        ∗ (((uS L 512#32 (k0_off1_inb L 4)).view.loc (V d (cV L) (jV L)) ↦[(uS L 512#32 (k0_off1_inb L 4)).view.set]{fullShare} m (uLoc d) : sProp 𝕄))
        ∗ (((uS L 640#32 (k0_off1_inb L 5)).view.loc (V d (cV L) (jV L)) ↦[(uS L 640#32 (k0_off1_inb L 5)).view.set]{fullShare} m (uLoc d) : sProp 𝕄))
        ∗ (((uS L 768#32 (k0_off1_inb L 6)).view.loc (V d (cV L) (jV L)) ↦[(uS L 768#32 (k0_off1_inb L 6)).view.set]{fullShare} m (uLoc d) : sProp 𝕄))
        ∗ (((uS L 896#32 (k0_off1_inb L 7)).view.loc (V d (cV L) (jV L)) ↦[(uS L 896#32 (k0_off1_inb L 7)).view.set]{fullShare} m (uLoc d) : sProp 𝕄))
        ∗ ((vW.view.loc (V d (cV L) (jV L)) ↦{q 0} m (vLoc d) : sProp 𝕄))
        ∗ ((vW.view.loc (V d (cV L) (jV L)) ↦{q 1} m (vLoc d) : sProp 𝕄))
        ∗ ((vW.view.loc (V d (cV L) (jV L)) ↦{q 2} m (vLoc d) : sProp 𝕄))
        ∗ ((vW.view.loc (V d (cV L) (jV L)) ↦{q 3} m (vLoc d) : sProp 𝕄))
        ∗ ((vW.view.loc (V d (cV L) (jV L)) ↦{q 4} m (vLoc d) : sProp 𝕄))
        ∗ ((vW.view.loc (V d (cV L) (jV L)) ↦{q 5} m (vLoc d) : sProp 𝕄))
        ∗ ((vW.view.loc (V d (cV L) (jV L)) ↦{q 6} m (vLoc d) : sProp 𝕄))
        ∗ ((vW.view.loc (V d (cV L) (jV L)) ↦{q 7} m (vLoc d) : sProp 𝕄))
        ∗ (((oS L 0#32 (k0_off1_inb L 0)).view.loc (V d (cV L) (jV L)) ↦[(oS L 0#32 (k0_off1_inb L 0)).view.set]{fullShare} m (oLoc d) : sProp 𝕄))
        ∗ (((oS L 128#32 (k0_off1_inb L 1)).view.loc (V d (cV L) (jV L)) ↦[(oS L 128#32 (k0_off1_inb L 1)).view.set]{fullShare} m (oLoc d) : sProp 𝕄))
        ∗ (((oS L 256#32 (k0_off1_inb L 2)).view.loc (V d (cV L) (jV L)) ↦[(oS L 256#32 (k0_off1_inb L 2)).view.set]{fullShare} m (oLoc d) : sProp 𝕄))
        ∗ (((oS L 384#32 (k0_off1_inb L 3)).view.loc (V d (cV L) (jV L)) ↦[(oS L 384#32 (k0_off1_inb L 3)).view.set]{fullShare} m (oLoc d) : sProp 𝕄))
        ∗ (((oS L 512#32 (k0_off1_inb L 4)).view.loc (V d (cV L) (jV L)) ↦[(oS L 512#32 (k0_off1_inb L 4)).view.set]{fullShare} m (oLoc d) : sProp 𝕄))
        ∗ (((oS L 640#32 (k0_off1_inb L 5)).view.loc (V d (cV L) (jV L)) ↦[(oS L 640#32 (k0_off1_inb L 5)).view.set]{fullShare} m (oLoc d) : sProp 𝕄))
        ∗ (((oS L 768#32 (k0_off1_inb L 6)).view.loc (V d (cV L) (jV L)) ↦[(oS L 768#32 (k0_off1_inb L 6)).view.set]{fullShare} m (oLoc d) : sProp 𝕄))
        ∗ (((oS L 896#32 (k0_off1_inb L 7)).view.loc (V d (cV L) (jV L)) ↦[(oS L 896#32 (k0_off1_inb L 7)).view.set]{fullShare} m (oLoc d) : sProp 𝕄))
        ∗ (((aS 0 inb_S1024_S128_0).view.loc (V d (cV L) (jV L)) ↦[(aS 0 inb_S1024_S128_0).view.set]{fullShare} fa : sProp 𝕄))
        ∗ (((aS 128 inb_S1024_S128_128).view.loc (V d (cV L) (jV L)) ↦[(aS 128 inb_S1024_S128_128).view.set]{fullShare} fa : sProp 𝕄))
        ∗ (((aS 256 inb_S1024_S128_256).view.loc (V d (cV L) (jV L)) ↦[(aS 256 inb_S1024_S128_256).view.set]{fullShare} fa : sProp 𝕄))
        ∗ (((aS 384 inb_S1024_S128_384).view.loc (V d (cV L) (jV L)) ↦[(aS 384 inb_S1024_S128_384).view.set]{fullShare} fa : sProp 𝕄))
        ∗ (((aS 512 inb_S1024_S128_512).view.loc (V d (cV L) (jV L)) ↦[(aS 512 inb_S1024_S128_512).view.set]{fullShare} fa : sProp 𝕄))
        ∗ (((aS 640 inb_S1024_S128_640).view.loc (V d (cV L) (jV L)) ↦[(aS 640 inb_S1024_S128_640).view.set]{fullShare} fa : sProp 𝕄))
        ∗ (((aS 768 inb_S1024_S128_768).view.loc (V d (cV L) (jV L)) ↦[(aS 768 inb_S1024_S128_768).view.set]{fullShare} fa : sProp 𝕄))
        ∗ (((aS 896 inb_S1024_S128_896).view.loc (V d (cV L) (jV L)) ↦[(aS 896 inb_S1024_S128_896).view.set]{fullShare} fa : sProp 𝕄))
        ∗ (((bS 0 inb_S1024_S128_0).view.loc (V d (cV L) (jV L)) ↦[(bS 0 inb_S1024_S128_0).view.set]{fullShare} fb : sProp 𝕄))
        ∗ (((bS 128 inb_S1024_S128_128).view.loc (V d (cV L) (jV L)) ↦[(bS 128 inb_S1024_S128_128).view.set]{fullShare} fb : sProp 𝕄))
        ∗ (((bS 256 inb_S1024_S128_256).view.loc (V d (cV L) (jV L)) ↦[(bS 256 inb_S1024_S128_256).view.set]{fullShare} fb : sProp 𝕄))
        ∗ (((bS 384 inb_S1024_S128_384).view.loc (V d (cV L) (jV L)) ↦[(bS 384 inb_S1024_S128_384).view.set]{fullShare} fb : sProp 𝕄))
        ∗ (((bS 512 inb_S1024_S128_512).view.loc (V d (cV L) (jV L)) ↦[(bS 512 inb_S1024_S128_512).view.set]{fullShare} fb : sProp 𝕄))
        ∗ (((bS 640 inb_S1024_S128_640).view.loc (V d (cV L) (jV L)) ↦[(bS 640 inb_S1024_S128_640).view.set]{fullShare} fb : sProp 𝕄))
        ∗ (((bS 768 inb_S1024_S128_768).view.loc (V d (cV L) (jV L)) ↦[(bS 768 inb_S1024_S128_768).view.set]{fullShare} fb : sProp 𝕄))
        ∗ (((bS 896 inb_S1024_S128_896).view.loc (V d (cV L) (jV L)) ↦[(bS 896 inb_S1024_S128_896).view.set]{fullShare} fb : sProp 𝕄))
        ∗ (semVal ((V d (cV L) (jV L)), SemLoc.dma cc0_scratch2.sem) 0 : sProp 𝕄)
        ∗ (semVal ((V d (cV L) (jV L)), SemLoc.dma cc0_scratch3.sem) 0 : sProp 𝕄)
        ∗ (semVal ((V d (cV L) (jV L)), SemLoc.dma cc0_scratch4.sem) 0 : sProp 𝕄)
        ∗ (semVal ((V d (cV L) (jV L)), SemLoc.dma cc0_scratch5.sem) 0 : sProp 𝕄)
        ∗ (semVal ((V d (cV L) (jV L)), SemLoc.dma cc0_scratch6.sem) 0 : sProp 𝕄)
        ∗ (semVal ((V d (cV L) (jV L)), SemLoc.dma cc0_scratch7.sem) 0 : sProp 𝕄)
        ∗ (semVal ((V d (cV L) (jV L)), SemLoc.dma cc0_scratch8.sem) 0 : sProp 𝕄)
        ∗ (semVal ((V d (cV L) (jV L)), SemLoc.dma cc0_scratch9.sem) 0 : sProp 𝕄)
        ∗ (semVal ((V d (cV L) (jV L)), SemLoc.dma cc0_scratch10.sem) 0 : sProp 𝕄)
        ∗ (semVal ((V d (cV L) (jV L)), SemLoc.dma cc0_scratch11.sem) 0 : sProp 𝕄)
        ∗ (semVal ((V d (cV L) (jV L)), SemLoc.dma cc0_scratch12.sem) 0 : sProp 𝕄)
        ∗ (semVal ((V d (cV L) (jV L)), SemLoc.dma cc0_scratch13.sem) 0 : sProp 𝕄)
        ∗ (semVal ((V d (cV L) (jV L)), SemLoc.dma cc0_scratch14.sem) 0 : sProp 𝕄)
        ∗ (semVal ((V d (cV L) (jV L)), SemLoc.dma cc0_scratch15.sem) 0 : sProp 𝕄)
        ∗ (semVal ((V d (cV L) (jV L)), SemLoc.dma cc0_scratch16.sem) 0 : sProp 𝕄)
        ∗ (semVal ((V d (cV L) (jV L)), SemLoc.dma cc0_scratch17.sem) 0 : sProp 𝕄)
        ∗ (semVal ((V d (cV L) (jV L)), SemLoc.dma cc0_scratch18.sem) 0 : sProp 𝕄)
        ∗ (semVal ((V d (cV L) (jV L)), SemLoc.dma cc0_scratch19.sem) 0 : sProp 𝕄)
        ∗ (semVal ((V d (cV L) (jV L)), SemLoc.dma cc0_scratch20.sem) 0 : sProp 𝕄)
        ∗ (semVal ((V d (cV L) (jV L)), SemLoc.dma cc0_scratch21.sem) 0 : sProp 𝕄)
        ∗ (semVal ((V d (cV L) (jV L)), SemLoc.dma cc0_scratch22.sem) 0 : sProp 𝕄)
        ∗ (semVal ((V d (cV L) (jV L)), SemLoc.dma cc0_scratch23.sem) 0 : sProp 𝕄)
        ∗ (semVal ((V d (cV L) (jV L)), SemLoc.dma cc0_scratch24.sem) 0 : sProp 𝕄)
        ∗ (semVal ((V d (cV L) (jV L)), SemLoc.dma cc0_scratch25.sem) 0 : sProp 𝕄)
        ∗ owes (V d (cV L) (jV L)) O W)
      ⊢ wp frame (wpE (defs₀ (F := F)) 𝒱₀ (V d (cV L) (jV L)) none) Set.univ
          (cc0_lookup L uW (Memref.isWhole_whole _) vW (Memref.isWhole_whole _) oW (Memref.isWhole_whole _)
            aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
          fun _ => iprop((((uS L 0#32 (k0_off1_inb L 0)).view.loc (V d (cV L) (jV L)) ↦[(uS L 0#32 (k0_off1_inb L 0)).view.set]{fullShare} m (uLoc d) : sProp 𝕄))
            ∗ (((uS L 128#32 (k0_off1_inb L 1)).view.loc (V d (cV L) (jV L)) ↦[(uS L 128#32 (k0_off1_inb L 1)).view.set]{fullShare} m (uLoc d) : sProp 𝕄))
            ∗ (((uS L 256#32 (k0_off1_inb L 2)).view.loc (V d (cV L) (jV L)) ↦[(uS L 256#32 (k0_off1_inb L 2)).view.set]{fullShare} m (uLoc d) : sProp 𝕄))
            ∗ (((uS L 384#32 (k0_off1_inb L 3)).view.loc (V d (cV L) (jV L)) ↦[(uS L 384#32 (k0_off1_inb L 3)).view.set]{fullShare} m (uLoc d) : sProp 𝕄))
            ∗ (((uS L 512#32 (k0_off1_inb L 4)).view.loc (V d (cV L) (jV L)) ↦[(uS L 512#32 (k0_off1_inb L 4)).view.set]{fullShare} m (uLoc d) : sProp 𝕄))
            ∗ (((uS L 640#32 (k0_off1_inb L 5)).view.loc (V d (cV L) (jV L)) ↦[(uS L 640#32 (k0_off1_inb L 5)).view.set]{fullShare} m (uLoc d) : sProp 𝕄))
            ∗ (((uS L 768#32 (k0_off1_inb L 6)).view.loc (V d (cV L) (jV L)) ↦[(uS L 768#32 (k0_off1_inb L 6)).view.set]{fullShare} m (uLoc d) : sProp 𝕄))
            ∗ (((uS L 896#32 (k0_off1_inb L 7)).view.loc (V d (cV L) (jV L)) ↦[(uS L 896#32 (k0_off1_inb L 7)).view.set]{fullShare} m (uLoc d) : sProp 𝕄))
            ∗ ((vW.view.loc (V d (cV L) (jV L)) ↦{q 0} m (vLoc d) : sProp 𝕄))
            ∗ ((vW.view.loc (V d (cV L) (jV L)) ↦{q 1} m (vLoc d) : sProp 𝕄))
            ∗ ((vW.view.loc (V d (cV L) (jV L)) ↦{q 2} m (vLoc d) : sProp 𝕄))
            ∗ ((vW.view.loc (V d (cV L) (jV L)) ↦{q 3} m (vLoc d) : sProp 𝕄))
            ∗ ((vW.view.loc (V d (cV L) (jV L)) ↦{q 4} m (vLoc d) : sProp 𝕄))
            ∗ ((vW.view.loc (V d (cV L) (jV L)) ↦{q 5} m (vLoc d) : sProp 𝕄))
            ∗ ((vW.view.loc (V d (cV L) (jV L)) ↦{q 6} m (vLoc d) : sProp 𝕄))
            ∗ ((vW.view.loc (V d (cV L) (jV L)) ↦{q 7} m (vLoc d) : sProp 𝕄))
            ∗ (((oS L 0#32 (k0_off1_inb L 0)).view.loc (V d (cV L) (jV L)) ↦[(oS L 0#32 (k0_off1_inb L 0)).view.set]{fullShare} Gv m d : sProp 𝕄))
            ∗ (((oS L 128#32 (k0_off1_inb L 1)).view.loc (V d (cV L) (jV L)) ↦[(oS L 128#32 (k0_off1_inb L 1)).view.set]{fullShare} Gv m d : sProp 𝕄))
            ∗ (((oS L 256#32 (k0_off1_inb L 2)).view.loc (V d (cV L) (jV L)) ↦[(oS L 256#32 (k0_off1_inb L 2)).view.set]{fullShare} Gv m d : sProp 𝕄))
            ∗ (((oS L 384#32 (k0_off1_inb L 3)).view.loc (V d (cV L) (jV L)) ↦[(oS L 384#32 (k0_off1_inb L 3)).view.set]{fullShare} Gv m d : sProp 𝕄))
            ∗ (((oS L 512#32 (k0_off1_inb L 4)).view.loc (V d (cV L) (jV L)) ↦[(oS L 512#32 (k0_off1_inb L 4)).view.set]{fullShare} Gv m d : sProp 𝕄))
            ∗ (((oS L 640#32 (k0_off1_inb L 5)).view.loc (V d (cV L) (jV L)) ↦[(oS L 640#32 (k0_off1_inb L 5)).view.set]{fullShare} Gv m d : sProp 𝕄))
            ∗ (((oS L 768#32 (k0_off1_inb L 6)).view.loc (V d (cV L) (jV L)) ↦[(oS L 768#32 (k0_off1_inb L 6)).view.set]{fullShare} Gv m d : sProp 𝕄))
            ∗ (((oS L 896#32 (k0_off1_inb L 7)).view.loc (V d (cV L) (jV L)) ↦[(oS L 896#32 (k0_off1_inb L 7)).view.set]{fullShare} Gv m d : sProp 𝕄))
            ∗ (∃ f, ((aS 0 inb_S1024_S128_0).view.loc (V d (cV L) (jV L)) ↦[(aS 0 inb_S1024_S128_0).view.set]{fullShare} f : sProp 𝕄))
            ∗ (∃ f, ((aS 128 inb_S1024_S128_128).view.loc (V d (cV L) (jV L)) ↦[(aS 128 inb_S1024_S128_128).view.set]{fullShare} f : sProp 𝕄))
            ∗ (∃ f, ((aS 256 inb_S1024_S128_256).view.loc (V d (cV L) (jV L)) ↦[(aS 256 inb_S1024_S128_256).view.set]{fullShare} f : sProp 𝕄))
            ∗ (∃ f, ((aS 384 inb_S1024_S128_384).view.loc (V d (cV L) (jV L)) ↦[(aS 384 inb_S1024_S128_384).view.set]{fullShare} f : sProp 𝕄))
            ∗ (∃ f, ((aS 512 inb_S1024_S128_512).view.loc (V d (cV L) (jV L)) ↦[(aS 512 inb_S1024_S128_512).view.set]{fullShare} f : sProp 𝕄))
            ∗ (∃ f, ((aS 640 inb_S1024_S128_640).view.loc (V d (cV L) (jV L)) ↦[(aS 640 inb_S1024_S128_640).view.set]{fullShare} f : sProp 𝕄))
            ∗ (∃ f, ((aS 768 inb_S1024_S128_768).view.loc (V d (cV L) (jV L)) ↦[(aS 768 inb_S1024_S128_768).view.set]{fullShare} f : sProp 𝕄))
            ∗ (∃ f, ((aS 896 inb_S1024_S128_896).view.loc (V d (cV L) (jV L)) ↦[(aS 896 inb_S1024_S128_896).view.set]{fullShare} f : sProp 𝕄))
            ∗ (∃ f, ((bS 0 inb_S1024_S128_0).view.loc (V d (cV L) (jV L)) ↦[(bS 0 inb_S1024_S128_0).view.set]{fullShare} f : sProp 𝕄))
            ∗ (∃ f, ((bS 128 inb_S1024_S128_128).view.loc (V d (cV L) (jV L)) ↦[(bS 128 inb_S1024_S128_128).view.set]{fullShare} f : sProp 𝕄))
            ∗ (∃ f, ((bS 256 inb_S1024_S128_256).view.loc (V d (cV L) (jV L)) ↦[(bS 256 inb_S1024_S128_256).view.set]{fullShare} f : sProp 𝕄))
            ∗ (∃ f, ((bS 384 inb_S1024_S128_384).view.loc (V d (cV L) (jV L)) ↦[(bS 384 inb_S1024_S128_384).view.set]{fullShare} f : sProp 𝕄))
            ∗ (∃ f, ((bS 512 inb_S1024_S128_512).view.loc (V d (cV L) (jV L)) ↦[(bS 512 inb_S1024_S128_512).view.set]{fullShare} f : sProp 𝕄))
            ∗ (∃ f, ((bS 640 inb_S1024_S128_640).view.loc (V d (cV L) (jV L)) ↦[(bS 640 inb_S1024_S128_640).view.set]{fullShare} f : sProp 𝕄))
            ∗ (∃ f, ((bS 768 inb_S1024_S128_768).view.loc (V d (cV L) (jV L)) ↦[(bS 768 inb_S1024_S128_768).view.set]{fullShare} f : sProp 𝕄))
            ∗ (∃ f, ((bS 896 inb_S1024_S128_896).view.loc (V d (cV L) (jV L)) ↦[(bS 896 inb_S1024_S128_896).view.set]{fullShare} f : sProp 𝕄))
            ∗ (semVal ((V d (cV L) (jV L)), SemLoc.dma cc0_scratch2.sem) 0 : sProp 𝕄)
            ∗ (semVal ((V d (cV L) (jV L)), SemLoc.dma cc0_scratch3.sem) 0 : sProp 𝕄)
            ∗ (semVal ((V d (cV L) (jV L)), SemLoc.dma cc0_scratch4.sem) 0 : sProp 𝕄)
            ∗ (semVal ((V d (cV L) (jV L)), SemLoc.dma cc0_scratch5.sem) 0 : sProp 𝕄)
            ∗ (semVal ((V d (cV L) (jV L)), SemLoc.dma cc0_scratch6.sem) 0 : sProp 𝕄)
            ∗ (semVal ((V d (cV L) (jV L)), SemLoc.dma cc0_scratch7.sem) 0 : sProp 𝕄)
            ∗ (semVal ((V d (cV L) (jV L)), SemLoc.dma cc0_scratch8.sem) 0 : sProp 𝕄)
            ∗ (semVal ((V d (cV L) (jV L)), SemLoc.dma cc0_scratch9.sem) 0 : sProp 𝕄)
            ∗ (semVal ((V d (cV L) (jV L)), SemLoc.dma cc0_scratch10.sem) 0 : sProp 𝕄)
            ∗ (semVal ((V d (cV L) (jV L)), SemLoc.dma cc0_scratch11.sem) 0 : sProp 𝕄)
            ∗ (semVal ((V d (cV L) (jV L)), SemLoc.dma cc0_scratch12.sem) 0 : sProp 𝕄)
            ∗ (semVal ((V d (cV L) (jV L)), SemLoc.dma cc0_scratch13.sem) 0 : sProp 𝕄)
            ∗ (semVal ((V d (cV L) (jV L)), SemLoc.dma cc0_scratch14.sem) 0 : sProp 𝕄)
            ∗ (semVal ((V d (cV L) (jV L)), SemLoc.dma cc0_scratch15.sem) 0 : sProp 𝕄)
            ∗ (semVal ((V d (cV L) (jV L)), SemLoc.dma cc0_scratch16.sem) 0 : sProp 𝕄)
            ∗ (semVal ((V d (cV L) (jV L)), SemLoc.dma cc0_scratch17.sem) 0 : sProp 𝕄)
            ∗ (semVal ((V d (cV L) (jV L)), SemLoc.dma cc0_scratch18.sem) 0 : sProp 𝕄)
            ∗ (semVal ((V d (cV L) (jV L)), SemLoc.dma cc0_scratch19.sem) 0 : sProp 𝕄)
            ∗ (semVal ((V d (cV L) (jV L)), SemLoc.dma cc0_scratch20.sem) 0 : sProp 𝕄)
            ∗ (semVal ((V d (cV L) (jV L)), SemLoc.dma cc0_scratch21.sem) 0 : sProp 𝕄)
            ∗ (semVal ((V d (cV L) (jV L)), SemLoc.dma cc0_scratch22.sem) 0 : sProp 𝕄)
            ∗ (semVal ((V d (cV L) (jV L)), SemLoc.dma cc0_scratch23.sem) 0 : sProp 𝕄)
            ∗ (semVal ((V d (cV L) (jV L)), SemLoc.dma cc0_scratch24.sem) 0 : sProp 𝕄)
            ∗ (semVal ((V d (cV L) (jV L)), SemLoc.dma cc0_scratch25.sem) 0 : sProp 𝕄)
            ∗ ∃ W', ⌜∀ p ∈ W', p ∈ W ∨ p.2 = none⌝ ∗ owes (V d (cV L) (jV L)) O W') := by
  rw [cc0_lookup_eq_skeleton]; unfold cc0_lookup_skel
  iintro ⟨#Hlv, Hu0, Hu1, Hu2, Hu3, Hu4, Hu5, Hu6, Hu7, Hv0, Hv1, Hv2, Hv3, Hv4, Hv5, Hv6, Hv7, Ho0, Ho1, Ho2, Ho3, Ho4, Ho5, Ho6, Ho7, Ha0, Ha1, Ha2, Ha3, Ha4, Ha5, Ha6, Ha7, Hb0, Hb1, Hb2, Hb3, Hb4, Hb5, Hb6, Hb7, Hs2, Hs3, Hs4, Hs5, Hs6, Hs7, Hs8, Hs9, Hs10, Hs11, Hs12, Hs13, Hs14, Hs15, Hs16, Hs17, Hs18, Hs19, Hs20, Hs21, Hs22, Hs23, Hs24, Hs25, HO⟩
  ihave Hmw := ((K (F := F)).mayWaits_none (thr := (V d (cV L) (jV L))) hO) $$ Hlv
  have hin0 := fetched_inb m d L hpre 0#32 (k0_off1_inb L 0) 0 inb_S1024_S128_0
  have hin1 := fetched_inb m d L hpre 128#32 (k0_off1_inb L 1) 128 inb_S1024_S128_128
  have hin2 := fetched_inb m d L hpre 256#32 (k0_off1_inb L 2) 256 inb_S1024_S128_256
  have hin3 := fetched_inb m d L hpre 384#32 (k0_off1_inb L 3) 384 inb_S1024_S128_384
  have hin4 := fetched_inb m d L hpre 512#32 (k0_off1_inb L 4) 512 inb_S1024_S128_512
  have hin5 := fetched_inb m d L hpre 640#32 (k0_off1_inb L 5) 640 inb_S1024_S128_640
  have hin6 := fetched_inb m d L hpre 768#32 (k0_off1_inb L 6) 768 inb_S1024_S128_768
  have hin7 := fetched_inb m d L hpre 896#32 (k0_off1_inb L 7) 896 inb_S1024_S128_896
  sl_exec
  sl_step
  ihave Ho0 := (Entails.of_eq (pointsTo_congr (out_val m d L 0#32 (k0_off1_inb L 0) 0 inb_S1024_S128_0 _ _ _ _))) $$ Ho0
  ihave Ho1 := (Entails.of_eq (pointsTo_congr (out_val m d L 128#32 (k0_off1_inb L 1) 128 inb_S1024_S128_128 _ _ _ _))) $$ Ho1
  ihave Ho2 := (Entails.of_eq (pointsTo_congr (out_val m d L 256#32 (k0_off1_inb L 2) 256 inb_S1024_S128_256 _ _ _ _))) $$ Ho2
  ihave Ho3 := (Entails.of_eq (pointsTo_congr (out_val m d L 384#32 (k0_off1_inb L 3) 384 inb_S1024_S128_384 _ _ _ _))) $$ Ho3
  ihave Ho4 := (Entails.of_eq (pointsTo_congr (out_val m d L 512#32 (k0_off1_inb L 4) 512 inb_S1024_S128_512 _ _ _ _))) $$ Ho4
  ihave Ho5 := (Entails.of_eq (pointsTo_congr (out_val m d L 640#32 (k0_off1_inb L 5) 640 inb_S1024_S128_640 _ _ _ _))) $$ Ho5
  ihave Ho6 := (Entails.of_eq (pointsTo_congr (out_val m d L 768#32 (k0_off1_inb L 6) 768 inb_S1024_S128_768 _ _ _ _))) $$ Ho6
  ihave Ho7 := (Entails.of_eq (pointsTo_congr (out_val m d L 896#32 (k0_off1_inb L 7) 896 inb_S1024_S128_896 _ _ _ _))) $$ Ho7
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [Hu6]; · iexact Hu6
  isplitl [Hu7]; · iexact Hu7
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  isplitl [Hv7]; · iexact Hv7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ha0]; · iexists _; iexact Ha0
  isplitl [Ha1]; · iexists _; iexact Ha1
  isplitl [Ha2]; · iexists _; iexact Ha2
  isplitl [Ha3]; · iexists _; iexact Ha3
  isplitl [Ha4]; · iexists _; iexact Ha4
  isplitl [Ha5]; · iexists _; iexact Ha5
  isplitl [Ha6]; · iexists _; iexact Ha6
  isplitl [Ha7]; · iexists _; iexact Ha7
  isplitl [Hb0]; · iexists _; iexact Hb0
  isplitl [Hb1]; · iexists _; iexact Hb1
  isplitl [Hb2]; · iexists _; iexact Hb2
  isplitl [Hb3]; · iexists _; iexact Hb3
  isplitl [Hb4]; · iexists _; iexact Hb4
  isplitl [Hb5]; · iexists _; iexact Hb5
  isplitl [Hb6]; · iexists _; iexact Hb6
  isplitl [Hb7]; · iexists _; iexact Hb7
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  iexists _; isplitr
  pick_goal 2
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | rfl | rfl | rfl | hp
    all_goals first | exact .inl hp | exact .inr rfl

end Cert.Proof.IdealLookup

end
-- ==== Proof.IdealLaunch.lean ====
import proofs.«210393_g26654567039053_cont_9to1_1641_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210393_g26654567039053_cont_9to1_1641_13_alg».proof.Proof.Gen.KernelIdeal
import proofs.«210393_g26654567039053_cont_9to1_1641_13_alg».proof.Proof.Gen.KernelIdeal.Skeleton
import proofs.«210393_g26654567039053_cont_9to1_1641_13_alg».proof.Proof.IdealTile

noncomputable section

/-!
# The launch: from one subcore's task to the whole program's run

The call hands SparseCore 0's sequencer `uis`, `values` and `out` whole; the sequencer deals each of its sixteen vector
subcores the eight chunks of `uis` and of `out` it owns and one read share of `values`; each subcore's task (the previous
module) returns its chunks of `out` at the gathered values; joined, `out` holds `Gv` everywhere. After the call @main
reshapes `out` to a column. The run's post: the column is the reshape of `Gv`, the two arguments are unchanged.
-/

namespace Cert.Proof.IdealLookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## Eight chunks, twenty-four semaphores -/

/-- A family over the eight chunks, written out. -/
def eight (Φ : Fin 8 → sProp 𝕄) : sProp 𝕄 := iprop(Φ 0 ∗ Φ 1 ∗ Φ 2 ∗ Φ 3 ∗ Φ 4 ∗ Φ 5 ∗ Φ 6 ∗ Φ 7)

theorem bigSep_eight (Φ : Fin 8 → sProp 𝕄) : bigSep Finset.univ Φ = eight Φ := by
  unfold eight
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

instance eight_storable (Φ : Fin 8 → sProp 𝕄) [∀ j, BI.Storable (upEmb : UEmb _ 𝕄) (Φ j)] : BI.Storable (upEmb : UEmb _ 𝕄) (eight Φ) := by
  unfold eight; infer_instance

/-! ## What the handshakes carry -/

abbrev uPts (d : Dev nD) : sProp 𝕄 := uLoc d ↦{fullShare} m (uLoc d)
abbrev vPts (d : Dev nD) : sProp 𝕄 := vLoc d ↦{fullShare} m (vLoc d)
abbrev oPts (d : Dev nD) (f : Buf (Elt F) (oLoc d)) : sProp 𝕄 := oLoc d ↦{fullShare} f
abbrev uCh (d : Dev nD) (i : Fin 16) (j : Fin 8) : sProp 𝕄 := uLoc d ↦[cs i j]{fullShare} m (uLoc d)
abbrev oCh (d : Dev nD) (f : Buf (Elt F) (oLoc d)) (i : Fin 16) (j : Fin 8) : sProp 𝕄 := oLoc d ↦[cs i j]{fullShare} f
/-- Subcore `i`'s read share of `values`. -/
abbrev vTok (d : Dev nD) (i : Fin 16) : sProp 𝕄 := vLoc d ↦{Transfers.shareTok fullShare 16 i} m (vLoc d)

/-- What subcore `i` is handed and hands back: its chunks of `uis`, its share of `values`, its chunks of `out` at `f`. -/
def task (d : Dev nD) (f : Buf (Elt F) (oLoc d)) (i : Fin 16) : sProp 𝕄 :=
  iprop(eight (fun j => uCh m d i j) ∗ vTok m d i ∗ eight (fun j => oCh d f i j))

instance task_storable (d : Dev nD) (f : Buf (Elt F) (oLoc d)) (i : Fin 16) : BI.Storable (upEmb : UEmb _ 𝕄) (task m d f i) := by
  unfold task; infer_instance

/-- The one call takes the three arrays whole and brings them back, `out` at the gathered values. -/
def P : (K (F := F)).Pay (nD := nD) (Val := Elt F) (Name := ℕ) (U := UU) where
  st := fun q d _ => match q with | 0 => iprop(uPts m d ∗ vPts m d ∗ oPts d (m (oLoc d)))
  dn := fun q d _ => match q with | 0 => iprop(uPts m d ∗ vPts m d ∗ oPts d (Gv m d))
  go := fun q d _ i => match q with | 0 => task m d (m (oLoc d)) (Fin.cast nSub_zero i)
  td := fun q d _ i => match q with | 0 => task m d (Gv m d) (Fin.cast nSub_zero i)
  x := fun _ _ => iprop(emp)

instance P_storable : (P (F := F) m).IsStorable where
  st q d _ := match q with
    | 0 => (inferInstance : BI.Storable (upEmb : UEmb _ 𝕄) iprop(uPts m d ∗ vPts m d ∗ oPts d (m (oLoc d))))
  dn q d _ := match q with
    | 0 => (inferInstance : BI.Storable (upEmb : UEmb _ 𝕄) iprop(uPts m d ∗ vPts m d ∗ oPts d (Gv m d)))
  go q d _ i := match q with
    | 0 => (inferInstance : BI.Storable (upEmb : UEmb _ 𝕄) (task m d (m (oLoc d)) (Fin.cast nSub_zero i)))
  td q d _ i := match q with
    | 0 => (inferInstance : BI.Storable (upEmb : UEmb _ 𝕄) (task m d (Gv m d) (Fin.cast nSub_zero i)))

/-! ## The subcore's resources, as its task spells them -/

section Tile

variable [FloatOps F] (d : Dev nD) (L : grid0.Coords)

theorem pts_u (j : Fin 8) (w : BitVec 32) (hw) (e : w = BitVec.ofNat 32 (128 * j.val)) (q : PosShare TreeShare) (f : Buf (Elt F) (uLoc d)) :
    ((uS L w hw).view.loc (V d (cV L) (jV L)) ↦[(uS L w hw).view.set]{q} f : sProp 𝕄) = uLoc d ↦[cs (iL L) j]{q} f := by
  subst e; rw [set_uS]
theorem pts_o (j : Fin 8) (w : BitVec 32) (hw) (e : w = BitVec.ofNat 32 (128 * j.val)) (q : PosShare TreeShare) (f : Buf (Elt F) (oLoc d)) :
    ((oS L w hw).view.loc (V d (cV L) (jV L)) ↦[(oS L w hw).view.set]{q} f : sProp 𝕄) = oLoc d ↦[cs (iL L) j]{q} f := by
  subst e; rw [set_oS]
theorem pts_a (j : Fin 8) (o : ℕ) (ho) (e : o = 128 * j.val) (q : PosShare TreeShare) (f : Buf (Elt F) ((V d (cV L) (jV L)).loc cc0_scratch0)) :
    ((aS o ho).view.loc (V d (cV L) (jV L)) ↦[(aS o ho).view.set]{q} f : sProp 𝕄) = (V d (cV L) (jV L)).loc cc0_scratch0 ↦[ss j]{q} f := by
  subst e; rw [set_aS]
theorem pts_b (j : Fin 8) (o : ℕ) (ho) (e : o = 128 * j.val) (q : PosShare TreeShare) (f : Buf (Elt F) ((V d (cV L) (jV L)).loc cc0_scratch1)) :
    ((bS o ho).view.loc (V d (cV L) (jV L)) ↦[(bS o ho).view.set]{q} f : sProp 𝕄) = (V d (cV L) (jV L)).loc cc0_scratch1 ↦[ss j]{q} f := by
  subst e; rw [set_bS]
theorem pts_v (q : PosShare TreeShare) (f : Buf (Elt F) (vLoc d)) :
    (vW.view.loc (V d (cV L) (jV L)) ↦{q} f : sProp 𝕄) = vLoc d ↦{q} f := rfl

/-- A scratch vector whole is its eight chunks. -/
theorem a_split (f : Buf (Elt F) ((V d (cV L) (jV L)).loc cc0_scratch0)) :
    ((V d (cV L) (jV L)).loc cc0_scratch0 ↦{fullShare} f : sProp 𝕄) = eight (fun j => (V d (cV L) (jV L)).loc cc0_scratch0 ↦[ss j]{fullShare} f) := by
  rw [← bigSep_eight, ← pointsTo_biUnion Finset.univ (ℓ := (V d (cV L) (jV L)).loc cc0_scratch0) ss ss_disjoint, ss_cover]; try rfl
theorem b_split (f : Buf (Elt F) ((V d (cV L) (jV L)).loc cc0_scratch1)) :
    ((V d (cV L) (jV L)).loc cc0_scratch1 ↦{fullShare} f : sProp 𝕄) = eight (fun j => (V d (cV L) (jV L)).loc cc0_scratch1 ↦[ss j]{fullShare} f) := by
  rw [← bigSep_eight, ← pointsTo_biUnion Finset.univ (ℓ := (V d (cV L) (jV L)).loc cc0_scratch1) ss ss_disjoint, ss_cover]; try rfl

/-- A scratch vector's chunks at whatever they hold join into the vector at some contents. -/
theorem a_join : eight (fun j => iprop(∃ f, ((V d (cV L) (jV L)).loc cc0_scratch0 ↦[ss j]{fullShare} f : sProp 𝕄)))
    ⊢ (iprop(∃ f, (V d (cV L) (jV L)).loc cc0_scratch0 ↦{fullShare} f) : sProp 𝕄) := by
  rw [← bigSep_eight]
  refine (bigSep_exists_pi Finset.univ (fun j (f : Buf (Elt F) ((V d (cV L) (jV L)).loc cc0_scratch0)) => ((V d (cV L) (jV L)).loc cc0_scratch0 ↦[ss j]{fullShare} f : sProp 𝕄))).trans ?_
  iintro ⟨%fs, H⟩
  ihave H' := (pointsTo_biUnion_join Finset.univ ss fs (fs 0) ss_disjoint) $$ H
  icases H' with ⟨%g, -, Hg⟩
  rw [ss_cover]
  iexists g; iexact Hg
theorem b_join : eight (fun j => iprop(∃ f, ((V d (cV L) (jV L)).loc cc0_scratch1 ↦[ss j]{fullShare} f : sProp 𝕄)))
    ⊢ (iprop(∃ f, (V d (cV L) (jV L)).loc cc0_scratch1 ↦{fullShare} f) : sProp 𝕄) := by
  rw [← bigSep_eight]
  refine (bigSep_exists_pi Finset.univ (fun j (f : Buf (Elt F) ((V d (cV L) (jV L)).loc cc0_scratch1)) => ((V d (cV L) (jV L)).loc cc0_scratch1 ↦[ss j]{fullShare} f : sProp 𝕄))).trans ?_
  iintro ⟨%fs, H⟩
  ihave H' := (pointsTo_biUnion_join Finset.univ ss fs (fs 0) ss_disjoint) $$ H
  icases H' with ⟨%g, -, Hg⟩
  rw [ss_cover]
  iexists g; iexact Hg

omit [FloatOps F] in
theorem reg_unscoped : ∀ s : Sem sig, (SemLoc.reg s : SemLoc sig).isScoped .scVector = false := by decide
omit [FloatOps F] in
theorem dma_scoped : ∀ k : DmaSem sig, (SemLoc.dma k : SemLoc sig).isScoped .scVector = true := by decide

/-- A vector subcore's scoped semaphores are its twenty-four DMA semaphores. -/
theorem ownCells_V : ownCells (nD := nD) (sig := sig) (V d (cV L) (jV L))
    = Finset.univ.map ⟨fun k : DmaSem sig => (((V d (cV L) (jV L)), SemLoc.dma k) : GSem nD τ sig), fun a b e => by injection (Prod.mk.inj e).2⟩ := by
  ext ⟨t, sm⟩
  simp only [mem_ownCells, Finset.mem_map, Finset.mem_univ, true_and, Function.Embedding.coeFn_mk]
  constructor
  · rintro ⟨rfl, hs⟩
    cases sm with
    | reg s => exact absurd ((reg_unscoped s).symm.trans (show (SemLoc.reg s : SemLoc sig).isScoped .scVector = true from hs)) Bool.false_ne_true
    | dma k => exact ⟨k, rfl⟩
  · rintro ⟨k, e⟩
    obtain ⟨rfl, rfl⟩ := Prod.mk.inj e
    exact ⟨rfl, dma_scoped k⟩

theorem ownSems0_V :
    (ownSems0 (V d (cV L) (jV L)) : sProp 𝕄)
      = iprop(semVal ((V d (cV L) (jV L)), SemLoc.dma cc0_scratch2.sem) 0
          ∗ semVal ((V d (cV L) (jV L)), SemLoc.dma cc0_scratch3.sem) 0
          ∗ semVal ((V d (cV L) (jV L)), SemLoc.dma cc0_scratch4.sem) 0
          ∗ semVal ((V d (cV L) (jV L)), SemLoc.dma cc0_scratch5.sem) 0
          ∗ semVal ((V d (cV L) (jV L)), SemLoc.dma cc0_scratch6.sem) 0
          ∗ semVal ((V d (cV L) (jV L)), SemLoc.dma cc0_scratch7.sem) 0
          ∗ semVal ((V d (cV L) (jV L)), SemLoc.dma cc0_scratch8.sem) 0
          ∗ semVal ((V d (cV L) (jV L)), SemLoc.dma cc0_scratch9.sem) 0
          ∗ semVal ((V d (cV L) (jV L)), SemLoc.dma cc0_scratch10.sem) 0
          ∗ semVal ((V d (cV L) (jV L)), SemLoc.dma cc0_scratch11.sem) 0
          ∗ semVal ((V d (cV L) (jV L)), SemLoc.dma cc0_scratch12.sem) 0
          ∗ semVal ((V d (cV L) (jV L)), SemLoc.dma cc0_scratch13.sem) 0
          ∗ semVal ((V d (cV L) (jV L)), SemLoc.dma cc0_scratch14.sem) 0
          ∗ semVal ((V d (cV L) (jV L)), SemLoc.dma cc0_scratch15.sem) 0
          ∗ semVal ((V d (cV L) (jV L)), SemLoc.dma cc0_scratch16.sem) 0
          ∗ semVal ((V d (cV L) (jV L)), SemLoc.dma cc0_scratch17.sem) 0
          ∗ semVal ((V d (cV L) (jV L)), SemLoc.dma cc0_scratch18.sem) 0
          ∗ semVal ((V d (cV L) (jV L)), SemLoc.dma cc0_scratch19.sem) 0
          ∗ semVal ((V d (cV L) (jV L)), SemLoc.dma cc0_scratch20.sem) 0
          ∗ semVal ((V d (cV L) (jV L)), SemLoc.dma cc0_scratch21.sem) 0
          ∗ semVal ((V d (cV L) (jV L)), SemLoc.dma cc0_scratch22.sem) 0
          ∗ semVal ((V d (cV L) (jV L)), SemLoc.dma cc0_scratch23.sem) 0
          ∗ semVal ((V d (cV L) (jV L)), SemLoc.dma cc0_scratch24.sem) 0
          ∗ semVal ((V d (cV L) (jV L)), SemLoc.dma cc0_scratch25.sem) 0) := by
  unfold SparseCore.Cfg.ownSems0
  rw [ownCells_V, bigSep_map]
  rw [show (Finset.univ : Finset (DmaSem sig)) = {0, 1, 2, 3, 4, 5, 6, 7, 8, 9, 10, 11, 12, 13, 14, 15, 16, 17, 18, 19, 20, 21, 22, 23} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch vectors are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- One subcore's task, from what the sequencer deals it to what it hands back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (m (oLoc d)) (iL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_lookup L uW (Memref.isWhole_whole _) vW (Memref.isWhole_whole _) oW (Memref.isWhole_whole _)
            aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25)
          fun _ => iprop(task m d (Gv m d) (iL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold task eight
  iintro ⟨#Hlv, -, ⟨⟨Hu0, Hu1, Hu2, Hu3, Hu4, Hu5, Hu6, Hu7⟩, Hv, ⟨Ho0, Ho1, Ho2, Ho3, Ho4, Ho5, Ho6, Ho7⟩⟩, ⟨⟨%fa, Ha⟩, ⟨%fb, Hb⟩, Hbufs⟩, ⟨Hs2, Hs3, Hs4, Hs5, Hs6, Hs7, Hs8, Hs9, Hs10, Hs11, Hs12, Hs13, Hs14, Hs15, Hs16, Hs17, Hs18, Hs19, Hs20, Hs21, Hs22, Hs23, Hs24, Hs25⟩, HO⟩
  -- the scratch vectors chunk by chunk, the share of `values` as eight read shares and a remainder
  ihave Ha' := (Entails.of_eq (a_split (F := F) d L fa)) $$ Ha
  unfold eight
  icases Ha' with ⟨Ha0, Ha1, Ha2, Ha3, Ha4, Ha5, Ha6, Ha7⟩
  ihave Hb' := (Entails.of_eq (b_split (F := F) d L fb)) $$ Hb
  unfold eight
  icases Hb' with ⟨Hb0, Hb1, Hb2, Hb3, Hb4, Hb5, Hb6, Hb7⟩
  ihave Hv' := (Transfers.pointsTo_toks_split (ℓ := vLoc d) (S := Finset.univ) (f := m (vLoc d)) (Transfers.shareTok fullShare 16 (iL L)) 8) $$ Hv
  icases Hv' with ⟨Hvr, Hvs⟩
  ihave Hvs' := (Entails.of_eq (bigSep_eight (F := F) _)) $$ Hvs
  unfold eight
  icases Hvs' with ⟨Hv0, Hv1, Hv2, Hv3, Hv4, Hv5, Hv6, Hv7⟩
  ihave Hu0 := (Entails.of_eq (pts_u (F := F) d L 0 0#32 (k0_off1_inb L 0) rfl fullShare (m (uLoc d))).symm) $$ Hu0
  ihave Hu1 := (Entails.of_eq (pts_u (F := F) d L 1 128#32 (k0_off1_inb L 1) rfl fullShare (m (uLoc d))).symm) $$ Hu1
  ihave Hu2 := (Entails.of_eq (pts_u (F := F) d L 2 256#32 (k0_off1_inb L 2) rfl fullShare (m (uLoc d))).symm) $$ Hu2
  ihave Hu3 := (Entails.of_eq (pts_u (F := F) d L 3 384#32 (k0_off1_inb L 3) rfl fullShare (m (uLoc d))).symm) $$ Hu3
  ihave Hu4 := (Entails.of_eq (pts_u (F := F) d L 4 512#32 (k0_off1_inb L 4) rfl fullShare (m (uLoc d))).symm) $$ Hu4
  ihave Hu5 := (Entails.of_eq (pts_u (F := F) d L 5 640#32 (k0_off1_inb L 5) rfl fullShare (m (uLoc d))).symm) $$ Hu5
  ihave Hu6 := (Entails.of_eq (pts_u (F := F) d L 6 768#32 (k0_off1_inb L 6) rfl fullShare (m (uLoc d))).symm) $$ Hu6
  ihave Hu7 := (Entails.of_eq (pts_u (F := F) d L 7 896#32 (k0_off1_inb L 7) rfl fullShare (m (uLoc d))).symm) $$ Hu7
  ihave Ho0 := (Entails.of_eq (pts_o (F := F) d L 0 0#32 (k0_off1_inb L 0) rfl fullShare (m (oLoc d))).symm) $$ Ho0
  ihave Ho1 := (Entails.of_eq (pts_o (F := F) d L 1 128#32 (k0_off1_inb L 1) rfl fullShare (m (oLoc d))).symm) $$ Ho1
  ihave Ho2 := (Entails.of_eq (pts_o (F := F) d L 2 256#32 (k0_off1_inb L 2) rfl fullShare (m (oLoc d))).symm) $$ Ho2
  ihave Ho3 := (Entails.of_eq (pts_o (F := F) d L 3 384#32 (k0_off1_inb L 3) rfl fullShare (m (oLoc d))).symm) $$ Ho3
  ihave Ho4 := (Entails.of_eq (pts_o (F := F) d L 4 512#32 (k0_off1_inb L 4) rfl fullShare (m (oLoc d))).symm) $$ Ho4
  ihave Ho5 := (Entails.of_eq (pts_o (F := F) d L 5 640#32 (k0_off1_inb L 5) rfl fullShare (m (oLoc d))).symm) $$ Ho5
  ihave Ho6 := (Entails.of_eq (pts_o (F := F) d L 6 768#32 (k0_off1_inb L 6) rfl fullShare (m (oLoc d))).symm) $$ Ho6
  ihave Ho7 := (Entails.of_eq (pts_o (F := F) d L 7 896#32 (k0_off1_inb L 7) rfl fullShare (m (oLoc d))).symm) $$ Ho7
  ihave Ha0 := (Entails.of_eq (pts_a (F := F) d L 0 0 inb_S1024_S128_0 rfl fullShare fa).symm) $$ Ha0
  ihave Ha1 := (Entails.of_eq (pts_a (F := F) d L 1 128 inb_S1024_S128_128 rfl fullShare fa).symm) $$ Ha1
  ihave Ha2 := (Entails.of_eq (pts_a (F := F) d L 2 256 inb_S1024_S128_256 rfl fullShare fa).symm) $$ Ha2
  ihave Ha3 := (Entails.of_eq (pts_a (F := F) d L 3 384 inb_S1024_S128_384 rfl fullShare fa).symm) $$ Ha3
  ihave Ha4 := (Entails.of_eq (pts_a (F := F) d L 4 512 inb_S1024_S128_512 rfl fullShare fa).symm) $$ Ha4
  ihave Ha5 := (Entails.of_eq (pts_a (F := F) d L 5 640 inb_S1024_S128_640 rfl fullShare fa).symm) $$ Ha5
  ihave Ha6 := (Entails.of_eq (pts_a (F := F) d L 6 768 inb_S1024_S128_768 rfl fullShare fa).symm) $$ Ha6
  ihave Ha7 := (Entails.of_eq (pts_a (F := F) d L 7 896 inb_S1024_S128_896 rfl fullShare fa).symm) $$ Ha7
  ihave Hb0 := (Entails.of_eq (pts_b (F := F) d L 0 0 inb_S1024_S128_0 rfl fullShare fb).symm) $$ Hb0
  ihave Hb1 := (Entails.of_eq (pts_b (F := F) d L 1 128 inb_S1024_S128_128 rfl fullShare fb).symm) $$ Hb1
  ihave Hb2 := (Entails.of_eq (pts_b (F := F) d L 2 256 inb_S1024_S128_256 rfl fullShare fb).symm) $$ Hb2
  ihave Hb3 := (Entails.of_eq (pts_b (F := F) d L 3 384 inb_S1024_S128_384 rfl fullShare fb).symm) $$ Hb3
  ihave Hb4 := (Entails.of_eq (pts_b (F := F) d L 4 512 inb_S1024_S128_512 rfl fullShare fb).symm) $$ Hb4
  ihave Hb5 := (Entails.of_eq (pts_b (F := F) d L 5 640 inb_S1024_S128_640 rfl fullShare fb).symm) $$ Hb5
  ihave Hb6 := (Entails.of_eq (pts_b (F := F) d L 6 768 inb_S1024_S128_768 rfl fullShare fb).symm) $$ Hb6
  ihave Hb7 := (Entails.of_eq (pts_b (F := F) d L 7 896 inb_S1024_S128_896 rfl fullShare fb).symm) $$ Hb7
  iapply (wp_wand_r frame _ Set.univ)
  isplitl [Hu0 Hu1 Hu2 Hu3 Hu4 Hu5 Hu6 Hu7 Hv0 Hv1 Hv2 Hv3 Hv4 Hv5 Hv6 Hv7 Ho0 Ho1 Ho2 Ho3 Ho4 Ho5 Ho6 Ho7 Ha0 Ha1 Ha2 Ha3 Ha4 Ha5 Ha6 Ha7 Hb0 Hb1 Hb2 Hb3 Hb4 Hb5 Hb6 Hb7 Hs2 Hs3 Hs4 Hs5 Hs6 Hs7 Hs8 Hs9 Hs10 Hs11 Hs12 Hs13 Hs14 Hs15 Hs16 Hs17 Hs18 Hs19 Hs20 Hs21 Hs22 Hs23 Hs24 Hs25 HO]
  · iapply (tile_core m d L hpre O W hO fa fb (fun k => Transfers.shareTok (Transfers.shareTok fullShare 16 (iL L)) 8 k))
    isplitr; · iexact Hlv
    isplitl [Hu0]; · iexact Hu0
    isplitl [Hu1]; · iexact Hu1
    isplitl [Hu2]; · iexact Hu2
    isplitl [Hu3]; · iexact Hu3
    isplitl [Hu4]; · iexact Hu4
    isplitl [Hu5]; · iexact Hu5
    isplitl [Hu6]; · iexact Hu6
    isplitl [Hu7]; · iexact Hu7
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    iexact HO
  iintro %_ ⟨Hu0, Hu1, Hu2, Hu3, Hu4, Hu5, Hu6, Hu7, Hv0, Hv1, Hv2, Hv3, Hv4, Hv5, Hv6, Hv7, Ho0, Ho1, Ho2, Ho3, Ho4, Ho5, Ho6, Ho7, ⟨%fa0, Ha0⟩, ⟨%fa1, Ha1⟩, ⟨%fa2, Ha2⟩, ⟨%fa3, Ha3⟩, ⟨%fa4, Ha4⟩, ⟨%fa5, Ha5⟩, ⟨%fa6, Ha6⟩, ⟨%fa7, Ha7⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Hs2, Hs3, Hs4, Hs5, Hs6, Hs7, Hs8, Hs9, Hs10, Hs11, Hs12, Hs13, Hs14, Hs15, Hs16, Hs17, Hs18, Hs19, Hs20, Hs21, Hs22, Hs23, Hs24, Hs25, HW⟩
  ihave Hu0 := (Entails.of_eq (pts_u (F := F) d L 0 0#32 (k0_off1_inb L 0) rfl fullShare (m (uLoc d)))) $$ Hu0
  ihave Hu1 := (Entails.of_eq (pts_u (F := F) d L 1 128#32 (k0_off1_inb L 1) rfl fullShare (m (uLoc d)))) $$ Hu1
  ihave Hu2 := (Entails.of_eq (pts_u (F := F) d L 2 256#32 (k0_off1_inb L 2) rfl fullShare (m (uLoc d)))) $$ Hu2
  ihave Hu3 := (Entails.of_eq (pts_u (F := F) d L 3 384#32 (k0_off1_inb L 3) rfl fullShare (m (uLoc d)))) $$ Hu3
  ihave Hu4 := (Entails.of_eq (pts_u (F := F) d L 4 512#32 (k0_off1_inb L 4) rfl fullShare (m (uLoc d)))) $$ Hu4
  ihave Hu5 := (Entails.of_eq (pts_u (F := F) d L 5 640#32 (k0_off1_inb L 5) rfl fullShare (m (uLoc d)))) $$ Hu5
  ihave Hu6 := (Entails.of_eq (pts_u (F := F) d L 6 768#32 (k0_off1_inb L 6) rfl fullShare (m (uLoc d)))) $$ Hu6
  ihave Hu7 := (Entails.of_eq (pts_u (F := F) d L 7 896#32 (k0_off1_inb L 7) rfl fullShare (m (uLoc d)))) $$ Hu7
  ihave Ho0 := (Entails.of_eq (pts_o (F := F) d L 0 0#32 (k0_off1_inb L 0) rfl fullShare (Gv m d))) $$ Ho0
  ihave Ho1 := (Entails.of_eq (pts_o (F := F) d L 1 128#32 (k0_off1_inb L 1) rfl fullShare (Gv m d))) $$ Ho1
  ihave Ho2 := (Entails.of_eq (pts_o (F := F) d L 2 256#32 (k0_off1_inb L 2) rfl fullShare (Gv m d))) $$ Ho2
  ihave Ho3 := (Entails.of_eq (pts_o (F := F) d L 3 384#32 (k0_off1_inb L 3) rfl fullShare (Gv m d))) $$ Ho3
  ihave Ho4 := (Entails.of_eq (pts_o (F := F) d L 4 512#32 (k0_off1_inb L 4) rfl fullShare (Gv m d))) $$ Ho4
  ihave Ho5 := (Entails.of_eq (pts_o (F := F) d L 5 640#32 (k0_off1_inb L 5) rfl fullShare (Gv m d))) $$ Ho5
  ihave Ho6 := (Entails.of_eq (pts_o (F := F) d L 6 768#32 (k0_off1_inb L 6) rfl fullShare (Gv m d))) $$ Ho6
  ihave Ho7 := (Entails.of_eq (pts_o (F := F) d L 7 896#32 (k0_off1_inb L 7) rfl fullShare (Gv m d))) $$ Ho7
  ihave Ha0 := (Entails.of_eq (pts_a (F := F) d L 0 0 inb_S1024_S128_0 rfl fullShare fa0)) $$ Ha0
  ihave Ha1 := (Entails.of_eq (pts_a (F := F) d L 1 128 inb_S1024_S128_128 rfl fullShare fa1)) $$ Ha1
  ihave Ha2 := (Entails.of_eq (pts_a (F := F) d L 2 256 inb_S1024_S128_256 rfl fullShare fa2)) $$ Ha2
  ihave Ha3 := (Entails.of_eq (pts_a (F := F) d L 3 384 inb_S1024_S128_384 rfl fullShare fa3)) $$ Ha3
  ihave Ha4 := (Entails.of_eq (pts_a (F := F) d L 4 512 inb_S1024_S128_512 rfl fullShare fa4)) $$ Ha4
  ihave Ha5 := (Entails.of_eq (pts_a (F := F) d L 5 640 inb_S1024_S128_640 rfl fullShare fa5)) $$ Ha5
  ihave Ha6 := (Entails.of_eq (pts_a (F := F) d L 6 768 inb_S1024_S128_768 rfl fullShare fa6)) $$ Ha6
  ihave Ha7 := (Entails.of_eq (pts_a (F := F) d L 7 896 inb_S1024_S128_896 rfl fullShare fa7)) $$ Ha7
  ihave Hb0 := (Entails.of_eq (pts_b (F := F) d L 0 0 inb_S1024_S128_0 rfl fullShare fb0)) $$ Hb0
  ihave Hb1 := (Entails.of_eq (pts_b (F := F) d L 1 128 inb_S1024_S128_128 rfl fullShare fb1)) $$ Hb1
  ihave Hb2 := (Entails.of_eq (pts_b (F := F) d L 2 256 inb_S1024_S128_256 rfl fullShare fb2)) $$ Hb2
  ihave Hb3 := (Entails.of_eq (pts_b (F := F) d L 3 384 inb_S1024_S128_384 rfl fullShare fb3)) $$ Hb3
  ihave Hb4 := (Entails.of_eq (pts_b (F := F) d L 4 512 inb_S1024_S128_512 rfl fullShare fb4)) $$ Hb4
  ihave Hb5 := (Entails.of_eq (pts_b (F := F) d L 5 640 inb_S1024_S128_640 rfl fullShare fb5)) $$ Hb5
  ihave Hb6 := (Entails.of_eq (pts_b (F := F) d L 6 768 inb_S1024_S128_768 rfl fullShare fb6)) $$ Hb6
  ihave Hb7 := (Entails.of_eq (pts_b (F := F) d L 7 896 inb_S1024_S128_896 rfl fullShare fb7)) $$ Hb7
  -- the task's results
  isplitl [Hu0 Hu1 Hu2 Hu3 Hu4 Hu5 Hu6 Hu7 Hv0 Hv1 Hv2 Hv3 Hv4 Hv5 Hv6 Hv7 Hvr Ho0 Ho1 Ho2 Ho3 Ho4 Ho5 Ho6 Ho7]
  · isplitl [Hu0 Hu1 Hu2 Hu3 Hu4 Hu5 Hu6 Hu7]
    · isplitl [Hu0]; · iexact Hu0
      isplitl [Hu1]; · iexact Hu1
      isplitl [Hu2]; · iexact Hu2
      isplitl [Hu3]; · iexact Hu3
      isplitl [Hu4]; · iexact Hu4
      isplitl [Hu5]; · iexact Hu5
      isplitl [Hu6]; · iexact Hu6
      iexact Hu7
    isplitl [Hv0 Hv1 Hv2 Hv3 Hv4 Hv5 Hv6 Hv7 Hvr]
    · iapply (Transfers.pointsTo_toks_join (ℓ := vLoc d) (S := Finset.univ) (f := m (vLoc d)) (Transfers.shareTok fullShare 16 (iL L)) 8)
      isplitl [Hvr]; · iexact Hvr
      rw [bigSep_eight]; unfold eight
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
  -- the scratch vectors back whole
  isplitl [Ha0 Ha1 Ha2 Ha3 Ha4 Ha5 Ha6 Ha7 Hb0 Hb1 Hb2 Hb3 Hb4 Hb5 Hb6 Hb7 Hbufs]
  · isplitl [Ha0 Ha1 Ha2 Ha3 Ha4 Ha5 Ha6 Ha7]
    · iapply (a_join (F := F) d L); unfold eight
      isplitl [Ha0]; · iexists _; iexact Ha0
      isplitl [Ha1]; · iexists _; iexact Ha1
      isplitl [Ha2]; · iexists _; iexact Ha2
      isplitl [Ha3]; · iexists _; iexact Ha3
      isplitl [Ha4]; · iexists _; iexact Ha4
      isplitl [Ha5]; · iexists _; iexact Ha5
      isplitl [Ha6]; · iexists _; iexact Ha6
      iexists _; iexact Ha7
    isplitl [Hb0 Hb1 Hb2 Hb3 Hb4 Hb5 Hb6 Hb7]
    · iapply (b_join (F := F) d L); unfold eight
      isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      iexists _; iexact Hb7
    iexact Hbufs
  isplitl [Hs2 Hs3 Hs4 Hs5 Hs6 Hs7 Hs8 Hs9 Hs10 Hs11 Hs12 Hs13 Hs14 Hs15 Hs16 Hs17 Hs18 Hs19 Hs20 Hs21 Hs22 Hs23 Hs24 Hs25]
  · isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    iexact Hs25
  iexact HW

end Tile

/-! ## The launch theorem's obligations -/

section Launch

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lookup (coordsV c s)
          uW (Memref.isWhole_whole _) vW (Memref.isWhole_whole _) oW (Memref.isWhole_whole _)
          aW (Memref.isWhole_whole _) bW (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
/-- An array of 16384 words whole is its 16 × 8 chunks. -/
theorem u_split (d : Dev nD) (f : Buf (Elt F) (uLoc d)) :
    (uLoc d ↦{fullShare} f : sProp 𝕄) = bigSep Finset.univ fun i : Fin 16 => eight fun j => (uLoc d ↦[cs i j]{fullShare} f : sProp 𝕄) := by
  rw [bigSep_congr fun i _ => (bigSep_eight (F := F) (fun j => (uLoc d ↦[cs i j]{fullShare} f : sProp 𝕄))).symm,
    ← SparseCore.bigSep_product Finset.univ Finset.univ (fun p : Fin 16 × Fin 8 => (uLoc d ↦[cs p.1 p.2]{fullShare} f : sProp 𝕄)), Finset.univ_product_univ,
    ← pointsTo_biUnion Finset.univ (ℓ := uLoc d) (fun p : Fin 16 × Fin 8 => cs p.1 p.2) cs_disjoint, cs_cover]; try rfl
omit [FloatOps F] in
theorem o_split (d : Dev nD) (f : Buf (Elt F) (oLoc d)) :
    (oLoc d ↦{fullShare} f : sProp 𝕄) = bigSep Finset.univ fun i : Fin 16 => eight fun j => (oLoc d ↦[cs i j]{fullShare} f : sProp 𝕄) := by
  rw [bigSep_congr fun i _ => (bigSep_eight (F := F) (fun j => (oLoc d ↦[cs i j]{fullShare} f : sProp 𝕄))).symm,
    ← SparseCore.bigSep_product Finset.univ Finset.univ (fun p : Fin 16 × Fin 8 => (oLoc d ↦[cs p.1 p.2]{fullShare} f : sProp 𝕄)), Finset.univ_product_univ,
    ← pointsTo_biUnion Finset.univ (ℓ := oLoc d) (fun p : Fin 16 × Fin 8 => cs p.1 p.2) cs_disjoint, cs_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The sequencer's deal: chunks of `uis` and `out` and read shares of `values` out, the same back with `out` gathered. -/
theorem vecSplit : (K (F := F)).VecSplit' (P m) 0 := by
  intro d c
  show iprop(uPts m d ∗ vPts m d ∗ oPts d (m (oLoc d))) ⊢ |={Set.univ}=> iprop(
      (bigSep Finset.univ fun i : Fin ((K (F := F)).nSub 0) => task m d (m (oLoc d)) (Fin.cast nSub_zero i))
      ∗ ((bigSep Finset.univ fun i : Fin ((K (F := F)).nSub 0) => task m d (Gv m d) (Fin.cast nSub_zero i))
          -∗ iprop(uPts m d ∗ vPts m d ∗ oPts d (Gv m d))))
  rw [bigSep_tasks (F := F) (task m d (m (oLoc d))), bigSep_tasks (F := F) (task m d (Gv m d))]
  unfold task uPts oPts uCh oCh
  rw [bigSep_sep', bigSep_sep', bigSep_sep', bigSep_sep', u_split, o_split d (m (oLoc d)), o_split d (Gv m d)]
  iintro ⟨Hu, Hv, Ho⟩
  ihave Hv' := (Transfers.pointsTo_toks_split (ℓ := vLoc d) (S := Finset.univ) (f := m (vLoc d)) fullShare 16) $$ Hv
  icases Hv' with ⟨Hvr, Hvs⟩
  imodintro
  isplitl [Hu Hvs Ho]
  · isplitl [Hu]; · iexact Hu
    isplitl [Hvs]; · iexact Hvs
    iexact Ho
  iintro ⟨Hu, Hvs, Ho⟩
  isplitl [Hu]; · iexact Hu
  isplitl [Hvr Hvs]
  · iapply (Transfers.pointsTo_toks_join (ℓ := vLoc d) (S := Finset.univ) (f := m (vLoc d)) fullShare 16)
    isplitl [Hvr]; · iexact Hvr
    iexact Hvs
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev rLoc (d : Dev nD) : Loc nD τ sig := (SparseCore.T d).loc main_v1
abbrev o' : DevRef τ sig := Proc.devRef .tc (main_v0 : Ref sig .tc)
abbrev r' : DevRef τ sig := Proc.devRef .tc (main_v1 : Ref sig .tc)
/-- The reshape of `out` to a column. -/
abbrev opR : HloOp τ sig (Elt F) := StableHlo.reshape main_v0 main_v1 rfl shapeCasts_S16384_S16384x1
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((uLoc d ↦{fullShare} W main_arg0) ∗ (vLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation with `out` at the gathered values. -/
def V1 (d : Dev nD) : Valuation τ sig (Elt F) := Function.update (fun b => m (d, b)) o' (Gv m d)
omit [FloatOps F] in
theorem V1_o (d : Dev nD) : V1 m d o' = Gv m d := Function.update_self _ _ _
omit [FloatOps F] in
theorem V1_r (d : Dev nD) : V1 m d r' = m (rLoc d) := Function.update_of_ne (show r' ≠ o' by decide) _ _

theorem st0_eq (d : Dev nD) : (bigSep Finset.univ fun c : Fin ((K (F := F)).nCore 0) => (P m).st 0 d c) = iprop(uPts m d ∗ vPts m d ∗ oPts d (m (oLoc d))) :=
  bigSep_univ_of_subsingleton (0 : Fin 1)
theorem dn0_eq (d : Dev nD) : (bigSep Finset.univ fun c : Fin ((K (F := F)).nCore 0) => (P m).dn 0 d c) = iprop(uPts m d ∗ vPts m d ∗ oPts d (Gv m d)) :=
  bigSep_univ_of_subsingleton (0 : Fin 1)

theorem hR : (opR (F := F)).bufs ⊆ S2 := show ({o', r'} : Finset (DevRef τ sig)) ⊆ S2 by decide

/-- The column after the run: the reshape of the gathered values. -/
def RES (d : Dev nD) : Buf (Elt F) (rLoc d) := (opR (F := F)).result (V1 m d) r'

/-- What @main leaves the claim: the arguments at their launch contents, the column at the reshape of the gathered values. -/
abbrev FIN (d : Dev nD) : sProp 𝕄 := iprop(uPts m d ∗ vPts m d ∗ rLoc d ↦{fullShare} RES m d)

/-- @main on device `d`'s TensorCore: the call, then the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hu, Hv, Ho, Hr⟩, -, -⟩, -⟩
  iapply ((K (F := F)).wp_run (D (F := F)) 𝒱 (EH := EH) (P := P m) κ d 0) $$ [Hst Hu Hv Ho Hb Hr]
  isplitr; · iexact Hctx
  isplitl [Hst]; · iexact Hst
  isplitl [Hu Hv Ho]
  · rw [st0_eq]
    isplitl [Hu]; · iexact Hu
    isplitl [Hv]; · iexact Hv
    iexact Ho
  iintro ⟨Hst, Hdn⟩
  ihave Hdn' := (Entails.of_eq (dn0_eq m d)) $$ Hdn
  icases Hdn' with ⟨Hu, Hv, Ho⟩
  iapply (wp_hlo_within 𝒱 (SparseCore.T d) none Set.univ (op := opR) (S := S2) hR (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Hu]; · iexact Hu
  isplitl [Hv]; · iexact Hv
  iexact Hr

def fq (d : Dev nD) (s' : Phys nD τ sig (Elt F)) : Prop :=
  s'.mem.mem (uLoc d) = m (uLoc d) ∧ s'.mem.mem (vLoc d) = m (vLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Hu, Hv, Hr⟩, HSI⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  ∀ c : Dev nD, r.2.mem (uLoc c) = m (uLoc c) ∧ r.2.mem (vLoc c) = m (vLoc c) ∧ r.2.mem (rLoc c) = RES m c

/-- Every weakly fair execution of the device's threads terminates, nothing faulting; the arguments end unchanged and the
    result column at the reshape of the gathered values. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The result column, position by position: row `p` holds the gathered value of position `p`. -/
theorem RES_eq (d : Dev nD) :
    RES m d = fun i => shapeCast S16384x1 (Gv m d) shapeCasts_S16384_S16384x1 i := by
  unfold RES
  rw [StableHlo.reshape_result', V1_o]
  rfl

end Launch

end Cert.Proof.IdealLookup

end
-- ==== Proof.RefValue.lean ====
import proofs.«210393_g26654567039053_cont_9to1_1641_13_alg».proof.Proof.Gen.ReferenceIdeal
import proofs.«210393_g26654567039053_cont_9to1_1641_13_alg».proof.Proof.LibGather1
import Idealize.ShloMosaic.Lib.ValueIdx
import Idealize.ShloMosaic.Lib.ReduceAll
import Idealize.ShloMosaic.PureOps.Reduce

/-!
# The reference's value, read at an index

The reference computes `where((0 ≤ u) & (u < 100000), take(v, clip(u, 0, 99999)), 0)` over an index vector `u` of
16384 words and a table `v` of 100000 words, then reshapes the result to a column. `pre7 u v` is that value before
the reshape, written with the same host operations the reference uses (integer words only, so it does not depend on
the float instance). When every index lies in `[0, 99999]` all the guards are vacuous and `pre7 u v y = v (u y)`
(`pre7_apply`): the range test is true, the clip is the identity, the negative-index wrap does not fire, the bounds mask
reduced over the unit axis is true, and the lookup's clamp of the start index changes nothing.
-/

noncomputable section

namespace Cert.ReferenceIdeal.RefValue

open Cert.ReferenceIdeal Cert.ReferenceIdeal.Gen Idealize.ShloMosaic Idealize.ShloMosaic.ValueIdx

/-- The scalar `c` at every position of a length-16384 vector. -/
def splat (c : BitVec 32) : IVec S16384 32 :=
  broadcastInDim S16384 ![] bcast_S_S16384 (constantI S_ 32 c)

/-- `clip(u, 0, 99999)`: the signed maximum with 0, then the signed minimum with 99999. -/
def clipped (u : IVec S16384 32) : IVec S16384 32 :=
  minsi (splat 99999#32) (maxsi (splat 0#32) u)

/-- The start-index column of the lookup: a negative index is moved up by the table length (the wrap-around of a
    negative position), and the vector is laid out as a `16384 × 1` column. -/
def column (w : IVec S16384 32) : IVec S16384x1 32 :=
  broadcastInDim S16384x1 ![0] bcast_S16384_S16384x1_0 (select (cmpi .slt w (splat 0#32)) (addi w (splat 100000#32)) w)

/-- Whether each start index lies in `[0, 99999]`: the two signed comparisons joined, then reduced with `and` along
    the column's unit axis from `true`. -/
def inside (w : IVec S16384 32) : IVec S16384 1 :=
  Host.reduce IntOp.andi
    (andi (cmpi .sge (column w) (broadcastInDim S16384x1 ![] bcast_S_S16384x1 (constantI S_ 32 0#32)))
      (cmpi .sle (column w)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- `take(v, w)`: the table read at the start-index column where the index is inside the table, the smallest signed word
    elsewhere. -/
def taken (v : IVec S100000 32) (w : IVec S16384 32) : IVec S16384 32 :=
  select (inside w) (Host.gather gather_S100000_S16384x1_S16384_n_0_n_n_0_1_1 v (column w)) (splat 2147483648#32)

/-- The reference's value before its final reshape, as a function of the two arguments' contents:
    `where((0 ≤ u) & (u < 100000), take(v, clip(u, 0, 99999)), 0)`. Integer words only, so the same at every float
    instance. -/
def pre7 (u : IVec S16384 32) (v : IVec S100000 32) : IVec S16384 32 :=
  select (andi (cmpi .sge u (splat 0#32)) (cmpi .slt u (splat 100000#32))) (taken v (clipped u)) (splat 0#32)

/-! ## Words in range

A 32-bit word whose unsigned reading is below `100000` reads the same signed, lies in `[0, 99999]`, and is left alone
by every guard the reference puts around the lookup. -/

/-- Such a word reads the same signed and unsigned. -/
theorem toInt_of_lt {x : BitVec 32} (hx : x.toNat < 100000) : x.toInt = (x.toNat : Int) :=
  BitVec.toInt_eq_toNat_of_lt (by omega)

private theorem toInt_zero : (0#32 : BitVec 32).toInt = 0 := by decide
private theorem toInt_top : (99999#32 : BitVec 32).toInt = 99999 := by decide
private theorem toInt_len : (100000#32 : BitVec 32).toInt = 100000 := by decide

/-- `min(99999, max(0, x)) = x`. -/
theorem clip_word {x : BitVec 32} (hx : x.toNat < 100000) : IntOp.minsi 99999#32 (IntOp.maxsi 0#32 x) = x := by
  have hi := toInt_of_lt hx
  have h1 : IntOp.maxsi 0#32 x = x := by
    unfold IntOp.maxsi
    rw [if_neg]
    rw [Bool.not_eq_true, ← Bool.not_eq_true, BitVec.slt_iff_toInt_lt, hi, toInt_zero]
    omega
  rw [h1]
  unfold IntOp.minsi
  rw [if_neg]
  rw [Bool.not_eq_true, ← Bool.not_eq_true, BitVec.slt_iff_toInt_lt, hi, toInt_top]
  omega

/-- `x < 0` is false. -/
theorem slt_zero_word {x : BitVec 32} (hx : x.toNat < 100000) : ¬IntOp.cmpi .slt x 0#32 = 1#1 := by
  rw [IntOp.cmpi_slt, toInt_of_lt hx, toInt_zero]; omega

/-- `0 ≤ x` is true. -/
theorem sge_zero_word {x : BitVec 32} (hx : x.toNat < 100000) : IntOp.cmpi .sge x 0#32 = 1#1 := by
  rw [IntOp.cmpi_sge, toInt_of_lt hx, toInt_zero]; omega

/-- `x ≤ 99999` is true. -/
theorem sle_top_word {x : BitVec 32} (hx : x.toNat < 100000) : IntOp.cmpi .sle x 99999#32 = 1#1 := by
  rw [IntOp.cmpi_sle, toInt_of_lt hx, toInt_top]; omega

/-- `x < 100000` is true. -/
theorem slt_len_word {x : BitVec 32} (hx : x.toNat < 100000) : IntOp.cmpi .slt x 100000#32 = 1#1 := by
  rw [IntOp.cmpi_slt, toInt_of_lt hx, toInt_len]; omega

/-! ## The pieces at an index -/

theorem splat_apply (c : BitVec 32) (y : S16384.Idx) : splat c y = c := rfl

/-- Clipping leaves an in-range index vector alone. -/
theorem clipped_eq {u : IVec S16384 32} (hu : ∀ y, (u y).toNat < 100000) : clipped u = u :=
  funext fun y => clip_word (hu y)

/-- A vector laid out as a column reads, at row `p`, the vector at `p`. -/
theorem bcast_column_apply {α : Type} (x : S16384.Idx → α) (p : Fin 16384) (q : Fin 1) :
    broadcastInDim S16384x1 ![0] bcast_S16384_S16384x1_0 x (ix2 p q) = x (ix1 p) := by
  unfold broadcastInDim
  refine congrArg x (funext fun a => ?_)
  match a with
  | ⟨0, _⟩ => rfl

/-- The start-index column of an in-range index vector is that vector: no index is negative, so none is moved. -/
theorem column_apply {w : IVec S16384 32} (hw : ∀ y, (w y).toNat < 100000) (p : Fin 16384) (q : Fin 1) :
    column w (ix2 p q) = w (ix1 p) := by
  unfold column
  rw [bcast_column_apply]
  show Scalar.select (IntOp.cmpi .slt (w (ix1 p)) 0#32) _ _ = _
  exact if_neg (slt_zero_word (hw _))

/-- A left fold by `and` from `1` over words that are all `1` is `1`. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_of_all f l _ ?_ fun n hn => hl n (List.mem_cons_of_mem _ hn)
    exact IntOp.andi_eq_one.2 ⟨h, hl a List.mem_cons_self⟩

/-- Every start index of an in-range vector lies inside the table. -/
theorem inside_apply {w : IVec S16384 32} (hw : ∀ y, (w y).toNat < 100000) (y : S16384.Idx) : inside w y = 1#1 := by
  unfold inside
  rw [Host.reduce_eq_foldl]
  refine foldl_andi_of_all _ _ _ rfl fun i _ => ?_
  obtain ⟨p, q, rfl⟩ : ∃ p q, i = ix2 p q := ⟨i 0, i 1, eq_ix2 i⟩
  show IntOp.andi (IntOp.cmpi .sge (column w (ix2 p q)) 0#32) (IntOp.cmpi .sle (column w (ix2 p q)) 99999#32) = 1#1
  rw [column_apply hw]
  exact IntOp.andi_eq_one.2 ⟨sge_zero_word (hw _), sle_top_word (hw _)⟩

/-- The lookup of a length-100000 table at a `16384 × 1` column of start indices, one element per start index, reads the
    table at the start index: the index read signed and clamped into `[0, 99999]`, which changes nothing in range. -/
theorem gather_apply (v : IVec S100000 32) {w : IVec S16384 32} (hw : ∀ y, (w y).toNat < 100000) (y : S16384.Idx) :
    Host.gather gather_S100000_S16384x1_S16384_n_0_n_n_0_1_1 v (column w) y
      = v (Gather1.pos 100000 (by norm_num) (w y).toNat) := by
  obtain ⟨p, rfl⟩ : ∃ p : Fin 16384, y = ix1 p := ⟨y 0, eq_ix1 y⟩
  unfold Host.gather
  refine congrArg v (funext fun a => ?_)
  obtain rfl : a = 0 := Subsingleton.elim _ _
  refine Fin.ext ?_
  rw [Gather1.pos_val, Nat.mod_eq_of_lt (hw _)]
  show gather_S100000_S16384x1_S16384_n_0_n_n_0_1_1.start (ix1 p) (column w) 0
      + gather_S100000_S16384x1_S16384_n_0_n_n_0_1_1.batchCoord (ix1 p) 0
      + gather_S100000_S16384x1_S16384_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S16384x1_S16384_n_0_n_n_0_1_1.startIndexMap from List.mem_singleton.mpr rfl)]
  have hsi : gather_S100000_S16384x1_S16384_n_0_n_n_0_1_1.siIdx (ix1 p)
      ⟨List.idxOf (0 : Fin 1) gather_S100000_S16384x1_S16384_n_0_n_n_0_1_1.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi, column_apply hw, toInt_of_lt (hw _), Int.toNat_natCast]
  show min (w (ix1 p)).toNat (100000 - 1) = (w (ix1 p)).toNat
  have := hw (ix1 p)
  omega

/-- `take` of an in-range index vector reads the table at each index. -/
theorem taken_apply (v : IVec S100000 32) {w : IVec S16384 32} (hw : ∀ y, (w y).toNat < 100000) (y : S16384.Idx) :
    taken v w y = v (Gather1.pos 100000 (by norm_num) (w y).toNat) := by
  unfold taken
  rw [select_apply, inside_apply hw, select_one, gather_apply v hw]

/-- THE VALUE. With every index in `[0, 99999]` the reference's value before its reshape is, at `y`, the table at the
    index `u y`: the range test is true, the clip is the identity, no index is negative, every start index is inside the
    table, the lookup reads the table at the index, and the two selects pick it. -/
theorem pre7_apply (u : IVec S16384 32) (v : IVec S100000 32) (hu : ∀ y, (u y).toNat < 100000) (y : S16384.Idx) :
    pre7 u v y = v (Gather1.pos 100000 (by norm_num) (u y).toNat) := by
  have hc : andi (cmpi .sge u (splat 0#32)) (cmpi .slt u (splat 100000#32)) y = 1#1 :=
    IntOp.andi_eq_one.2 ⟨sge_zero_word (hu y), slt_len_word (hu y)⟩
  unfold pre7
  rw [select_apply, hc, select_one, clipped_eq hu, taken_apply v hu]

end Cert.ReferenceIdeal.RefValue

end
-- ==== Proof.RefRun.lean ====
import proofs.«210393_g26654567039053_cont_9to1_1641_13_alg».proof.Proof.RefValue
import Idealize.ShloMosaic.Lib.StableHlo.Run
import Idealize.ShloMosaic.Lib.Pipeline.Value

/-!
# The reference's run

The reference is a program of host operations only, three of them calls of module-local functions (`clip`, `_take`,
which itself calls `_where`, and `_where_0`). With the callees' bodies substituted at their call sites over the calls'
buffer records, @main is a straight line of forty-one operations (`ops`), so every weakly fair execution terminates
with each buffer at the operations' fold over the launch contents (`run_main`). The fold at the result buffer is the
reshape of `pre7` of the two arguments' contents (`out_eq`), and the two argument buffers are never written
(`arg0_eq`, `arg1_eq`). Read at a row, with every index in range, the result is the table at that row's index
(`out_apply`).
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- @main's forty-one operations in order, the three calls unfolded over their buffer records: nine of @main's own,
    six of `clip`, twenty-two of `_take` (one of them its call of `_where`), one more of @main's, two of `_where_0`,
    and the final reshape. -/
abbrev ops : List (HloOp τ sig (Elt F)) :=
  [ nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg0 main_v0 main_v1 (cmpi .sge : (⟨S16384, .i32⟩ : BufTy).Contents (Elt F) → (⟨S16384, .i32⟩ : BufTy).Contents (Elt F) → (⟨S16384, .i1⟩ : BufTy).Contents (Elt F)),
    nullary main_c_0 (constantI S_ 32 100000#32),
    unary main_c_0 main_v2 (broadcastInDim S16384 ![] bcast_S_S16384 : (⟨S_, .i32⟩ : BufTy).Contents (Elt F) → (⟨S16384, .i32⟩ : BufTy).Contents (Elt F)),
    binary main_arg0 main_v2 main_v3 (cmpi .slt : (⟨S16384, .i32⟩ : BufTy).Contents (Elt F) → (⟨S16384, .i32⟩ : BufTy).Contents (Elt F) → (⟨S16384, .i1⟩ : BufTy).Contents (Elt F)),
    binary main_v1 main_v3 main_v4 (andi : (⟨S16384, .i1⟩ : BufTy).Contents (Elt F) → (⟨S16384, .i1⟩ : BufTy).Contents (Elt F) → (⟨S16384, .i1⟩ : BufTy).Contents (Elt F)),
    nullary main_c_1 (constantI S_ 32 0#32),
    nullary main_c_2 (constantI S_ 32 99999#32),
    TRef.unary (.of main_c_1 : TRef sig ⟨S_, .i32⟩) main_call0.v0 id,
    TRef.unary main_call0.v0 main_call0.v1 (broadcastInDim S16384 ![] bcast_S_S16384),
    TRef.binary main_call0.v1 (.of main_arg0 : TRef sig ⟨S16384, .i32⟩) main_call0.v2 maxsi,
    TRef.unary (.of main_c_2 : TRef sig ⟨S_, .i32⟩) main_call0.v3 id,
    TRef.unary main_call0.v3 main_call0.v4 (broadcastInDim S16384 ![] bcast_S_S16384),
    TRef.binary main_call0.v4 main_call0.v2 main_call0.v5 minsi,
    TRef.nullary main_call1.c (constantI S_ 32 0#32),
    TRef.unary main_call1.c main_call1.v0 (broadcastInDim S16384 ![] bcast_S_S16384),
    TRef.binary (.of main_v5 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_v5 : TRef sig ⟨S16384, .i32⟩) main_call1.v2 main_call1.v3 addi,
    TRef.ternary main_call1.v1 main_call1.v3 (.of main_v5 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg1 : TRef sig ⟨S100000, .i32⟩) main_call1.v5 main_call1.v13 (fun x i => Host.gather gather_S100000_S16384x1_S16384_n_0_n_n_0_1_1 x i),
    TRef.nullary main_call1.c_4 (constantI S_ 32 2147483648#32),
    TRef.unary main_call1.c_4 main_call1.v14 (broadcastInDim S16384 ![] bcast_S_S16384),
    TRef.ternary main_call1.v12 main_call1.v13 main_call1.v14 main_call1.v15 select,
    nullary main_c_3 (constantI S_ 32 0#32),
    TRef.unary (.of main_c_3 : TRef sig ⟨S_, .i32⟩) main_call2.v0 (broadcastInDim S16384 ![] bcast_S_S16384),
    TRef.ternary (.of main_v4 : TRef sig ⟨S16384, .i1⟩) (.of main_v6 : TRef sig ⟨S16384, .i32⟩) main_call2.v0 main_call2.v1 select,
    reshape main_v7 main_v8 rfl shapeCasts_S16384_S16384x1 ]

-- forty-one binds re-associated, one level of rewriting per statement
set_option maxRecDepth 1024 in
/-- @main is that straight line: with the callees' bodies unfolded at their call sites and the records at their
    fields, both sides are one chain of host steps once the sequencing is re-associated. -/
theorem main_eq (c : Dev nD) : main (F := F) c = seq ops := by
  simp only [main, fn_clip.body, fn_where.body, fn_take.body, fn_where_0.body, seq, bind_assoc, pure_bind]

attribute [local irreducible] Host.reduce Host.gather in
set_option maxRecDepth 8192 in
set_option maxHeartbeats 400000 in
/-- The fold of the operations at the result buffer is the reshape of `pre7` of the two arguments' contents: the fold
    unrolled, each operation's result at its own buffer is its function's value and at any other buffer what was there
    (the references' inequalities decided), the typed references' transports are the identity at these literal
    references, and what is left is `pre7` unfolded. The reduction and the gather are kept folded meanwhile (their
    bodies are searches over the operand's elements, which the equation never looks into). -/
theorem out_eq (V : Valuation τ sig (Elt F)) :
    after ops V (main_v8 : DevRef τ sig)
      = shapeCast S16384x1 (pre7 (V (main_arg0 : DevRef τ sig)) (V (main_arg1 : DevRef τ sig))) shapeCasts_S16384_S16384x1 := by
  after_results_simp
  simp only [TRef.toBuf, TRef.ofBuf, cast_eq]
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- The final reshape of a length-16384 vector to a `16384 × 1` column reads, at row `p`, the vector at `p`: the
    two indices have the same row-major position. -/
theorem reshape_column_apply {α : Type} (x : S16384.Idx → α) (p : Fin 16384) (q : Fin 1) :
    shapeCast S16384x1 x shapeCasts_S16384_S16384x1 (ValueIdx.ix2 p q) = x (ValueIdx.ix1 p) := by
  refine shapeCast_apply x _ (ValueIdx.ix2 p q) (ValueIdx.ix1 p) ?_
  rw [Shape.rowMajor_val_one, Shape.rowMajor_val_two]
  show p.val = p.val * 1 + q.val
  have := q.isLt
  omega

/-- The result buffer after the operations, read at row `p`, when every index of the first argument lies in
    `[0, 99999]`: the second argument (the table) at the index the first argument holds at `p`. -/
theorem out_apply (V : Valuation τ sig (Elt F)) (hu : ∀ y : S16384.Idx, (V (main_arg0 : DevRef τ sig) y).toNat < 100000)
    (p : Fin 16384) (q : Fin 1) :
    after ops V (main_v8 : DevRef τ sig) (ValueIdx.ix2 p q)
      = V (main_arg1 : DevRef τ sig) (Gather1.pos 100000 (by norm_num) (V (main_arg0 : DevRef τ sig) (ValueIdx.ix1 p)).toNat) := by
  rw [out_eq, reshape_column_apply]
  exact pre7_apply _ _ hu _

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., ternary_bufs_sub .., reshape_bufs_sub ..⟩

/-- At the compiled mesh, for any float values, from any memory with zero counters: every weakly fair execution of @main
    on the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.PreBound.lean ====
import proofs.«210393_g26654567039053_cont_9to1_1641_13_alg».proof.Proof.Gen.Pre_input_domain
import Idealize.ShloMosaic.Lib.ReduceAll
import Idealize.ShloMosaic.Lib.ValueIdx

/-!
# The input-domain precondition, decoded

The precondition is the word `1` exactly when every index lies in `[0, 99999]` and every table entry lies in
`[0, 99999]` (two `all`s of a conjunction of two signed comparisons, joined by `and`). Read back at the index vector:
every index, as an unsigned word, is below `100000`.
-/

namespace Cert.Pre_input_domain.Bound

open Idealize.ShloMosaic Cert.Pre_input_domain Cert.Pre_input_domain.Gen

/-- The rank-zero shape has one index. -/
instance : Subsingleton S_.Idx := ⟨fun a b => funext fun d => d.elim0⟩

/-- A 32-bit word that is at least `0` and at most `99999` as a signed integer is below `100000` as an unsigned one:
    nonnegative, so below `2^31` and the two readings agree. -/
theorem toNat_lt_of_signed_range (x : BitVec 32) (h0 : (0#32 : BitVec 32).toInt ≤ x.toInt)
    (h1 : x.toInt ≤ (99999#32 : BitVec 32).toInt) : x.toNat < 100000 := by
  have e0 : (0#32 : BitVec 32).toInt = 0 := by decide
  have e1 : (99999#32 : BitVec 32).toInt = 99999 := by decide
  rw [e0] at h0
  rw [e1] at h1
  rw [BitVec.toInt_eq_toNat_cond] at h0 h1
  have := x.isLt
  split at h0 <;> omega

/-- The precondition holding, every index word is below `100000`. -/
theorem uis_lt {F : FTy → Type} [FloatOps F] (u : IVec S16384 32) (v : IVec S100000 32)
    (h : Cert.Pre_input_domain.fn (F := F) u v = fun _ => 1#1) : ∀ y, (u y).toNat < 100000 := by
  intro y
  have h0 := congrFun h ValueIdx.ix0
  dsimp only [Cert.Pre_input_domain.fn] at h0
  -- the outer `and` of the two `all`s; the first is the one over the indices
  obtain ⟨hu, -⟩ := IntOp.andi_eq_one.1 h0
  -- every element of the reduced mask is `1`
  have hy := Host.reduce_andi_all _ _ _ _ _ hu y
  -- the mask at `y` is the `and` of the two comparisons
  obtain ⟨hge, hle⟩ := IntOp.andi_eq_one.1 hy
  exact toNat_lt_of_signed_range (u y) (IntOp.cmpi_sge.1 hge) (IntOp.cmpi_sle.1 hle)

/-- Likewise every table entry is below `100000`. -/
theorem values_lt {F : FTy → Type} [FloatOps F] (u : IVec S16384 32) (v : IVec S100000 32)
    (h : Cert.Pre_input_domain.fn (F := F) u v = fun _ => 1#1) : ∀ z, (v z).toNat < 100000 := by
  intro z
  have h0 := congrFun h ValueIdx.ix0
  dsimp only [Cert.Pre_input_domain.fn] at h0
  obtain ⟨-, hv⟩ := IntOp.andi_eq_one.1 h0
  have hz := Host.reduce_andi_all _ _ _ _ _ hv z
  obtain ⟨hge, hle⟩ := IntOp.andi_eq_one.1 hz
  exact toNat_lt_of_signed_range (v z) (IntOp.cmpi_sge.1 hge) (IntOp.cmpi_sle.1 hle)

end Cert.Pre_input_domain.Bound
-- ==== Proof.lean ====
/-
  The lookup `out[p, 0] = values[uis[p]]` (16384 positions, a table of 100000 words), computed by sixteen vector
  subcores of one SparseCore against a host reference that clips the index, gathers, and masks out-of-range indices with 0.

  Under the precondition every word of `uis` lies in [0, 99999], so each index names a position of `values`: the
  kernel's indirect gathers are served in full (its threads terminate), and on the reference's side the range mask is
  true, the clip is the identity, the negative-index wrap does not fire and the bounds check of the gather passes: both
  sides are `values` at the position `uis p` names, row by row.

  The kernel's run (both as printed and idealized: the two programs are the same text) is the launch theorem applied to
  one subcore's task; the reference's run is its forty-one host operations folded over the launch contents. The idealization
  rewrote nothing, so `preserves` is trivial; no float occurs, so the two results are compared as words.
-/
import proofs.«210393_g26654567039053_cont_9to1_1641_13_alg».proof.Defs
import proofs.«210393_g26654567039053_cont_9to1_1641_13_alg».proof.Proof.Gen.Kernel
import proofs.«210393_g26654567039053_cont_9to1_1641_13_alg».proof.Proof.Gen.Kernel.Skeleton
import proofs.«210393_g26654567039053_cont_9to1_1641_13_alg».proof.Proof.Gen.KernelIdeal
import proofs.«210393_g26654567039053_cont_9to1_1641_13_alg».proof.Proof.Gen.KernelIdeal.Skeleton
import proofs.«210393_g26654567039053_cont_9to1_1641_13_alg».proof.Proof.Gen.ReferenceIdeal
import proofs.«210393_g26654567039053_cont_9to1_1641_13_alg».proof.Proof.Gen.Pre_input_domain
import proofs.«210393_g26654567039053_cont_9to1_1641_13_alg».proof.Proof.BitsLaunch
import proofs.«210393_g26654567039053_cont_9to1_1641_13_alg».proof.Proof.IdealLaunch
import proofs.«210393_g26654567039053_cont_9to1_1641_13_alg».proof.Proof.RefRun
import proofs.«210393_g26654567039053_cont_9to1_1641_13_alg».proof.Proof.PreBound
import Idealize.ShloMosaic.Adequacy
import Idealize.ShloMosaic.Init

noncomputable section

namespace Cert.Proof

open Idealize.ShloMosaic Idealize.SL.Sem

/-- The precondition bounds every word of `uis` by the table's length, at either instance. -/
theorem preOK_bits (m : (ℓ : Loc Cert.Kernel.nD Cert.Kernel.τ Cert.Kernel.sig) → Buf (Elt Bits) ℓ)
    (h : @Cert.Pre_Kernel Cert.Pre_input_domain.Gen.facts m) : BitsLookup.PreOK (F := Bits) m :=
  fun d y => Cert.Pre_input_domain.Bound.uis_lt (F := Bits) _ _ (h d) y
theorem preOK_ideal (m : (ℓ : Loc Cert.KernelIdeal.nD Cert.KernelIdeal.τ Cert.KernelIdeal.sig) → Buf (Elt Ideal) ℓ)
    (h : @Cert.Pre_KernelIdeal Cert.Pre_input_domain.Gen.facts m) : IdealLookup.PreOK (F := Ideal) m :=
  fun d y => Cert.Pre_input_domain.Bound.uis_lt (F := Ideal) _ _ (h d) y

/-- The kernel as printed: its run with the result dropped. -/
theorem frame_p : @Cert.frame_Kernel Cert.Kernel.Gen.facts Cert.Pre_input_domain.Gen.facts := fun m ρ hpre =>
  (θ_run Cert.Kernel.defs _ _).mono (fun _ h c => ⟨(h c).1, (h c).2.1⟩) (BitsLookup.run_main (F := Bits) m ρ (preOK_bits m hpre))

/-- The idealized kernel: the same. -/
theorem frame_pi : @Cert.frame_KernelIdeal Cert.KernelIdeal.Gen.facts Cert.Pre_input_domain.Gen.facts := fun m ρ hpre =>
  (θ_run Cert.KernelIdeal.defs _ _).mono (fun _ h c => ⟨(h c).1, (h c).2.1⟩) (IdealLookup.run_main (F := Ideal) m ρ (preOK_ideal m hpre))

/-- The reference: the host operations' fold leaves the arguments where they were. -/
theorem frame_ri : @Cert.frame_ReferenceIdeal Cert.ReferenceIdeal.Gen.facts Cert.Pre_input_domain.Gen.facts := fun m ρ _ =>
  (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _)⟩)
    (Cert.ReferenceIdeal.RefValue.run_main (F := Ideal) m ρ)

/-- Both programs end with the column whose row `p` is `values` at the position `uis p` names: the kernel by its
    gathers, the reference because under the precondition its mask, clip and bounds check are all the identity. -/
theorem algebraic : @Cert.algebraic_KernelIdeal_ReferenceIdeal Cert.KernelIdeal.Gen.facts Cert.ReferenceIdeal.Gen.facts Cert.Pre_input_domain.Gen.facts := by
  intro m ρ m' ρ' hpre hagree
  refine ⟨fun c => IdealLookup.RES (F := Ideal) m c, ?_, ?_⟩
  · exact (θ_run Cert.KernelIdeal.defs _ _).mono (fun _ h c => ⟨(h c).2.2, (h c).1, (h c).2.1⟩)
      (IdealLookup.run_main (F := Ideal) m ρ (preOK_ideal m hpre))
  · refine (θ_run Cert.ReferenceIdeal.defs _ _).mono
      (fun _ h c => ⟨(h c Cert.ReferenceIdeal.main_v8).trans ?_,
        (h c Cert.ReferenceIdeal.main_arg0).trans (Cert.ReferenceIdeal.RefValue.arg0_eq _),
        (h c Cert.ReferenceIdeal.main_arg1).trans (Cert.ReferenceIdeal.RefValue.arg1_eq _)⟩)
      (Cert.ReferenceIdeal.RefValue.run_main (F := Ideal) m' ρ')
    have hu : ∀ y, (m (IdealLookup.uLoc c) y).toNat < 100000 := preOK_ideal m hpre c
    have hX : Cert.ReferenceIdeal.RefValue.pre7 (m (IdealLookup.uLoc c)) (m (IdealLookup.vLoc c)) = IdealLookup.Gv (F := Ideal) m c :=
      funext fun y => Cert.ReferenceIdeal.RefValue.pre7_apply _ _ hu y
    have e0 : StableHlo.launchContents m' c (Proc.tc.devRef Cert.ReferenceIdeal.main_arg0) = m (IdealLookup.uLoc c) := (hagree c).1
    have e1 : StableHlo.launchContents m' c (Proc.tc.devRef Cert.ReferenceIdeal.main_arg1) = m (IdealLookup.vLoc c) := (hagree c).2
    rw [Cert.ReferenceIdeal.RefValue.out_eq, e0, e1, hX]
    show _ = IdealLookup.RES (F := Ideal) m c
    rw [IdealLookup.RES_eq]

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
